-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x55 : Shape := ⟨2, ![200000, 55]⟩
abbrev S2x6400000 : Shape := ⟨2, ![2, 6400000]⟩
abbrev S55x32 : Shape := ⟨2, ![55, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S200000x55 : S_.BroadcastsInDim S200000x55 (![] : Fin 0 → Fin S200000x55.rank)
  reducesTo_S200000x55_S_d0_1 : S200000x55.ReducesTo [0, 1] S_
  h_S_ : 0 < S_.numel
  bcast_S_S55x32 : S_.BroadcastsInDim S55x32 (![] : Fin 0 → Fin S55x32.rank)
  reducesTo_S55x32_S_d0_1 : S55x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S16 .f32) (main_arg6 : FVec F S16x2 .f32) (main_arg7 : FVec F S2 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg6
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S200000x55 .f32) (main_arg1 : IVec S2x6400000 32) (main_arg2 : FVec F S55x32 .f32) (main_arg3 : FVec F S32 .f32) (main_arg4 : FVec F S32x16 .f32) (main_arg5 : FVec F S16 .f32) (main_arg6 : FVec F S16x2 .f32) (main_arg7 : FVec F S2 .f32) : IVec S_ 1 :=
  let main_v0 : FVec F S200000x55 .f32 := Host.absf main_arg0
  let main_cst : FVec F S_ .f32 := constant S_ .f32 0x7F800000#32
  let main_v1 : FVec F S200000x55 .f32 := broadcastInDim S200000x55 ![] bcast_S_S200000x55 main_cst
  let main_v2 : IVec S200000x55 1 := cmpf .olt main_v0 main_v1
  let main_c : IVec S_ 1 := constantI S_ 1 1#1
  let main_v3 : IVec S_ 1 := (fun x v => Host.reduce IntOp.andi x v reducesTo_S200000x55_S_d0_1 h_S_) main_v2 main_c
  let main_v4 : FVec F S55x32 .f32 := Host.absf main_arg2
  let main_cst_0 : FVec F S_ .f32 := constant S_ .f32 0x7F800000#32
  let main_v5 : FVec F S55x32 .f32 := broadcastInDim S55x32 ![] bcast_S_S55x32 main_cst_0
  let main_v6 : IVec S55x32 1 := cmpf .olt main_v4 main_v5
  let main_c_1 : IVec S_ 1 := constantI S_ 1 1#1
  let main_v7 : IVec S_ 1 := (fun x v => Host.reduce IntOp.andi x v reducesTo_S55x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S200000x55 : Shape := ⟨2, ![200000, 55]⟩
abbrev S2x6400000 : Shape := ⟨2, ![2, 6400000]⟩
abbrev S55x32 : Shape := ⟨2, ![55, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x1 : Shape := ⟨2, ![200000, 1]⟩
abbrev S200000x32 : Shape := ⟨2, ![200000, 32]⟩
abbrev S2000x55 : Shape := ⟨2, ![2000, 55]⟩
abbrev S2000x32 : Shape := ⟨2, ![2000, 32]⟩
abbrev S6400000x32 : Shape := ⟨2, ![6400000, 32]⟩
abbrev S1x32 : Shape := ⟨2, ![1, 32]⟩
abbrev S2000x1 : Shape := ⟨2, ![2000, 1]⟩
abbrev S200000x16 : Shape := ⟨2, ![200000, 16]⟩
abbrev S2000x16 : Shape := ⟨2, ![2000, 16]⟩
abbrev S6400000x16 : Shape := ⟨2, ![6400000, 16]⟩
abbrev S1x16 : Shape := ⟨2, ![1, 16]⟩
abbrev S200000x2 : Shape := ⟨2, ![200000, 2]⟩
abbrev S2000x2 : Shape := ⟨2, ![2000, 2]⟩
abbrev S6400000x2 : Shape := ⟨2, ![6400000, 2]⟩
abbrev S1x2 : Shape := ⟨2, ![1, 2]⟩
abbrev S2000 : Shape := ⟨1, ![2000]⟩

abbrev nBuf : Space → Nat
  | .hbm => 107
  | .vmem => 42
  | .smem => 0
  | _ => 0

abbrev bufTy : (tb : Table) → Fin (tcTables nBuf tb) → BufTy
  | .hbm, ⟨0, _⟩ => ⟨S200000x55, .f32⟩
  | .hbm, ⟨1, _⟩ => ⟨S2x6400000, .i32⟩
  | .hbm, ⟨2, _⟩ => ⟨S55x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x2, .f32⟩
  | .hbm, ⟨7, _⟩ => ⟨S2, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .f32⟩
  | .hbm, ⟨13, _⟩ => ⟨S6400000, .f32⟩
  | .hbm, ⟨14, _⟩ => ⟨S_, .f32⟩
  | .hbm, ⟨15, _⟩ => ⟨S200000, .f32⟩
  | .hbm, ⟨16, _⟩ => ⟨S6400000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000, .f32⟩
  | .hbm, ⟨38, _⟩ => ⟨S_, .i32⟩
  | .hbm, ⟨39, _⟩ => ⟨S6400000, .i32⟩
  | .hbm, ⟨40, _⟩ => ⟨S6400000, .i1⟩
  | .hbm, ⟨41, _⟩ => ⟨S_, .i32⟩
  | .hbm, ⟨42, _⟩ => ⟨S6400000, .i32⟩
  | .hbm, ⟨43, _⟩ => ⟨S6400000, .i32⟩
  | .hbm, ⟨44, _⟩ => ⟨S6400000, .i32⟩
  | .hbm, ⟨45, _⟩ => ⟨S6400000x1, .i32⟩
  | .hbm, ⟨46, _⟩ => ⟨S6400000, .f32⟩
  | .hbm, ⟨47, _⟩ => ⟨S6400000, .f32⟩
  | .hbm, ⟨48, _⟩ => ⟨S200000, .f32⟩
  | .hbm, ⟨49, _⟩ => ⟨S200000x1, .f32⟩
  | .hbm, ⟨50, _⟩ => ⟨S200000x32, .f32⟩
  | .hbm, ⟨51, _⟩ => ⟨S_, .i32⟩
  | .hbm, ⟨52, _⟩ => ⟨S6400000, .i32⟩
  | .hbm, ⟨53, _⟩ => ⟨S6400000, .i1⟩
  | .hbm, ⟨54, _⟩ => ⟨S_, .i32⟩
  | .hbm, ⟨55, _⟩ => ⟨S6400000, .i32⟩
  | .hbm, ⟨56, _⟩ => ⟨S6400000, .i32⟩
  | .hbm, ⟨57, _⟩ => ⟨S6400000, .i32⟩
  | .hbm, ⟨58, _⟩ => ⟨S6400000x1, .i32⟩
  | .hbm, ⟨59, _⟩ => ⟨S6400000x32, .f32⟩
  | .hbm, ⟨60, _⟩ => ⟨S6400000x1, .f32⟩
  | .hbm, ⟨61, _⟩ => ⟨S6400000x32, .f32⟩
  | .hbm, ⟨62, _⟩ => ⟨S6400000x32, .f32⟩
  | .hbm, ⟨63, _⟩ => ⟨S_, .f32⟩
  | .hbm, ⟨64, _⟩ => ⟨S200000x32, .f32⟩
  | .hbm, ⟨65, _⟩ => ⟨S6400000x1, .i32⟩
  | .hbm, ⟨66, _⟩ => ⟨S200000x32, .f32⟩
  | .hbm, ⟨67, _⟩ => ⟨S1x32, .f32⟩
  | .hbm, ⟨68, _⟩ => ⟨S200000x32, .f32⟩
  | .hbm, ⟨69, _⟩ => ⟨S200000x16, .f32⟩
  | .hbm, ⟨70, _⟩ => ⟨S_, .i32⟩
  | .hbm, ⟨71, _⟩ => ⟨S6400000, .i32⟩
  | .hbm, ⟨72, _⟩ => ⟨S6400000, .i1⟩
  | .hbm, ⟨73, _⟩ => ⟨S_, .i32⟩
  | .hbm, ⟨74, _⟩ => ⟨S6400000, .i32⟩
  | .hbm, ⟨75, _⟩ => ⟨S6400000, .i32⟩
  | .hbm, ⟨76, _⟩ => ⟨S6400000, .i32⟩
  | .hbm, ⟨77, _⟩ => ⟨S6400000x1, .i32⟩
  | .hbm, ⟨78, _⟩ => ⟨S6400000x16, .f32⟩
  | .hbm, ⟨79, _⟩ => ⟨S6400000x1, .f32⟩
  | .hbm, ⟨80, _⟩ => ⟨S6400000x16, .f32⟩
  | .hbm, ⟨81, _⟩ => ⟨S6400000x16, .f32⟩
  | .hbm, ⟨82, _⟩ => ⟨S_, .f32⟩
  | .hbm, ⟨83, _⟩ => ⟨S200000x16, .f32⟩
  | .hbm, ⟨84, _⟩ => ⟨S6400000x1, .i32⟩
  | .hbm, ⟨85, _⟩ => ⟨S200000x16, .f32⟩
  | .hbm, ⟨86, _⟩ => ⟨S1x16, .f32⟩
  | .hbm, ⟨87, _⟩ => ⟨S200000x16, .f32⟩
  | .hbm, ⟨88, _⟩ => ⟨S200000x2, .f32⟩
  | .hbm, ⟨89, _⟩ => ⟨S_, .i32⟩
  | .hbm, ⟨90, _⟩ => ⟨S6400000, .i32⟩
  | .hbm, ⟨91, _⟩ => ⟨S6400000, .i1⟩
  | .hbm, ⟨92, _⟩ => ⟨S_, .i32⟩
  | .hbm, ⟨93, _⟩ => ⟨S6400000, .i32⟩
  | .hbm, ⟨94, _⟩ => ⟨S6400000, .i32⟩
  | .hbm, ⟨95, _⟩ => ⟨S6400000, .i32⟩
  | .hbm, ⟨96, _⟩ => ⟨S6400000x1, .i32⟩
  | .hbm, ⟨97, _⟩ => ⟨S6400000x2, .f32⟩
  | .hbm, ⟨98, _⟩ => ⟨S6400000x1, .f32⟩
  | .hbm, ⟨99, _⟩ => ⟨S6400000x2, .f32⟩
  | .hbm, ⟨100, _⟩ => ⟨S6400000x2, .f32⟩
  | .hbm, ⟨101, _⟩ => ⟨S_, .f32⟩
  | .hbm, ⟨102, _⟩ => ⟨S200000x2, .f32⟩
  | .hbm, ⟨103, _⟩ => ⟨S6400000x1, .i32⟩
  | .hbm, ⟨104, _⟩ => ⟨S200000x2, .f32⟩
  | .hbm, ⟨105, _⟩ => ⟨S1x2, .f32⟩
  | .hbm, ⟨106, _⟩ => ⟨S200000x2, .f32⟩
  | .local _ .vmem, ⟨0, _⟩ => ⟨S2000x55, .f32⟩
  | .local _ .vmem, ⟨1, _⟩ => ⟨S2000x55, .f32⟩
  | .local _ .vmem, ⟨2, _⟩ => ⟨S55x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x1, .f32⟩
  | .local _ .vmem, ⟨10, _⟩ => ⟨S2000x1, .f32⟩
  | .local _ .vmem, ⟨11, _⟩ => ⟨S1x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S32x16, .f32⟩
  | .local _ .vmem, ⟨17, _⟩ => ⟨S2000x16, .f32⟩
  | .local _ .vmem, ⟨18, _⟩ => ⟨S2000x16, .f32⟩
  | .local _ .vmem, ⟨19, _⟩ => ⟨S2000x16, .f32⟩
  | .local _ .vmem, ⟨20, _⟩ => ⟨S2000x16, .f32⟩
  | .local _ .vmem, ⟨21, _⟩ => ⟨S2000x16, .f32⟩
  | .local _ .vmem, ⟨22, _⟩ => ⟨S2000x16, .f32⟩
  | .local _ .vmem, ⟨23, _⟩ => ⟨S2000x1, .f32⟩
  | .local _ .vmem, ⟨24, _⟩ => ⟨S2000x1, .f32⟩
  | .local _ .vmem, ⟨25, _⟩ => ⟨S1x16, .f32⟩
  | .local _ .vmem, ⟨26, _⟩ => ⟨S2000x16, .f32⟩
  | .local _ .vmem, ⟨27, _⟩ => ⟨S2000x16, .f32⟩
  | .local _ .vmem, ⟨28, _⟩ => ⟨S2000x16, .f32⟩
  | .local _ .vmem, ⟨29, _⟩ => ⟨S2000x16, .f32⟩
  | .local _ .vmem, ⟨30, _⟩ => ⟨S16x2, .f32⟩
  | .local _ .vmem, ⟨31, _⟩ => ⟨S2000x2, .f32⟩
  | .local _ .vmem, ⟨32, _⟩ => ⟨S2000x2, .f32⟩
  | .local _ .vmem, ⟨33, _⟩ => ⟨S2000x2, .f32⟩
  | .local _ .vmem, ⟨34, _⟩ => ⟨S2000x2, .f32⟩
  | .local _ .vmem, ⟨35, _⟩ => ⟨S2000x2, .f32⟩
  | .local _ .vmem, ⟨36, _⟩ => ⟨S2000x2, .f32⟩
  | .local _ .vmem, ⟨37, _⟩ => ⟨S2000x1, .f32⟩
  | .local _ .vmem, ⟨38, _⟩ => ⟨S2000x1, .f32⟩
  | .local _ .vmem, ⟨39, _⟩ => ⟨S1x2, .f32⟩
  | .local _ .vmem, ⟨40, _⟩ => ⟨S2000x2, .f32⟩
  | .local _ .vmem, ⟨41, _⟩ => ⟨S2000x2, .f32⟩
  | _, _ => ⟨S200000x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S55x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  shapeCasts_S200000_S200000x1 : S200000.ShapeCasts S200000x1
  inb_S2000x55_S2000x55_0_0 : ∀ a, (![0, 0] : Fin 2 → Nat) a + S2000x55.size a ≤ S2000x55.size a
  h_S2000x55 : 0 < S2000x55.numel
  inb_S55x32_S55x32_0_0 : ∀ a, (![0, 0] : Fin 2 → Nat) a + S55x32.size a ≤ S55x32.size a
  h_S55x32 : 0 < S55x32.numel
  inb_S2000x32_S2000x32_0_0 : ∀ a, (![0, 0] : Fin 2 → Nat) a + S2000x32.size a ≤ S2000x32.size a
  h_S2000x32 : 0 < S2000x32.numel
  bcast_S6400000x1_S6400000x32_0_1 : S6400000x1.BroadcastsInDim S6400000x32 (![0, 1] : Fin 2 → Fin S6400000x32.rank)
  bcast_S_S200000x32 : S_.BroadcastsInDim S200000x32 (![] : Fin 0 → Fin S200000x32.rank)
  shapeCasts_S32_S1x32 : S32.ShapeCasts S1x32
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  shapeCasts_S16_S1x16 : S16.ShapeCasts S1x16
  shapeCasts_S2000x16_S2000x16 : S2000x16.ShapeCasts S2000x16
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x2_S16x2_0_0 : ∀ a, (![0, 0] : Fin 2 → Nat) a + S16x2.size a ≤ S16x2.size a
  h_S16x2 : 0 < S16x2.numel
  inb_S2000x2_S2000x2_0_0 : ∀ a, (![0, 0] : Fin 2 → Nat) a + S2000x2.size a ≤ S2000x2.size a
  h_S2000x2 : 0 < S2000x2.numel
  bcast_S6400000x1_S6400000x2_0_1 : S6400000x1.BroadcastsInDim S6400000x2 (![0, 1] : Fin 2 → Fin S6400000x2.rank)
  bcast_S_S200000x2 : S_.BroadcastsInDim S200000x2 (![] : Fin 0 → Fin S200000x2.rank)
  shapeCasts_S2_S1x2 : S2.ShapeCasts S1x2
  shapeCasts_S2000x2_S2000x2 : S2000x2.ShapeCasts S2000x2
  broadcasts_S2000x1_S2000x2 : S2000x1.Broadcasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  dot_S2000x55_S55x32_S2000x32_1_0_0_1_n_n_wf : DotDims.WF S2000x55 S55x32 S2000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  dot_S2000x32_S32x16_S2000x16_1_0_0_1_n_n_wf : DotDims.WF S2000x32 S32x16 S2000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S2000x16_S16x2_S2000x2_1_0_0_1_n_n_wf : DotDims.WF S2000x16 S16x2 S2000x2 [1] [0] [0] [1] [] []
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x55.size a ≤ S200000x55.size a
  hwx0_0 : ∀ i : grid0.Coords, EltTy.bits .f32 = 32 ∨ (Rect.block (s := S200000x55) S2000x55.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S55x32.size a ≤ S55x32.size a
  hwx0_1 : ∀ i : grid0.Coords, EltTy.bits .f32 = 32 ∨ (Rect.block (s := S55x32) S55x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S200000x32.size a
  hwx0_2 : ∀ i : grid0.Coords, EltTy.bits .f32 = 32 ∨ (Rect.block (s := S200000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S200000x32.size a
  hwx1_0 : ∀ i : grid1.Coords, EltTy.bits .f32 = 32 ∨ (Rect.block (s := S200000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S200000x32.size a
  hwx1_1 : ∀ i : grid1.Coords, EltTy.bits .f32 = 32 ∨ (Rect.block (s := S200000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S200000x1.size a
  hwx1_2 : ∀ i : grid1.Coords, EltTy.bits .f32 = 32 ∨ (Rect.block (s := S200000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S200000x32.size a
  hwx1_4 : ∀ i : grid1.Coords, EltTy.bits .f32 = 32 ∨ (Rect.block (s := S200000x32) S2000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S200000x32.size a
  hwx2_0 : ∀ i : grid2.Coords, EltTy.bits .f32 = 32 ∨ (Rect.block (s := S200000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S200000x16.size a
  hwx2_2 : ∀ i : grid2.Coords, EltTy.bits .f32 = 32 ∨ (Rect.block (s := S200000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S200000x16.size a
  hwx3_0 : ∀ i : grid3.Coords, EltTy.bits .f32 = 32 ∨ (Rect.block (s := S200000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x16.size a ≤ S200000x16.size a
  hwx3_1 : ∀ i : grid3.Coords, EltTy.bits .f32 = 32 ∨ (Rect.block (s := S200000x16) S2000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S200000x1.size a
  hwx3_2 : ∀ i : grid3.Coords, EltTy.bits .f32 = 32 ∨ (Rect.block (s := S200000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x16.size a ≤ S200000x16.size a
  hwx3_4 : ∀ i : grid3.Coords, EltTy.bits .f32 = 32 ∨ (Rect.block (s := S200000x16) S2000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x16.size a ≤ S200000x16.size a
  hwx4_0 : ∀ i : grid4.Coords, EltTy.bits .f32 = 32 ∨ (Rect.block (s := S200000x16) S2000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x2.size a ≤ S16x2.size a
  hwx4_1 : ∀ i : grid4.Coords, EltTy.bits .f32 = 32 ∨ (Rect.block (s := S16x2) S16x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x2.size a ≤ S200000x2.size a
  hwx4_2 : ∀ i : grid4.Coords, EltTy.bits .f32 = 32 ∨ (Rect.block (s := S200000x2) S2000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x2.size a ≤ S200000x2.size a
  hwx5_0 : ∀ i : grid5.Coords, EltTy.bits .f32 = 32 ∨ (Rect.block (s := S200000x2) S2000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x2.size a ≤ S200000x2.size a
  hwx5_1 : ∀ i : grid5.Coords, EltTy.bits .f32 = 32 ∨ (Rect.block (s := S200000x2) S2000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S200000x1.size a
  hwx5_2 : ∀ i : grid5.Coords, EltTy.bits .f32 = 32 ∨ (Rect.block (s := S200000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x2.size a ≤ S200000x2.size a
  hwx5_4 : ∀ i : grid5.Coords, EltTy.bits .f32 = 32 ∨ (Rect.block (s := S200000x2) S2000x2.size (cc5_transform_4 i) (hinb5_4 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def dot_S2000x55_S55x32_S2000x32_1_0_0_1_n_n : DotDims S2000x55 S55x32 S2000x32 where
  lhsContracting := [1]
  rhsContracting := [0]
  lhsNonContracting := [0]
  rhsNonContracting := [1]
  lhsBatch := []
  rhsBatch := []
  wf := dot_S2000x55_S55x32_S2000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S2000x16_S16x2_S2000x2_1_0_0_1_n_n : DotDims S2000x16 S16x2 S2000x2 where
  lhsContracting := [1]
  rhsContracting := [0]
  lhsNonContracting := [0]
  rhsNonContracting := [1]
  lhsBatch := []
  rhsBatch := []
  wf := dot_S2000x16_S16x2_S2000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf

abbrev win0_0 : Pipeline.Window sig grid0 :=
  Pipeline.Window.ofSpec (Memref.whole main_arg0) S2000x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S55x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S2000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S2000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S2000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S2000x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S200000x55 : Shape := ⟨2, ![200000, 55]⟩
abbrev S2x6400000 : Shape := ⟨2, ![2, 6400000]⟩
abbrev S55x32 : Shape := ⟨2, ![55, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x32 : Shape := ⟨2, ![200000, 32]⟩
abbrev S6400000x32 : Shape := ⟨2, ![6400000, 32]⟩
abbrev S200000x1 : Shape := ⟨2, ![200000, 1]⟩
abbrev S1x32 : Shape := ⟨2, ![1, 32]⟩
abbrev S200000x16 : Shape := ⟨2, ![200000, 16]⟩
abbrev S6400000x16 : Shape := ⟨2, ![6400000, 16]⟩
abbrev S1x16 : Shape := ⟨2, ![1, 16]⟩
abbrev S200000x2 : Shape := ⟨2, ![200000, 2]⟩
abbrev S6400000x2 : Shape := ⟨2, ![6400000, 2]⟩
abbrev S1x2 : Shape := ⟨2, ![1, 2]⟩

abbrev nBuf : Space → Nat
  | .hbm => 146
  | .vmem => 0
  | .smem => 0
  | _ => 0

abbrev hbmTy0_0 (i : Nat) : BufTy := match i % 128 with
  | 0 => ⟨S200000x55, .f32⟩
  | 1 => ⟨S2x6400000, .i32⟩
  | 2 => ⟨S55x32, .f32⟩
  | 3 => ⟨S32, .f32⟩
  | 4 => ⟨S32x16, .f32⟩
  | 5 => ⟨S16, .f32⟩
  | 6 => ⟨S16x2, .f32⟩
  | 7 => ⟨S2, .f32⟩
  | 8 => ⟨S1x6400000, .i32⟩
  | 9 => ⟨S6400000, .i32⟩
  | 10 => ⟨S1x6400000, .i32⟩
  | 11 => ⟨S6400000, .i32⟩
  | 12 => ⟨S1x6400000, .i32⟩
  | 13 => ⟨S6400000, .i32⟩
  | 14 => ⟨S1x6400000, .i32⟩
  | 15 => ⟨S6400000, .i32⟩
  | 16 => ⟨S_, .f32⟩
  | 17 => ⟨S6400000, .f32⟩
  | 18 => ⟨S_, .f32⟩
  | 19 => ⟨S200000, .f32⟩
  | 20 => ⟨S6400000x1, .i32⟩
  | 21 => ⟨S200000, .f32⟩
  | 22 => ⟨S_, .f32⟩
  | 23 => ⟨S200000, .f32⟩
  | 24 => ⟨S200000, .f32⟩
  | 25 => ⟨S_, .f32⟩
  | 26 => ⟨S200000, .f32⟩
  | 27 => ⟨S200000, .i1⟩
  | 28 => ⟨S200000, .f32⟩
  | 29 => ⟨S_, .f32⟩
  | 30 => ⟨S_, .f32⟩
  | 31 => ⟨S200000, .f32⟩
  | 32 => ⟨S200000, .f32⟩
  | 33 => ⟨S_, .i32⟩
  | 34 => ⟨S6400000, .i32⟩
  | 35 => ⟨S6400000, .i1⟩
  | 36 => ⟨S_, .i32⟩
  | 37 => ⟨S6400000, .i32⟩
  | 38 => ⟨S6400000, .i32⟩
  | 39 => ⟨S6400000, .i32⟩
  | 40 => ⟨S6400000x1, .i32⟩
  | 41 => ⟨S6400000, .f32⟩
  | 42 => ⟨S_, .i32⟩
  | 43 => ⟨S6400000, .i32⟩
  | 44 => ⟨S6400000, .i1⟩
  | 45 => ⟨S_, .i32⟩
  | 46 => ⟨S6400000, .i32⟩
  | 47 => ⟨S6400000, .i32⟩
  | 48 => ⟨S6400000, .i32⟩
  | 49 => ⟨S6400000x1, .i32⟩
  | 50 => ⟨S6400000, .f32⟩
  | 51 => ⟨S6400000, .f32⟩
  | 52 => ⟨S200000, .f32⟩
  | 53 => ⟨S200000x32, .f32⟩
  | 54 => ⟨S_, .i32⟩
  | 55 => ⟨S6400000, .i32⟩
  | 56 => ⟨S6400000, .i1⟩
  | 57 => ⟨S_, .i32⟩
  | 58 => ⟨S6400000, .i32⟩
  | 59 => ⟨S6400000, .i32⟩
  | 60 => ⟨S6400000, .i32⟩
  | 61 => ⟨S6400000x1, .i32⟩
  | 62 => ⟨S6400000x32, .f32⟩
  | 63 => ⟨S6400000x1, .f32⟩
  | 64 => ⟨S6400000x32, .f32⟩
  | 65 => ⟨S6400000x32, .f32⟩
  | 66 => ⟨S_, .f32⟩
  | 67 => ⟨S200000x32, .f32⟩
  | 68 => ⟨S6400000x1, .i32⟩
  | 69 => ⟨S200000x32, .f32⟩
  | 70 => ⟨S200000x1, .f32⟩
  | 71 => ⟨S200000x32, .f32⟩
  | 72 => ⟨S200000x32, .f32⟩
  | 73 => ⟨S200000x32, .f32⟩
  | 74 => ⟨S1x32, .f32⟩
  | 75 => ⟨S200000x32, .f32⟩
  | 76 => ⟨S200000x32, .f32⟩
  | 77 => ⟨S_, .f32⟩
  | 78 => ⟨S200000x32, .f32⟩
  | 79 => ⟨S200000x32, .f32⟩
  | 80 => ⟨S200000x16, .f32⟩
  | 81 => ⟨S_, .i32⟩
  | 82 => ⟨S6400000, .i32⟩
  | 83 => ⟨S6400000, .i1⟩
  | 84 => ⟨S_, .i32⟩
  | 85 => ⟨S6400000, .i32⟩
  | 86 => ⟨S6400000, .i32⟩
  | 87 => ⟨S6400000, .i32⟩
  | 88 => ⟨S6400000x1, .i32⟩
  | 89 => ⟨S6400000x16, .f32⟩
  | 90 => ⟨S6400000x1, .f32⟩
  | 91 => ⟨S6400000x16, .f32⟩
  | 92 => ⟨S6400000x16, .f32⟩
  | 93 => ⟨S_, .f32⟩
  | 94 => ⟨S200000x16, .f32⟩
  | 95 => ⟨S6400000x1, .i32⟩
  | 96 => ⟨S200000x16, .f32⟩
  | 97 => ⟨S200000x1, .f32⟩
  | 98 => ⟨S200000x16, .f32⟩
  | 99 => ⟨S200000x16, .f32⟩
  | 100 => ⟨S200000x16, .f32⟩
  | 101 => ⟨S1x16, .f32⟩
  | 102 => ⟨S200000x16, .f32⟩
  | 103 => ⟨S200000x16, .f32⟩
  | 104 => ⟨S_, .f32⟩
  | 105 => ⟨S200000x16, .f32⟩
  | 106 => ⟨S200000x16, .f32⟩
  | 107 => ⟨S200000x2, .f32⟩
  | 108 => ⟨S_, .i32⟩
  | 109 => ⟨S6400000, .i32⟩
  | 110 => ⟨S6400000, .i1⟩
  | 111 => ⟨S_, .i32⟩
  | 112 => ⟨S6400000, .i32⟩
  | 113 => ⟨S6400000, .i32⟩
  | 114 => ⟨S6400000, .i32⟩
  | 115 => ⟨S6400000x1, .i32⟩
  | 116 => ⟨S6400000x2, .f32⟩
  | 117 => ⟨S6400000x1, .f32⟩
  | 118 => ⟨S6400000x2, .f32⟩
  | 119 => ⟨S6400000x2, .f32⟩
  | 120 => ⟨S_, .f32⟩
  | 121 => ⟨S200000x2, .f32⟩
  | 122 => ⟨S6400000x1, .i32⟩
  | 123 => ⟨S200000x2, .f32⟩
  | 124 => ⟨S200000x1, .f32⟩
  | 125 => ⟨S200000x2, .f32⟩
  | 126 => ⟨S200000x2, .f32⟩
  | 127 => ⟨S200000x2, .f32⟩
  | _ => ⟨S200000x55, .f32⟩

abbrev hbmTy0_1 (i : Nat) : BufTy := match i % 128 with
  | 0 => ⟨S1x2, .f32⟩
  | 1 => ⟨S200000x2, .f32⟩
  | 2 => ⟨S200000x2, .f32⟩
  | 3 => ⟨S_, .f32⟩
  | 4 => ⟨S200000, .f32⟩
  | 5 => ⟨S_, .f32⟩
  | 6 => ⟨S200000, .f32⟩
  | 7 => ⟨S200000, .f32⟩
  | 8 => ⟨S200000x1, .f32⟩
  | 9 => ⟨S200000x2, .f32⟩
  | 10 => ⟨S200000x2, .f32⟩
  | 11 => ⟨S200000x2, .f32⟩
  | 12 => ⟨S_, .f32⟩
  | 13 => ⟨S200000, .f32⟩
  | 14 => ⟨S200000x1, .f32⟩
  | 15 => ⟨S200000x1, .f32⟩
  | 16 => ⟨S200000x2, .f32⟩
  | 17 => ⟨S200000x2, .f32⟩
  | _ => ⟨S200000x55, .f32⟩

abbrev hbmTy (i : Nat) : BufTy := match i / 128 with
  | 0 => hbmTy0_0 i
  | 1 => hbmTy0_1 i
  | _ => ⟨S200000x55, .f32⟩

abbrev bufTy : (tb : Table) → Fin (tcTables nBuf tb) → BufTy
  | .hbm, ⟨i, _⟩ => hbmTy i
  | _, _ => ⟨S200000x55, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call2_cst : Ref sig .tc := ⟨.hbm, 104, rfl⟩
abbrev main_call2_v0 : Ref sig .tc := ⟨.hbm, 105, rfl⟩
abbrev main_v77 : Ref sig .tc := ⟨.hbm, 106, rfl⟩
abbrev main_v78 : Ref sig .tc := ⟨.hbm, 107, rfl⟩
abbrev main_c_13 : Ref sig .tc := ⟨.hbm, 108, rfl⟩
abbrev main_v79 : Ref sig .tc := ⟨.hbm, 109, rfl⟩
abbrev main_v80 : Ref sig .tc := ⟨.hbm, 110, rfl⟩
abbrev main_c_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_15 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_call3_cst : Ref sig .tc := ⟨.hbm, 131, rfl⟩
abbrev main_call3_v0 : Ref sig .tc := ⟨.hbm, 132, rfl⟩
abbrev main_call3_cst_0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_cst_1 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_v99 : Ref sig .tc := ⟨.hbm, 145, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x32_0_1 : S6400000x1.BroadcastsInDim S6400000x32 (![0, 1] : Fin 2 → Fin S6400000x32.rank)
  bcast_S_S200000x32 : S_.BroadcastsInDim S200000x32 (![] : Fin 0 → Fin S200000x32.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6400000x1_S6400000x2_0_1 : S6400000x1.BroadcastsInDim S6400000x2 (![0, 1] : Fin 2 → Fin S6400000x2.rank)
  bcast_S_S200000x2 : S_.BroadcastsInDim S200000x2 (![] : Fin 0 → Fin S200000x2.rank)
  bcast_S200000x1_S200000x2_0_1 : S200000x1.BroadcastsInDim S200000x2 (![0, 1] : Fin 2 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  dot_S200000x55_S55x32_S200000x32_1_0_0_1_n_n_wf : DotDims.WF S200000x55 S55x32 S200000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  dot_S200000x32_S32x16_S200000x16_1_0_0_1_n_n_wf : DotDims.WF S200000x32 S32x16 S200000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x2_S200000x2_1_0_0_1_n_n_wf : DotDims.WF S200000x16 S16x2 S200000x2 [1] [0] [0] [1] [] []
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def dot_S200000x55_S55x32_S200000x32_1_0_0_1_n_n : DotDims S200000x55 S55x32 S200000x32 where
  lhsContracting := [1]
  rhsContracting := [0]
  lhsNonContracting := [0]
  rhsNonContracting := [1]
  lhsBatch := []
  rhsBatch := []
  wf := dot_S200000x55_S55x32_S200000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf

class Facts : Prop extends Facts₀ where

variable [Facts]
-- ==== Proof.KernelRun.lean ====
/-
  The idealized kernel's run, with its result named.

  The program is twelve stretches in a row: host operations, then a tiled computation, and so on, six tiled
  computations in all. The contents of the device's buffers at each boundary are a fold from the launch memory:
  a host stretch applies its operations, a tiled computation replaces its output array by what its write-backs
  leave and keeps every other buffer. Every weakly fair execution terminates without a fault, and in its final
  state every buffer that is not scoped to a tiled computation holds the last boundary's contents; in particular
  the result array does, and the eight argument arrays are as launched.
-/
import proofs.«105930_j51058571215473_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    and the argument arrays as launched. -/
theorem run : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Result

end
-- ==== Proof.NetSpec.lean ====
/-
  The network both programs compute, as pure functions of arrays.

  A graph of 200000 nodes and 6400000 directed edges is given as a 2-by-6400000 array of node numbers: row 0 the
  sources, row 1 the targets. With `deg` the number of edges into a node plus one (the self loop) and
  `dis = deg^(-1/2)` (zero where `deg` is not positive), an edge weighs `dis[source] * dis[target]` and a node's self
  loop `dis * dis`. One layer maps node features `x` to `h = x W`, sends `h[source]` times the edge's weight along every
  edge, sums what arrives at each node, adds the node's own `h` times its self-loop weight and the bias; the first two
  layers clip the result below at zero, the third takes the logarithm of the softmax of each node's row. A node number
  below zero counts from the end (200000 is added to it) where it selects a row; where it says which node a message is
  summed into it is used as it stands. Every function below is spelt with the host operations, in their order.
-/
import proofs.«105930_j51058571215473_2_alg».proof.Proof.Gen.ReferenceIdeal
import Idealize.ShloMosaic.PureOps.Ideal

noncomputable section

namespace Cert.Net

open Idealize.ShloMosaic Cert.ReferenceIdeal Cert.ReferenceIdeal.Gen

variable {F : FTy → Type} [FloatOps F]

/-- One row of the edge list as a vector. -/
def sources (e : (⟨S2x6400000, .i32⟩ : BufTy).Contents (Elt F)) : (⟨S6400000, .i32⟩ : BufTy).Contents (Elt F) :=
  shapeCast S6400000 (extractStridedSlice S1x6400000 ![0, 0] e slices_S2x6400000_S1x6400000_0_0) shapeCasts_S1x6400000_S6400000
def targets (e : (⟨S2x6400000, .i32⟩ : BufTy).Contents (Elt F)) : (⟨S6400000, .i32⟩ : BufTy).Contents (Elt F) :=
  shapeCast S6400000 (extractStridedSlice S1x6400000 ![1, 0] e slices_S2x6400000_S1x6400000_1_0) shapeCasts_S1x6400000_S6400000

/-- A node number below zero counts from the end. -/
def wrapped (ix : (⟨S6400000, .i32⟩ : BufTy).Contents (Elt F)) : (⟨S6400000, .i32⟩ : BufTy).Contents (Elt F) :=
  select (cmpi .slt ix (broadcastInDim S6400000 ![] bcast_S_S6400000 (constantI S_ 32 0#32)))
    (addi ix (broadcastInDim S6400000 ![] bcast_S_S6400000 (constantI S_ 32 200000#32))) ix

/-- `deg^(-1/2)` per node, zero where the degree is not positive; the degree counts the edges into the node, plus one. -/
def invSqrtDeg (dst : (⟨S6400000, .i32⟩ : BufTy).Contents (Elt F)) : (⟨S200000, .f32⟩ : BufTy).Contents (Elt F) :=
  select
    (cmpf (F := F) .ogt
      (addf (Host.scatterAdd scatter_S200000_S6400000x1_S6400000_n_0_0_1
          (broadcastInDim S200000 ![] bcast_S_S200000 (constant (F := F) S_ .f32 0x00000000#32))
          (broadcastInDim S6400000x1 ![0] bcast_S6400000_S6400000x1_0 dst)
          (broadcastInDim S6400000 ![] bcast_S_S6400000 (constant (F := F) S_ .f32 0x3F800000#32)))
        (broadcastInDim S200000 ![] bcast_S_S200000 (constant (F := F) S_ .f32 0x3F800000#32)))
      (broadcastInDim S200000 ![] bcast_S_S200000 (constant (F := F) S_ .f32 0x00000000#32)))
    (Host.rsqrt
      (addf (Host.scatterAdd scatter_S200000_S6400000x1_S6400000_n_0_0_1
          (broadcastInDim S200000 ![] bcast_S_S200000 (constant (F := F) S_ .f32 0x00000000#32))
          (broadcastInDim S6400000x1 ![0] bcast_S6400000_S6400000x1_0 dst)
          (broadcastInDim S6400000 ![] bcast_S_S6400000 (constant (F := F) S_ .f32 0x3F800000#32)))
        (broadcastInDim S200000 ![] bcast_S_S200000 (constant (F := F) S_ .f32 0x3F800000#32))))
    (broadcastInDim S200000 ![] bcast_S_S200000 (id (constant (F := F) S_ .f32 0x00000000#32)))

/-- An edge's weight: the product of its two ends' `deg^(-1/2)`. -/
def edgeWeight (src dst : (⟨S6400000, .i32⟩ : BufTy).Contents (Elt F)) : (⟨S6400000, .f32⟩ : BufTy).Contents (Elt F) :=
  mulf
    (Host.gather gather_S200000_S6400000x1_S6400000_n_0_n_n_0_1_1 (invSqrtDeg (F := F) dst)
      (broadcastInDim S6400000x1 ![0] bcast_S6400000_S6400000x1_0 (wrapped (F := F) src)))
    (Host.gather gather_S200000_S6400000x1_S6400000_n_0_n_n_0_1_1 (invSqrtDeg (F := F) dst)
      (broadcastInDim S6400000x1 ![0] bcast_S6400000_S6400000x1_0 (wrapped (F := F) dst)))

/-- A node's self-loop weight. -/
def selfWeight (dst : (⟨S6400000, .i32⟩ : BufTy).Contents (Elt F)) : (⟨S200000, .f32⟩ : BufTy).Contents (Elt F) :=
  mulf (invSqrtDeg (F := F) dst) (invSqrtDeg (F := F) dst)

/-! ## Layer 1: 55 features to 32 -/

def dense1 (x : (⟨S200000x55, .f32⟩ : BufTy).Contents (Elt F)) (w : (⟨S55x32, .f32⟩ : BufTy).Contents (Elt F)) :
    (⟨S200000x32, .f32⟩ : BufTy).Contents (Elt F) :=
  Host.dotGeneral dot_S200000x55_S55x32_S200000x32_1_0_0_1_n_n none x w

/-- What arrives at each node: the sources' rows, each times its edge's weight, summed by target. -/
def gathered32 (h : (⟨S200000x32, .f32⟩ : BufTy).Contents (Elt F)) (src dst : (⟨S6400000, .i32⟩ : BufTy).Contents (Elt F))
    (ew : (⟨S6400000, .f32⟩ : BufTy).Contents (Elt F)) : (⟨S200000x32, .f32⟩ : BufTy).Contents (Elt F) :=
  Host.scatterAdd scatter_S200000x32_S6400000x1_S6400000x32_1_0_0_1
    (broadcastInDim S200000x32 ![] bcast_S_S200000x32 (constant (F := F) S_ .f32 0x00000000#32))
    (broadcastInDim S6400000x1 ![0] bcast_S6400000_S6400000x1_0 dst)
    (mulf (Host.gather gather_S200000x32_S6400000x1_S6400000x32_1_0_n_n_0_1_132 h
        (broadcastInDim S6400000x1 ![0] bcast_S6400000_S6400000x1_0 (wrapped (F := F) src)))
      (broadcastInDim S6400000x32 ![0, 1] bcast_S6400000x1_S6400000x32_0_1 (broadcastInDim S6400000x1 ![0] bcast_S6400000_S6400000x1_0 ew)))

/-- The gathered messages, plus the node's own row times its self-loop weight, plus the bias, clipped below at zero. -/
def combined32 (agg h : (⟨S200000x32, .f32⟩ : BufTy).Contents (Elt F)) (sw : (⟨S200000, .f32⟩ : BufTy).Contents (Elt F))
    (b : (⟨S32, .f32⟩ : BufTy).Contents (Elt F)) : (⟨S200000x32, .f32⟩ : BufTy).Contents (Elt F) :=
  maximumf
    (addf (addf agg (mulf h (broadcastInDim S200000x32 ![0, 1] bcast_S200000x1_S200000x32_0_1 (broadcastInDim S200000x1 ![0] bcast_S200000_S200000x1_0 sw))))
      (broadcastInDim S200000x32 ![0, 1] bcast_S1x32_S200000x32_0_1 (broadcastInDim S1x32 ![1] bcast_S32_S1x32_1 b)))
    (broadcastInDim S200000x32 ![] bcast_S_S200000x32 (constant (F := F) S_ .f32 0x00000000#32))

/-! ## Layer 2: 32 features to 16 -/

def dense2 (x : (⟨S200000x32, .f32⟩ : BufTy).Contents (Elt F)) (w : (⟨S32x16, .f32⟩ : BufTy).Contents (Elt F)) :
    (⟨S200000x16, .f32⟩ : BufTy).Contents (Elt F) :=
  Host.dotGeneral dot_S200000x32_S32x16_S200000x16_1_0_0_1_n_n none x w

def gathered16 (h : (⟨S200000x16, .f32⟩ : BufTy).Contents (Elt F)) (src dst : (⟨S6400000, .i32⟩ : BufTy).Contents (Elt F))
    (ew : (⟨S6400000, .f32⟩ : BufTy).Contents (Elt F)) : (⟨S200000x16, .f32⟩ : BufTy).Contents (Elt F) :=
  Host.scatterAdd scatter_S200000x16_S6400000x1_S6400000x16_1_0_0_1
    (broadcastInDim S200000x16 ![] bcast_S_S200000x16 (constant (F := F) S_ .f32 0x00000000#32))
    (broadcastInDim S6400000x1 ![0] bcast_S6400000_S6400000x1_0 dst)
    (mulf (Host.gather gather_S200000x16_S6400000x1_S6400000x16_1_0_n_n_0_1_116 h
        (broadcastInDim S6400000x1 ![0] bcast_S6400000_S6400000x1_0 (wrapped (F := F) src)))
      (broadcastInDim S6400000x16 ![0, 1] bcast_S6400000x1_S6400000x16_0_1 (broadcastInDim S6400000x1 ![0] bcast_S6400000_S6400000x1_0 ew)))

def combined16 (agg h : (⟨S200000x16, .f32⟩ : BufTy).Contents (Elt F)) (sw : (⟨S200000, .f32⟩ : BufTy).Contents (Elt F))
    (b : (⟨S16, .f32⟩ : BufTy).Contents (Elt F)) : (⟨S200000x16, .f32⟩ : BufTy).Contents (Elt F) :=
  maximumf
    (addf (addf agg (mulf h (broadcastInDim S200000x16 ![0, 1] bcast_S200000x1_S200000x16_0_1 (broadcastInDim S200000x1 ![0] bcast_S200000_S200000x1_0 sw))))
      (broadcastInDim S200000x16 ![0, 1] bcast_S1x16_S200000x16_0_1 (broadcastInDim S1x16 ![1] bcast_S16_S1x16_1 b)))
    (broadcastInDim S200000x16 ![] bcast_S_S200000x16 (constant (F := F) S_ .f32 0x00000000#32))

/-! ## Layer 3: 16 features to 2, then the logarithm of each row's softmax -/

def dense3 (x : (⟨S200000x16, .f32⟩ : BufTy).Contents (Elt F)) (w : (⟨S16x2, .f32⟩ : BufTy).Contents (Elt F)) :
    (⟨S200000x2, .f32⟩ : BufTy).Contents (Elt F) :=
  Host.dotGeneral dot_S200000x16_S16x2_S200000x2_1_0_0_1_n_n none x w

def gathered2 (h : (⟨S200000x2, .f32⟩ : BufTy).Contents (Elt F)) (src dst : (⟨S6400000, .i32⟩ : BufTy).Contents (Elt F))
    (ew : (⟨S6400000, .f32⟩ : BufTy).Contents (Elt F)) : (⟨S200000x2, .f32⟩ : BufTy).Contents (Elt F) :=
  Host.scatterAdd scatter_S200000x2_S6400000x1_S6400000x2_1_0_0_1
    (broadcastInDim S200000x2 ![] bcast_S_S200000x2 (constant (F := F) S_ .f32 0x00000000#32))
    (broadcastInDim S6400000x1 ![0] bcast_S6400000_S6400000x1_0 dst)
    (mulf (Host.gather gather_S200000x2_S6400000x1_S6400000x2_1_0_n_n_0_1_12 h
        (broadcastInDim S6400000x1 ![0] bcast_S6400000_S6400000x1_0 (wrapped (F := F) src)))
      (broadcastInDim S6400000x2 ![0, 1] bcast_S6400000x1_S6400000x2_0_1 (broadcastInDim S6400000x1 ![0] bcast_S6400000_S6400000x1_0 ew)))

/-- The last layer before its activation: nothing is clipped. -/
def summed2 (agg h : (⟨S200000x2, .f32⟩ : BufTy).Contents (Elt F)) (sw : (⟨S200000, .f32⟩ : BufTy).Contents (Elt F))
    (b : (⟨S2, .f32⟩ : BufTy).Contents (Elt F)) : (⟨S200000x2, .f32⟩ : BufTy).Contents (Elt F) :=
  addf (addf agg (mulf h (broadcastInDim S200000x2 ![0, 1] bcast_S200000x1_S200000x2_0_1 (broadcastInDim S200000x1 ![0] bcast_S200000_S200000x1_0 sw))))
    (broadcastInDim S200000x2 ![0, 1] bcast_S1x2_S200000x2_0_1 (broadcastInDim S1x2 ![1] bcast_S2_S1x2_1 b))

/-- Each row minus its maximum, minus the logarithm of the sum of the exponentials of those differences. -/
def logSoftmaxRows (y : (⟨S200000x2, .f32⟩ : BufTy).Contents (Elt F)) : (⟨S200000x2, .f32⟩ : BufTy).Contents (Elt F) :=
  subf
    (subf y (broadcastInDim S200000x2 ![0, 1] bcast_S200000x1_S200000x2_0_1 (broadcastInDim S200000x1 ![0] bcast_S200000_S200000x1_0
      (maximumf (broadcastInDim S200000 ![] bcast_S_S200000 (constant (F := F) S_ .f32 0xFF800000#32))
        (Host.reduce FloatOps.maximumf y (constant (F := F) S_ .f32 0xFF800000#32) reducesTo_S200000x2_S200000_d1 h_S_)))))
    (broadcastInDim S200000x2 ![0, 1] bcast_S200000x1_S200000x2_0_1
      (Host.log (broadcastInDim S200000x1 ![0] bcast_S200000_S200000x1_0
        (Host.reduceAdd
          (Host.exp (subf y (broadcastInDim S200000x2 ![0, 1] bcast_S200000x1_S200000x2_0_1 (broadcastInDim S200000x1 ![0] bcast_S200000_S200000x1_0
            (maximumf (broadcastInDim S200000 ![] bcast_S_S200000 (constant (F := F) S_ .f32 0xFF800000#32))
              (Host.reduce FloatOps.maximumf y (constant (F := F) S_ .f32 0xFF800000#32) reducesTo_S200000x2_S200000_d1 h_S_))))))
          (constant (F := F) S_ .f32 0x00000000#32) reducesTo_S200000x2_S200000_d1 h_S_))))

/-! ## The three layers in a row -/

def layer1 (x : (⟨S200000x55, .f32⟩ : BufTy).Contents (Elt F)) (e : (⟨S2x6400000, .i32⟩ : BufTy).Contents (Elt F))
    (w1 : (⟨S55x32, .f32⟩ : BufTy).Contents (Elt F)) (b1 : (⟨S32, .f32⟩ : BufTy).Contents (Elt F)) : (⟨S200000x32, .f32⟩ : BufTy).Contents (Elt F) :=
  combined32 (gathered32 (dense1 x w1) (sources e) (targets e) (edgeWeight (F := F) (sources e) (targets e))) (dense1 x w1)
    (selfWeight (F := F) (targets e)) b1

def layer2 (x1 : (⟨S200000x32, .f32⟩ : BufTy).Contents (Elt F)) (e : (⟨S2x6400000, .i32⟩ : BufTy).Contents (Elt F))
    (w2 : (⟨S32x16, .f32⟩ : BufTy).Contents (Elt F)) (b2 : (⟨S16, .f32⟩ : BufTy).Contents (Elt F)) : (⟨S200000x16, .f32⟩ : BufTy).Contents (Elt F) :=
  combined16 (gathered16 (dense2 x1 w2) (sources e) (targets e) (edgeWeight (F := F) (sources e) (targets e))) (dense2 x1 w2)
    (selfWeight (F := F) (targets e)) b2

def layer3 (x2 : (⟨S200000x16, .f32⟩ : BufTy).Contents (Elt F)) (e : (⟨S2x6400000, .i32⟩ : BufTy).Contents (Elt F))
    (w3 : (⟨S16x2, .f32⟩ : BufTy).Contents (Elt F)) (b3 : (⟨S2, .f32⟩ : BufTy).Contents (Elt F)) : (⟨S200000x2, .f32⟩ : BufTy).Contents (Elt F) :=
  logSoftmaxRows (summed2 (gathered2 (dense3 x2 w3) (sources e) (targets e) (edgeWeight (F := F) (sources e) (targets e))) (dense3 x2 w3)
    (selfWeight (F := F) (targets e)) b3)

/-- The whole network. -/
def net (x : (⟨S200000x55, .f32⟩ : BufTy).Contents (Elt F)) (e : (⟨S2x6400000, .i32⟩ : BufTy).Contents (Elt F))
    (w1 : (⟨S55x32, .f32⟩ : BufTy).Contents (Elt F)) (b1 : (⟨S32, .f32⟩ : BufTy).Contents (Elt F))
    (w2 : (⟨S32x16, .f32⟩ : BufTy).Contents (Elt F)) (b2 : (⟨S16, .f32⟩ : BufTy).Contents (Elt F))
    (w3 : (⟨S16x2, .f32⟩ : BufTy).Contents (Elt F)) (b3 : (⟨S2, .f32⟩ : BufTy).Contents (Elt F)) : (⟨S200000x2, .f32⟩ : BufTy).Contents (Elt F) :=
  layer3 (layer2 (layer1 x e w1 b1) e w2 b2) e w3 b3

end Cert.Net

end
-- ==== Proof.Dense1.lean ====
/-
  The first layer's dense product, read off its tiled computation.

  The node features (200000 rows of 55) are multiplied by the weights (55 by 32) in 100 blocks of 2000 rows: block `t`
  of the product is the product of block `t` of the features with the whole of the weights. Over the extended reals an
  entry of a block's product is the sum over the 55 columns of `x[r, k] * W[k, q]`, `r` the row inside the block; the
  row of the whole array is `2000 * t + r`, so the entry is the same sum that the whole-array product has at that row
  and column. The 100 blocks tile the 200000 rows, hence the array that the tiled computation leaves IS the whole-array
  product of the two arrays it found.
-/
import proofs.«105930_j51058571215473_2_alg».proof.Proof.Gen.KernelIdeal.Frame
import proofs.«105930_j51058571215473_2_alg».proof.Proof.NetSpec
import Idealize.ShloMosaic.Lib.Pipeline.Value
import Idealize.ShloMosaic.Lib.ValueIdx
import Idealize.ShloMosaic.PureOps.Ideal.Laws

noncomputable section

namespace Cert.KernelIdeal.Dense1

open Cert.KernelIdeal Cert.KernelIdeal.Gen Idealize.ShloMosaic Idealize.ShloMosaic.TcCoe Idealize.SL.Sem
open Idealize.ShloMosaic.Pipeline (Dat)

/-! ## The whole-array product at an entry -/

/-- The entry of the features in the output entry's row and column `k`. -/
abbrev rowOf (i : Cert.ReferenceIdeal.S200000x32.Idx) (k : Fin 55) : Cert.ReferenceIdeal.S200000x55.Idx := fun a => match a with
  | ⟨0, _⟩ => ⟨(i 0).val, (i 0).isLt⟩
  | ⟨1, _⟩ => ⟨k.val, k.isLt⟩
/-- The entry of the weights in row `k` and the output entry's column. -/
abbrev colOf (i : Cert.ReferenceIdeal.S200000x32.Idx) (k : Fin 55) : Cert.ReferenceIdeal.S55x32.Idx := fun a => match a with
  | ⟨0, _⟩ => ⟨k.val, k.isLt⟩
  | ⟨1, _⟩ => ⟨(i 1).val, (i 1).isLt⟩

theorem wlhs0 (i : Cert.ReferenceIdeal.S200000x32.Idx) (q : Cert.ReferenceIdeal.dot_S200000x55_S55x32_S200000x32_1_0_0_1_n_n.contr.Idx) : (Cert.ReferenceIdeal.dot_S200000x55_S55x32_S200000x32_1_0_0_1_n_n.lhsIdx i q 0).val = (i 0).val := by
  unfold DotDims.lhsIdx
  rw [dif_neg (show ¬(0 : Fin Cert.ReferenceIdeal.S200000x55.rank) ∈ Cert.ReferenceIdeal.dot_S200000x55_S55x32_S200000x32_1_0_0_1_n_n.lhsBatch by decide), dif_pos (show (0 : Fin Cert.ReferenceIdeal.S200000x55.rank) ∈ Cert.ReferenceIdeal.dot_S200000x55_S55x32_S200000x32_1_0_0_1_n_n.lhsNonContracting by decide)]
  rfl
theorem wlhs1 (i : Cert.ReferenceIdeal.S200000x32.Idx) (q : Cert.ReferenceIdeal.dot_S200000x55_S55x32_S200000x32_1_0_0_1_n_n.contr.Idx) : (Cert.ReferenceIdeal.dot_S200000x55_S55x32_S200000x32_1_0_0_1_n_n.lhsIdx i q 1).val = (q ⟨0, by decide⟩).val :=
  Cert.ReferenceIdeal.dot_S200000x55_S55x32_S200000x32_1_0_0_1_n_n.lhsIdx_val_of_single rfl i q
theorem wrhs0 (i : Cert.ReferenceIdeal.S200000x32.Idx) (q : Cert.ReferenceIdeal.dot_S200000x55_S55x32_S200000x32_1_0_0_1_n_n.contr.Idx) : (Cert.ReferenceIdeal.dot_S200000x55_S55x32_S200000x32_1_0_0_1_n_n.rhsIdx i q 0).val = (q ⟨0, by decide⟩).val :=
  Cert.ReferenceIdeal.dot_S200000x55_S55x32_S200000x32_1_0_0_1_n_n.rhsIdx_val_of_single rfl i q
theorem wrhs1 (i : Cert.ReferenceIdeal.S200000x32.Idx) (q : Cert.ReferenceIdeal.dot_S200000x55_S55x32_S200000x32_1_0_0_1_n_n.contr.Idx) : (Cert.ReferenceIdeal.dot_S200000x55_S55x32_S200000x32_1_0_0_1_n_n.rhsIdx i q 1).val = (i 1).val := by
  unfold DotDims.rhsIdx
  rw [dif_neg (show ¬(1 : Fin Cert.ReferenceIdeal.S55x32.rank) ∈ Cert.ReferenceIdeal.dot_S200000x55_S55x32_S200000x32_1_0_0_1_n_n.rhsBatch by decide), dif_pos (show (1 : Fin Cert.ReferenceIdeal.S55x32.rank) ∈ Cert.ReferenceIdeal.dot_S200000x55_S55x32_S200000x32_1_0_0_1_n_n.rhsNonContracting by decide)]
  rfl

/-- Over the extended reals the whole-array product at an entry is the sum over the 55 columns. -/
theorem dense_apply (x : (⟨Cert.ReferenceIdeal.S200000x55, .f32⟩ : BufTy).Contents (Elt Ideal)) (w : (⟨Cert.ReferenceIdeal.S55x32, .f32⟩ : BufTy).Contents (Elt Ideal))
    (i : Cert.ReferenceIdeal.S200000x32.Idx) :
    Cert.Net.dense1 (F := Ideal) x w i = ∑ k : Fin 55, x (rowOf i k) * w (colOf i k) := by
  unfold Cert.Net.dense1
  simp only [Host.dotGeneral]
  rw [Ideal.dotGeneral_apply, ← Equiv.sum_comp (ValueIdx.contrEquiv1 Cert.ReferenceIdeal.dot_S200000x55_S55x32_S200000x32_1_0_0_1_n_n 55 rfl rfl).symm]
  refine Finset.sum_congr rfl fun k _ => ?_
  have hk := ValueIdx.contrEquiv1_symm_val Cert.ReferenceIdeal.dot_S200000x55_S55x32_S200000x32_1_0_0_1_n_n 55 rfl rfl k
  have el : Cert.ReferenceIdeal.dot_S200000x55_S55x32_S200000x32_1_0_0_1_n_n.lhsIdx i ((ValueIdx.contrEquiv1 Cert.ReferenceIdeal.dot_S200000x55_S55x32_S200000x32_1_0_0_1_n_n 55 rfl rfl).symm k) = rowOf i k := funext fun a => Fin.ext (by
    match a with
    | ⟨0, _⟩ => exact wlhs0 _ _
    | ⟨1, _⟩ => exact (wlhs1 _ _).trans hk)
  have er : Cert.ReferenceIdeal.dot_S200000x55_S55x32_S200000x32_1_0_0_1_n_n.rhsIdx i ((ValueIdx.contrEquiv1 Cert.ReferenceIdeal.dot_S200000x55_S55x32_S200000x32_1_0_0_1_n_n 55 rfl rfl).symm k) = colOf i k := funext fun a => Fin.ext (by
    match a with
    | ⟨0, _⟩ => exact (wrhs0 _ _).trans hk
    | ⟨1, _⟩ => exact wrhs1 _ _)
  rw [el, er]

/-! ## A block's product at an entry -/

/-- Inside a block: the entry of the features in the output entry's row and column `k`. -/
abbrev rowAt (j : S2000x32.Idx) (k : Fin 55) : S2000x55.Idx := fun a => match a with
  | ⟨0, _⟩ => ⟨(j 0).val, (j 0).isLt⟩
  | ⟨1, _⟩ => ⟨k.val, k.isLt⟩
/-- The entry of the weights in row `k` and the output entry's column. -/
abbrev colAt (j : S2000x32.Idx) (k : Fin 55) : S55x32.Idx := fun a => match a with
  | ⟨0, _⟩ => ⟨k.val, k.isLt⟩
  | ⟨1, _⟩ => ⟨(j 1).val, (j 1).isLt⟩

theorem lhs0 (j : S2000x32.Idx) (q : dot_S2000x55_S55x32_S2000x32_1_0_0_1_n_n.contr.Idx) : (dot_S2000x55_S55x32_S2000x32_1_0_0_1_n_n.lhsIdx j q 0).val = (j 0).val := by
  unfold DotDims.lhsIdx
  rw [dif_neg (show ¬(0 : Fin S2000x55.rank) ∈ dot_S2000x55_S55x32_S2000x32_1_0_0_1_n_n.lhsBatch by decide), dif_pos (show (0 : Fin S2000x55.rank) ∈ dot_S2000x55_S55x32_S2000x32_1_0_0_1_n_n.lhsNonContracting by decide)]
  rfl
theorem lhs1 (j : S2000x32.Idx) (q : dot_S2000x55_S55x32_S2000x32_1_0_0_1_n_n.contr.Idx) : (dot_S2000x55_S55x32_S2000x32_1_0_0_1_n_n.lhsIdx j q 1).val = (q ⟨0, by decide⟩).val :=
  dot_S2000x55_S55x32_S2000x32_1_0_0_1_n_n.lhsIdx_val_of_single rfl j q
theorem rhs0 (j : S2000x32.Idx) (q : dot_S2000x55_S55x32_S2000x32_1_0_0_1_n_n.contr.Idx) : (dot_S2000x55_S55x32_S2000x32_1_0_0_1_n_n.rhsIdx j q 0).val = (q ⟨0, by decide⟩).val :=
  dot_S2000x55_S55x32_S2000x32_1_0_0_1_n_n.rhsIdx_val_of_single rfl j q
theorem rhs1 (j : S2000x32.Idx) (q : dot_S2000x55_S55x32_S2000x32_1_0_0_1_n_n.contr.Idx) : (dot_S2000x55_S55x32_S2000x32_1_0_0_1_n_n.rhsIdx j q 1).val = (j 1).val := by
  unfold DotDims.rhsIdx
  rw [dif_neg (show ¬(1 : Fin S55x32.rank) ∈ dot_S2000x55_S55x32_S2000x32_1_0_0_1_n_n.rhsBatch by decide), dif_pos (show (1 : Fin S55x32.rank) ∈ dot_S2000x55_S55x32_S2000x32_1_0_0_1_n_n.rhsNonContracting by decide)]
  rfl

/-- An entry of a block's product is the sum over the 55 columns of the products of the row's and the column's
    entries: the accumulator the product is added into is zero. -/
theorem block_product (x : Vec Ideal S2000x55 .f32) (w : Vec Ideal S55x32 .f32) (j : S2000x32.Idx) :
    k0_pay1 (F := Ideal) x w j = ∑ k : Fin 55, x (rowAt j k) * w (colAt j k) := by
  unfold k0_pay1
  simp only [matmul]
  rw [Ideal.matmul_constant_zero_apply, ← Equiv.sum_comp (ValueIdx.contrEquiv1 dot_S2000x55_S55x32_S2000x32_1_0_0_1_n_n 55 rfl rfl).symm]
  refine Finset.sum_congr rfl fun k _ => ?_
  have hk := ValueIdx.contrEquiv1_symm_val dot_S2000x55_S55x32_S2000x32_1_0_0_1_n_n 55 rfl rfl k
  have el : dot_S2000x55_S55x32_S2000x32_1_0_0_1_n_n.lhsIdx j ((ValueIdx.contrEquiv1 dot_S2000x55_S55x32_S2000x32_1_0_0_1_n_n 55 rfl rfl).symm k) = rowAt j k := funext fun a => Fin.ext (by
    match a with
    | ⟨0, _⟩ => exact lhs0 _ _
    | ⟨1, _⟩ => exact (lhs1 _ _).trans hk)
  have er : dot_S2000x55_S55x32_S2000x32_1_0_0_1_n_n.rhsIdx j ((ValueIdx.contrEquiv1 dot_S2000x55_S55x32_S2000x32_1_0_0_1_n_n 55 rfl rfl).symm k) = colAt j k := funext fun a => Fin.ext (by
    match a with
    | ⟨0, _⟩ => exact (rhs0 _ _).trans hk
    | ⟨1, _⟩ => exact rhs1 _ _)
  rw [el, er]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the three windows' blocks sit at grid point `t`: the rows of the features and of the product move together
    with the point, the weights stay. -/
theorem block_places : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 99 :=
  (by decide +kernel : ∀ t : Fin grid0.N, _)

/-- Every one of the 100 row blocks is some grid point's. -/
theorem block_onto : ∀ q : Fin 100, ∃ t : Fin cfg0.N, win0_2.index t = ![q.val, 0] :=
  (by decide +kernel : ∀ q : Fin 100, ∃ t : Fin grid0.N, win0_2.index t = ![q.val, 0])

/-- An index of the product array is in point `t`'s block iff each coordinate is in the block's range. -/
theorem mem_blk (t : Fin cfg0.N) (i : S200000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v31).slice (win0_2.rect t)).set ↔ _
  rw [View.set_slice_whole, Rect.mem_set_unit]
  exact Iff.rfl

/-- Row `r` lies in block `r / 2000`. -/
theorem cover (i : S200000x32.Idx) : ∃ t : Fin cfg0.N, (cfg0.win 2).flush t = true ∧ i ∈ ((cfg0.win 2).blk t).view.set := by
  have hi0 : (i 0).val < 200000 := (i 0).isLt
  have hi1 : (i 1).val < 32 := (i 1).isLt
  obtain ⟨t, ht⟩ := block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 32 ≤ (i 1).val ∧ (i 1).val < win0_2.index t (1 : Fin 2) * 32 + 32; omega

section
variable (c : Dev nD)
  (x : (⟨Cert.ReferenceIdeal.S200000x55, .f32⟩ : BufTy).Contents (Elt Ideal)) (w : (⟨Cert.ReferenceIdeal.S55x32, .f32⟩ : BufTy).Contents (Elt Ideal))
  (hx : (V c main_arg0 : (⟨S200000x55, .f32⟩ : BufTy).Contents (Elt Ideal)) = x)
  (hw : (V c main_arg2 : (⟨S55x32, .f32⟩ : BufTy).Contents (Elt Ideal)) = w)
include hx hw

/-- What grid point `t` writes back is block `t` of the whole-array product of the two arrays the region finds. -/
theorem flushed_eq (t : Fin cfg0.N) :
    (dat0 V c).flushed 2 t = ((cfg0.win 2).blk t).view.read (Elt Ideal) (Cert.Net.dense1 (F := Ideal) x w) := by
  show (cfg0.win 2).cut (grid0.coords t) ((dat0 V c).after 2 t) = _
  rw [after0_2]
  unfold out0_2
  rw [View.canon_unit_zero zero_offsets]
  simp only [View.ld_unit_zero (S := S2000x55) zero_offsets, View.ld_unit_zero (S := S55x32) zero_offsets]
  obtain ⟨e0, e1, e2, e3, e4, e5⟩ := block_places t
  funext j
  show k0_pay1 (F := Ideal) (iblk0 V c 0 t) (iblk0 V c 1 t) j
    = Cert.Net.dense1 (F := Ideal) x w (((cfg0.win 2).blk t).view.emb j)
  refine (block_product (iblk0 V c 0 t) (iblk0 V c 1 t) j).trans ?_
  rw [dense_apply]
  refine Finset.sum_congr rfl fun k _ => ?_
  have h0 : ((cfg0.win 0).blk t).view.emb (rowAt j k) = rowOf (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 55 + 1 * k.val = k.val; omega
  have h1 : ((cfg0.win 1).blk t).view.emb (colAt j k) = colOf (((cfg0.win 2).blk t).view.emb j) k := by
    funext a; apply Fin.ext
    match a with
    | ⟨0, _⟩ => show win0_1.index t (0 : Fin 2) * 55 + 1 * k.val = k.val; omega
    | ⟨1, _⟩ => show win0_1.index t (1 : Fin 2) * 32 + 1 * (j 1).val = win0_2.index t (1 : Fin 2) * 32 + 1 * (j 1).val; omega
  have hl : iblk0 V c 0 t (rowAt j k) = x (rowOf (((cfg0.win 2).blk t).view.emb j) k) := by
    show V c main_arg0 (((cfg0.win 0).blk t).view.emb (rowAt j k)) = _
    rw [h0, hx]
  have hr : iblk0 V c 1 t (colAt j k) = w (colOf (((cfg0.win 2).blk t).view.emb j) k) := by
    show V c main_arg2 (((cfg0.win 1).blk t).view.emb (colAt j k)) = _
    rw [h1, hw]
  exact congrArg₂ (· * ·) hl hr

/-- The array the tiled product leaves is the whole-array product of the two arrays the region finds. -/
theorem array_eq : (dat0 V c).arrAt 2 cfg0.N = Cert.Net.dense1 (F := Ideal) x w :=
  (dat0 V c).arrAt_eq_of_cover 2 _ (fun t _ => flushed_eq V c x w hx hw t) (cover)

end

end Cert.KernelIdeal.Dense1

end
-- ==== Proof.Dense2.lean ====
/-
  The second layer's dense product, read off its tiled computation.

  The node features (200000 rows of 32) are multiplied by the weights (32 by 16) in 100 blocks of 2000 rows: block `t`
  of the product is the product of block `t` of the features with the whole of the weights. Over the extended reals an
  entry of a block's product is the sum over the 32 columns of `x[r, k] * W[k, q]`, `r` the row inside the block; the
  row of the whole array is `2000 * t + r`, so the entry is the same sum that the whole-array product has at that row
  and column. The 100 blocks tile the 200000 rows, hence the array that the tiled computation leaves IS the whole-array
  product of the two arrays it found.
-/
import proofs.«105930_j51058571215473_2_alg».proof.Proof.Gen.KernelIdeal.Frame
import proofs.«105930_j51058571215473_2_alg».proof.Proof.NetSpec
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Idealize.ShloMosaic Idealize.ShloMosaic.TcCoe Idealize.SL.Sem
open Idealize.ShloMosaic.Pipeline (Dat)

/-! ## The whole-array product at an entry -/

/-- The entry of the features in the output entry's row and column `k`. -/
abbrev rowOf (i : Cert.ReferenceIdeal.S200000x16.Idx) (k : Fin 32) : Cert.ReferenceIdeal.S200000x32.Idx := fun a => match a with
  | ⟨0, _⟩ => ⟨(i 0).val, (i 0).isLt⟩
  | ⟨1, _⟩ => ⟨k.val, k.isLt⟩
/-- The entry of the weights in row `k` and the output entry's column. -/
abbrev colOf (i : Cert.ReferenceIdeal.S200000x16.Idx) (k : Fin 32) : Cert.ReferenceIdeal.S32x16.Idx := fun a => match a with
  | ⟨0, _⟩ => ⟨k.val, k.isLt⟩
  | ⟨1, _⟩ => ⟨(i 1).val, (i 1).isLt⟩

theorem wlhs0 (i : Cert.ReferenceIdeal.S200000x16.Idx) (q : Cert.ReferenceIdeal.dot_S200000x32_S32x16_S200000x16_1_0_0_1_n_n.contr.Idx) : (Cert.ReferenceIdeal.dot_S200000x32_S32x16_S200000x16_1_0_0_1_n_n.lhsIdx i q 0).val = (i 0).val := by
  unfold DotDims.lhsIdx
  rw [dif_neg (show ¬(0 : Fin Cert.ReferenceIdeal.S200000x32.rank) ∈ Cert.ReferenceIdeal.dot_S200000x32_S32x16_S200000x16_1_0_0_1_n_n.lhsBatch by decide), dif_pos (show (0 : Fin Cert.ReferenceIdeal.S200000x32.rank) ∈ Cert.ReferenceIdeal.dot_S200000x32_S32x16_S200000x16_1_0_0_1_n_n.lhsNonContracting by decide)]
  rfl
theorem wlhs1 (i : Cert.ReferenceIdeal.S200000x16.Idx) (q : Cert.ReferenceIdeal.dot_S200000x32_S32x16_S200000x16_1_0_0_1_n_n.contr.Idx) : (Cert.ReferenceIdeal.dot_S200000x32_S32x16_S200000x16_1_0_0_1_n_n.lhsIdx i q 1).val = (q ⟨0, by decide⟩).val :=
  Cert.ReferenceIdeal.dot_S200000x32_S32x16_S200000x16_1_0_0_1_n_n.lhsIdx_val_of_single rfl i q
theorem wrhs0 (i : Cert.ReferenceIdeal.S200000x16.Idx) (q : Cert.ReferenceIdeal.dot_S200000x32_S32x16_S200000x16_1_0_0_1_n_n.contr.Idx) : (Cert.ReferenceIdeal.dot_S200000x32_S32x16_S200000x16_1_0_0_1_n_n.rhsIdx i q 0).val = (q ⟨0, by decide⟩).val :=
  Cert.ReferenceIdeal.dot_S200000x32_S32x16_S200000x16_1_0_0_1_n_n.rhsIdx_val_of_single rfl i q
theorem wrhs1 (i : Cert.ReferenceIdeal.S200000x16.Idx) (q : Cert.ReferenceIdeal.dot_S200000x32_S32x16_S200000x16_1_0_0_1_n_n.contr.Idx) : (Cert.ReferenceIdeal.dot_S200000x32_S32x16_S200000x16_1_0_0_1_n_n.rhsIdx i q 1).val = (i 1).val := by
  unfold DotDims.rhsIdx
  rw [dif_neg (show ¬(1 : Fin Cert.ReferenceIdeal.S32x16.rank) ∈ Cert.ReferenceIdeal.dot_S200000x32_S32x16_S200000x16_1_0_0_1_n_n.rhsBatch by decide), dif_pos (show (1 : Fin Cert.ReferenceIdeal.S32x16.rank) ∈ Cert.ReferenceIdeal.dot_S200000x32_S32x16_S200000x16_1_0_0_1_n_n.rhsNonContracting by decide)]
  rfl

/-- Over the extended reals the whole-array product at an entry is the sum over the 32 columns. -/
theorem dense_apply (x : (⟨Cert.ReferenceIdeal.S200000x32, .f32⟩ : BufTy).Contents (Elt Ideal)) (w : (⟨Cert.ReferenceIdeal.S32x16, .f32⟩ : BufTy).Contents (Elt Ideal))
    (i : Cert.ReferenceIdeal.S200000x16.Idx) :
    Cert.Net.dense2 (F := Ideal) x w i = ∑ k : Fin 32, x (rowOf i k) * w (colOf i k) := by
  unfold Cert.Net.dense2
  simp only [Host.dotGeneral]
  rw [Ideal.dotGeneral_apply, ← Equiv.sum_comp (ValueIdx.contrEquiv1 Cert.ReferenceIdeal.dot_S200000x32_S32x16_S200000x16_1_0_0_1_n_n 32 rfl rfl).symm]
  refine Finset.sum_congr rfl fun k _ => ?_
  have hk := ValueIdx.contrEquiv1_symm_val Cert.ReferenceIdeal.dot_S200000x32_S32x16_S200000x16_1_0_0_1_n_n 32 rfl rfl k
  have el : Cert.ReferenceIdeal.dot_S200000x32_S32x16_S200000x16_1_0_0_1_n_n.lhsIdx i ((ValueIdx.contrEquiv1 Cert.ReferenceIdeal.dot_S200000x32_S32x16_S200000x16_1_0_0_1_n_n 32 rfl rfl).symm k) = rowOf i k := funext fun a => Fin.ext (by
    match a with
    | ⟨0, _⟩ => exact wlhs0 _ _
    | ⟨1, _⟩ => exact (wlhs1 _ _).trans hk)
  have er : Cert.ReferenceIdeal.dot_S200000x32_S32x16_S200000x16_1_0_0_1_n_n.rhsIdx i ((ValueIdx.contrEquiv1 Cert.ReferenceIdeal.dot_S200000x32_S32x16_S200000x16_1_0_0_1_n_n 32 rfl rfl).symm k) = colOf i k := funext fun a => Fin.ext (by
    match a with
    | ⟨0, _⟩ => exact (wrhs0 _ _).trans hk
    | ⟨1, _⟩ => exact wrhs1 _ _)
  rw [el, er]

/-! ## A block's product at an entry -/

/-- Inside a block: the entry of the features in the output entry's row and column `k`. -/
abbrev rowAt (j : S2000x16.Idx) (k : Fin 32) : S2000x32.Idx := fun a => match a with
  | ⟨0, _⟩ => ⟨(j 0).val, (j 0).isLt⟩
  | ⟨1, _⟩ => ⟨k.val, k.isLt⟩
/-- The entry of the weights in row `k` and the output entry's column. -/
abbrev colAt (j : S2000x16.Idx) (k : Fin 32) : S32x16.Idx := fun a => match a with
  | ⟨0, _⟩ => ⟨k.val, k.isLt⟩
  | ⟨1, _⟩ => ⟨(j 1).val, (j 1).isLt⟩

theorem lhs0 (j : S2000x16.Idx) (q : dot_S2000x32_S32x16_S2000x16_1_0_0_1_n_n.contr.Idx) : (dot_S2000x32_S32x16_S2000x16_1_0_0_1_n_n.lhsIdx j q 0).val = (j 0).val := by
  unfold DotDims.lhsIdx
  rw [dif_neg (show ¬(0 : Fin S2000x32.rank) ∈ dot_S2000x32_S32x16_S2000x16_1_0_0_1_n_n.lhsBatch by decide), dif_pos (show (0 : Fin S2000x32.rank) ∈ dot_S2000x32_S32x16_S2000x16_1_0_0_1_n_n.lhsNonContracting by decide)]
  rfl
theorem lhs1 (j : S2000x16.Idx) (q : dot_S2000x32_S32x16_S2000x16_1_0_0_1_n_n.contr.Idx) : (dot_S2000x32_S32x16_S2000x16_1_0_0_1_n_n.lhsIdx j q 1).val = (q ⟨0, by decide⟩).val :=
  dot_S2000x32_S32x16_S2000x16_1_0_0_1_n_n.lhsIdx_val_of_single rfl j q
theorem rhs0 (j : S2000x16.Idx) (q : dot_S2000x32_S32x16_S2000x16_1_0_0_1_n_n.contr.Idx) : (dot_S2000x32_S32x16_S2000x16_1_0_0_1_n_n.rhsIdx j q 0).val = (q ⟨0, by decide⟩).val :=
  dot_S2000x32_S32x16_S2000x16_1_0_0_1_n_n.rhsIdx_val_of_single rfl j q
theorem rhs1 (j : S2000x16.Idx) (q : dot_S2000x32_S32x16_S2000x16_1_0_0_1_n_n.contr.Idx) : (dot_S2000x32_S32x16_S2000x16_1_0_0_1_n_n.rhsIdx j q 1).val = (j 1).val := by
  unfold DotDims.rhsIdx
  rw [dif_neg (show ¬(1 : Fin S32x16.rank) ∈ dot_S2000x32_S32x16_S2000x16_1_0_0_1_n_n.rhsBatch by decide), dif_pos (show (1 : Fin S32x16.rank) ∈ dot_S2000x32_S32x16_S2000x16_1_0_0_1_n_n.rhsNonContracting by decide)]
  rfl

/-- An entry of a block's product is the sum over the 32 columns of the products of the row's and the column's
    entries: the accumulator the product is added into is zero. -/
theorem block_product (x : Vec Ideal S2000x32 .f32) (w : Vec Ideal S32x16 .f32) (j : S2000x16.Idx) :
    k2_pay1 (F := Ideal) x w j = ∑ k : Fin 32, x (rowAt j k) * w (colAt j k) := by
  unfold k2_pay1
  simp only [matmul, shapeCast_self]
  rw [Ideal.matmul_constant_zero_apply, ← Equiv.sum_comp (ValueIdx.contrEquiv1 dot_S2000x32_S32x16_S2000x16_1_0_0_1_n_n 32 rfl rfl).symm]
  refine Finset.sum_congr rfl fun k _ => ?_
  have hk := ValueIdx.contrEquiv1_symm_val dot_S2000x32_S32x16_S2000x16_1_0_0_1_n_n 32 rfl rfl k
  have el : dot_S2000x32_S32x16_S2000x16_1_0_0_1_n_n.lhsIdx j ((ValueIdx.contrEquiv1 dot_S2000x32_S32x16_S2000x16_1_0_0_1_n_n 32 rfl rfl).symm k) = rowAt j k := funext fun a => Fin.ext (by
    match a with
    | ⟨0, _⟩ => exact lhs0 _ _
    | ⟨1, _⟩ => exact (lhs1 _ _).trans hk)
  have er : dot_S2000x32_S32x16_S2000x16_1_0_0_1_n_n.rhsIdx j ((ValueIdx.contrEquiv1 dot_S2000x32_S32x16_S2000x16_1_0_0_1_n_n 32 rfl rfl).symm k) = colAt j k := funext fun a => Fin.ext (by
    match a with
    | ⟨0, _⟩ => exact (rhs0 _ _).trans hk
    | ⟨1, _⟩ => exact rhs1 _ _)
  rw [el, er]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the three windows' blocks sit at grid point `t`: the rows of the features and of the product move together
    with the point, the weights stay. -/
theorem block_places : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 99 :=
  (by decide +kernel : ∀ t : Fin grid2.N, _)

/-- Every one of the 100 row blocks is some grid point's. -/
theorem block_onto : ∀ q : Fin 100, ∃ t : Fin cfg2.N, win2_2.index t = ![q.val, 0] :=
  (by decide +kernel : ∀ q : Fin 100, ∃ t : Fin grid2.N, win2_2.index t = ![q.val, 0])

/-- An index of the product array is in point `t`'s block iff each coordinate is in the block's range. -/
theorem mem_blk (t : Fin cfg2.N) (i : S200000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v47).slice (win2_2.rect t)).set ↔ _
  rw [View.set_slice_whole, Rect.mem_set_unit]
  exact Iff.rfl

/-- Row `r` lies in block `r / 2000`. -/
theorem cover (i : S200000x16.Idx) : ∃ t : Fin cfg2.N, (cfg2.win 2).flush t = true ∧ i ∈ ((cfg2.win 2).blk t).view.set := by
  have hi0 : (i 0).val < 200000 := (i 0).isLt
  have hi1 : (i 1).val < 16 := (i 1).isLt
  obtain ⟨t, ht⟩ := block_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

section
variable (c : Dev nD)
  (x : (⟨Cert.ReferenceIdeal.S200000x32, .f32⟩ : BufTy).Contents (Elt Ideal)) (w : (⟨Cert.ReferenceIdeal.S32x16, .f32⟩ : BufTy).Contents (Elt Ideal))
  (hx : (V c main_v46 : (⟨S200000x32, .f32⟩ : BufTy).Contents (Elt Ideal)) = x)
  (hw : (V c main_arg4 : (⟨S32x16, .f32⟩ : BufTy).Contents (Elt Ideal)) = w)
include hx hw

/-- What grid point `t` writes back is block `t` of the whole-array product of the two arrays the region finds. -/
theorem flushed_eq (t : Fin cfg2.N) :
    (dat2 V c).flushed 2 t = ((cfg2.win 2).blk t).view.read (Elt Ideal) (Cert.Net.dense2 (F := Ideal) x w) := by
  show (cfg2.win 2).cut (grid2.coords t) ((dat2 V c).after 2 t) = _
  rw [after2_2]
  unfold out2_2
  rw [View.canon_unit_zero zero_offsets]
  simp only [View.ld_unit_zero (S := S2000x32) zero_offsets, View.ld_unit_zero (S := S32x16) zero_offsets]
  obtain ⟨e0, e1, e2, e3, e4, e5⟩ := block_places t
  funext j
  show k2_pay1 (F := Ideal) (iblk2 V c 0 t) (iblk2 V c 1 t) j
    = Cert.Net.dense2 (F := Ideal) x w (((cfg2.win 2).blk t).view.emb j)
  refine (block_product (iblk2 V c 0 t) (iblk2 V c 1 t) j).trans ?_
  rw [dense_apply]
  refine Finset.sum_congr rfl fun k _ => ?_
  have h0 : ((cfg2.win 0).blk t).view.emb (rowAt j k) = rowOf (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 32 + 1 * k.val = k.val; omega
  have h1 : ((cfg2.win 1).blk t).view.emb (colAt j k) = colOf (((cfg2.win 2).blk t).view.emb j) k := by
    funext a; apply Fin.ext
    match a with
    | ⟨0, _⟩ => show win2_1.index t (0 : Fin 2) * 32 + 1 * k.val = k.val; omega
    | ⟨1, _⟩ => show win2_1.index t (1 : Fin 2) * 16 + 1 * (j 1).val = win2_2.index t (1 : Fin 2) * 16 + 1 * (j 1).val; omega
  have hl : iblk2 V c 0 t (rowAt j k) = x (rowOf (((cfg2.win 2).blk t).view.emb j) k) := by
    show V c main_v46 (((cfg2.win 0).blk t).view.emb (rowAt j k)) = _
    rw [h0, hx]
  have hr : iblk2 V c 1 t (colAt j k) = w (colOf (((cfg2.win 2).blk t).view.emb j) k) := by
    show V c main_arg4 (((cfg2.win 1).blk t).view.emb (colAt j k)) = _
    rw [h1, hw]
  exact congrArg₂ (· * ·) hl hr

/-- The array the tiled product leaves is the whole-array product of the two arrays the region finds. -/
theorem array_eq : (dat2 V c).arrAt 2 cfg2.N = Cert.Net.dense2 (F := Ideal) x w :=
  (dat2 V c).arrAt_eq_of_cover 2 _ (fun t _ => flushed_eq V c x w hx hw t) (cover)

end

end Cert.KernelIdeal.Dense2

end
-- ==== Proof.Dense3.lean ====
/-
  The third layer's dense product, read off its tiled computation.

  The node features (200000 rows of 16) are multiplied by the weights (16 by 2) in 100 blocks of 2000 rows: block `t`
  of the product is the product of block `t` of the features with the whole of the weights. Over the extended reals an
  entry of a block's product is the sum over the 16 columns of `x[r, k] * W[k, q]`, `r` the row inside the block; the
  row of the whole array is `2000 * t + r`, so the entry is the same sum that the whole-array product has at that row
  and column. The 100 blocks tile the 200000 rows, hence the array that the tiled computation leaves IS the whole-array
  product of the two arrays it found.
-/
import proofs.«105930_j51058571215473_2_alg».proof.Proof.Gen.KernelIdeal.Frame
import proofs.«105930_j51058571215473_2_alg».proof.Proof.NetSpec
import Idealize.ShloMosaic.Lib.Pipeline.Value
import Idealize.ShloMosaic.Lib.ValueIdx
import Idealize.ShloMosaic.PureOps.Ideal.Laws

noncomputable section

namespace Cert.KernelIdeal.Dense3

open Cert.KernelIdeal Cert.KernelIdeal.Gen Idealize.ShloMosaic Idealize.ShloMosaic.TcCoe Idealize.SL.Sem
open Idealize.ShloMosaic.Pipeline (Dat)

/-! ## The whole-array product at an entry -/

/-- The entry of the features in the output entry's row and column `k`. -/
abbrev rowOf (i : Cert.ReferenceIdeal.S200000x2.Idx) (k : Fin 16) : Cert.ReferenceIdeal.S200000x16.Idx := fun a => match a with
  | ⟨0, _⟩ => ⟨(i 0).val, (i 0).isLt⟩
  | ⟨1, _⟩ => ⟨k.val, k.isLt⟩
/-- The entry of the weights in row `k` and the output entry's column. -/
abbrev colOf (i : Cert.ReferenceIdeal.S200000x2.Idx) (k : Fin 16) : Cert.ReferenceIdeal.S16x2.Idx := fun a => match a with
  | ⟨0, _⟩ => ⟨k.val, k.isLt⟩
  | ⟨1, _⟩ => ⟨(i 1).val, (i 1).isLt⟩

theorem wlhs0 (i : Cert.ReferenceIdeal.S200000x2.Idx) (q : Cert.ReferenceIdeal.dot_S200000x16_S16x2_S200000x2_1_0_0_1_n_n.contr.Idx) : (Cert.ReferenceIdeal.dot_S200000x16_S16x2_S200000x2_1_0_0_1_n_n.lhsIdx i q 0).val = (i 0).val := by
  unfold DotDims.lhsIdx
  rw [dif_neg (show ¬(0 : Fin Cert.ReferenceIdeal.S200000x16.rank) ∈ Cert.ReferenceIdeal.dot_S200000x16_S16x2_S200000x2_1_0_0_1_n_n.lhsBatch by decide), dif_pos (show (0 : Fin Cert.ReferenceIdeal.S200000x16.rank) ∈ Cert.ReferenceIdeal.dot_S200000x16_S16x2_S200000x2_1_0_0_1_n_n.lhsNonContracting by decide)]
  rfl
theorem wlhs1 (i : Cert.ReferenceIdeal.S200000x2.Idx) (q : Cert.ReferenceIdeal.dot_S200000x16_S16x2_S200000x2_1_0_0_1_n_n.contr.Idx) : (Cert.ReferenceIdeal.dot_S200000x16_S16x2_S200000x2_1_0_0_1_n_n.lhsIdx i q 1).val = (q ⟨0, by decide⟩).val :=
  Cert.ReferenceIdeal.dot_S200000x16_S16x2_S200000x2_1_0_0_1_n_n.lhsIdx_val_of_single rfl i q
theorem wrhs0 (i : Cert.ReferenceIdeal.S200000x2.Idx) (q : Cert.ReferenceIdeal.dot_S200000x16_S16x2_S200000x2_1_0_0_1_n_n.contr.Idx) : (Cert.ReferenceIdeal.dot_S200000x16_S16x2_S200000x2_1_0_0_1_n_n.rhsIdx i q 0).val = (q ⟨0, by decide⟩).val :=
  Cert.ReferenceIdeal.dot_S200000x16_S16x2_S200000x2_1_0_0_1_n_n.rhsIdx_val_of_single rfl i q
theorem wrhs1 (i : Cert.ReferenceIdeal.S200000x2.Idx) (q : Cert.ReferenceIdeal.dot_S200000x16_S16x2_S200000x2_1_0_0_1_n_n.contr.Idx) : (Cert.ReferenceIdeal.dot_S200000x16_S16x2_S200000x2_1_0_0_1_n_n.rhsIdx i q 1).val = (i 1).val := by
  unfold DotDims.rhsIdx
  rw [dif_neg (show ¬(1 : Fin Cert.ReferenceIdeal.S16x2.rank) ∈ Cert.ReferenceIdeal.dot_S200000x16_S16x2_S200000x2_1_0_0_1_n_n.rhsBatch by decide), dif_pos (show (1 : Fin Cert.ReferenceIdeal.S16x2.rank) ∈ Cert.ReferenceIdeal.dot_S200000x16_S16x2_S200000x2_1_0_0_1_n_n.rhsNonContracting by decide)]
  rfl

/-- Over the extended reals the whole-array product at an entry is the sum over the 16 columns. -/
theorem dense_apply (x : (⟨Cert.ReferenceIdeal.S200000x16, .f32⟩ : BufTy).Contents (Elt Ideal)) (w : (⟨Cert.ReferenceIdeal.S16x2, .f32⟩ : BufTy).Contents (Elt Ideal))
    (i : Cert.ReferenceIdeal.S200000x2.Idx) :
    Cert.Net.dense3 (F := Ideal) x w i = ∑ k : Fin 16, x (rowOf i k) * w (colOf i k) := by
  unfold Cert.Net.dense3
  simp only [Host.dotGeneral]
  rw [Ideal.dotGeneral_apply, ← Equiv.sum_comp (ValueIdx.contrEquiv1 Cert.ReferenceIdeal.dot_S200000x16_S16x2_S200000x2_1_0_0_1_n_n 16 rfl rfl).symm]
  refine Finset.sum_congr rfl fun k _ => ?_
  have hk := ValueIdx.contrEquiv1_symm_val Cert.ReferenceIdeal.dot_S200000x16_S16x2_S200000x2_1_0_0_1_n_n 16 rfl rfl k
  have el : Cert.ReferenceIdeal.dot_S200000x16_S16x2_S200000x2_1_0_0_1_n_n.lhsIdx i ((ValueIdx.contrEquiv1 Cert.ReferenceIdeal.dot_S200000x16_S16x2_S200000x2_1_0_0_1_n_n 16 rfl rfl).symm k) = rowOf i k := funext fun a => Fin.ext (by
    match a with
    | ⟨0, _⟩ => exact wlhs0 _ _
    | ⟨1, _⟩ => exact (wlhs1 _ _).trans hk)
  have er : Cert.ReferenceIdeal.dot_S200000x16_S16x2_S200000x2_1_0_0_1_n_n.rhsIdx i ((ValueIdx.contrEquiv1 Cert.ReferenceIdeal.dot_S200000x16_S16x2_S200000x2_1_0_0_1_n_n 16 rfl rfl).symm k) = colOf i k := funext fun a => Fin.ext (by
    match a with
    | ⟨0, _⟩ => exact (wrhs0 _ _).trans hk
    | ⟨1, _⟩ => exact wrhs1 _ _)
  rw [el, er]

/-! ## A block's product at an entry -/

/-- Inside a block: the entry of the features in the output entry's row and column `k`. -/
abbrev rowAt (j : S2000x2.Idx) (k : Fin 16) : S2000x16.Idx := fun a => match a with
  | ⟨0, _⟩ => ⟨(j 0).val, (j 0).isLt⟩
  | ⟨1, _⟩ => ⟨k.val, k.isLt⟩
/-- The entry of the weights in row `k` and the output entry's column. -/
abbrev colAt (j : S2000x2.Idx) (k : Fin 16) : S16x2.Idx := fun a => match a with
  | ⟨0, _⟩ => ⟨k.val, k.isLt⟩
  | ⟨1, _⟩ => ⟨(j 1).val, (j 1).isLt⟩

theorem lhs0 (j : S2000x2.Idx) (q : dot_S2000x16_S16x2_S2000x2_1_0_0_1_n_n.contr.Idx) : (dot_S2000x16_S16x2_S2000x2_1_0_0_1_n_n.lhsIdx j q 0).val = (j 0).val := by
  unfold DotDims.lhsIdx
  rw [dif_neg (show ¬(0 : Fin S2000x16.rank) ∈ dot_S2000x16_S16x2_S2000x2_1_0_0_1_n_n.lhsBatch by decide), dif_pos (show (0 : Fin S2000x16.rank) ∈ dot_S2000x16_S16x2_S2000x2_1_0_0_1_n_n.lhsNonContracting by decide)]
  rfl
theorem lhs1 (j : S2000x2.Idx) (q : dot_S2000x16_S16x2_S2000x2_1_0_0_1_n_n.contr.Idx) : (dot_S2000x16_S16x2_S2000x2_1_0_0_1_n_n.lhsIdx j q 1).val = (q ⟨0, by decide⟩).val :=
  dot_S2000x16_S16x2_S2000x2_1_0_0_1_n_n.lhsIdx_val_of_single rfl j q
theorem rhs0 (j : S2000x2.Idx) (q : dot_S2000x16_S16x2_S2000x2_1_0_0_1_n_n.contr.Idx) : (dot_S2000x16_S16x2_S2000x2_1_0_0_1_n_n.rhsIdx j q 0).val = (q ⟨0, by decide⟩).val :=
  dot_S2000x16_S16x2_S2000x2_1_0_0_1_n_n.rhsIdx_val_of_single rfl j q
theorem rhs1 (j : S2000x2.Idx) (q : dot_S2000x16_S16x2_S2000x2_1_0_0_1_n_n.contr.Idx) : (dot_S2000x16_S16x2_S2000x2_1_0_0_1_n_n.rhsIdx j q 1).val = (j 1).val := by
  unfold DotDims.rhsIdx
  rw [dif_neg (show ¬(1 : Fin S16x2.rank) ∈ dot_S2000x16_S16x2_S2000x2_1_0_0_1_n_n.rhsBatch by decide), dif_pos (show (1 : Fin S16x2.rank) ∈ dot_S2000x16_S16x2_S2000x2_1_0_0_1_n_n.rhsNonContracting by decide)]
  rfl

/-- An entry of a block's product is the sum over the 16 columns of the products of the row's and the column's
    entries: the accumulator the product is added into is zero. -/
theorem block_product (x : Vec Ideal S2000x16 .f32) (w : Vec Ideal S16x2 .f32) (j : S2000x2.Idx) :
    k4_pay1 (F := Ideal) x w j = ∑ k : Fin 16, x (rowAt j k) * w (colAt j k) := by
  unfold k4_pay1
  simp only [matmul, shapeCast_self]
  rw [Ideal.matmul_constant_zero_apply, ← Equiv.sum_comp (ValueIdx.contrEquiv1 dot_S2000x16_S16x2_S2000x2_1_0_0_1_n_n 16 rfl rfl).symm]
  refine Finset.sum_congr rfl fun k _ => ?_
  have hk := ValueIdx.contrEquiv1_symm_val dot_S2000x16_S16x2_S2000x2_1_0_0_1_n_n 16 rfl rfl k
  have el : dot_S2000x16_S16x2_S2000x2_1_0_0_1_n_n.lhsIdx j ((ValueIdx.contrEquiv1 dot_S2000x16_S16x2_S2000x2_1_0_0_1_n_n 16 rfl rfl).symm k) = rowAt j k := funext fun a => Fin.ext (by
    match a with
    | ⟨0, _⟩ => exact lhs0 _ _
    | ⟨1, _⟩ => exact (lhs1 _ _).trans hk)
  have er : dot_S2000x16_S16x2_S2000x2_1_0_0_1_n_n.rhsIdx j ((ValueIdx.contrEquiv1 dot_S2000x16_S16x2_S2000x2_1_0_0_1_n_n 16 rfl rfl).symm k) = colAt j k := funext fun a => Fin.ext (by
    match a with
    | ⟨0, _⟩ => exact (rhs0 _ _).trans hk
    | ⟨1, _⟩ => exact rhs1 _ _)
  rw [el, er]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the three windows' blocks sit at grid point `t`: the rows of the features and of the product move together
    with the point, the weights stay. -/
theorem block_places : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 99 :=
  (by decide +kernel : ∀ t : Fin grid4.N, _)

/-- Every one of the 100 row blocks is some grid point's. -/
theorem block_onto : ∀ q : Fin 100, ∃ t : Fin cfg4.N, win4_2.index t = ![q.val, 0] :=
  (by decide +kernel : ∀ q : Fin 100, ∃ t : Fin grid4.N, win4_2.index t = ![q.val, 0])

/-- An index of the product array is in point `t`'s block iff each coordinate is in the block's range. -/
theorem mem_blk (t : Fin cfg4.N) (i : S200000x2.Idx) :
    i ∈ ((cfg4.win 2).blk t).view.set ↔ ∀ a : Fin 2, win4_2.index t a * S2000x2.size a ≤ (i a).val ∧ (i a).val < win4_2.index t a * S2000x2.size a + S2000x2.size a := by
  show i ∈ ((View.whole main_v63).slice (win4_2.rect t)).set ↔ _
  rw [View.set_slice_whole, Rect.mem_set_unit]
  exact Iff.rfl

/-- Row `r` lies in block `r / 2000`. -/
theorem cover (i : S200000x2.Idx) : ∃ t : Fin cfg4.N, (cfg4.win 2).flush t = true ∧ i ∈ ((cfg4.win 2).blk t).view.set := by
  have hi0 : (i 0).val < 200000 := (i 0).isLt
  have hi1 : (i 1).val < 2 := (i 1).isLt
  obtain ⟨t, ht⟩ := block_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 2 ≤ (i 1).val ∧ (i 1).val < win4_2.index t (1 : Fin 2) * 2 + 2; omega

section
variable (c : Dev nD)
  (x : (⟨Cert.ReferenceIdeal.S200000x16, .f32⟩ : BufTy).Contents (Elt Ideal)) (w : (⟨Cert.ReferenceIdeal.S16x2, .f32⟩ : BufTy).Contents (Elt Ideal))
  (hx : (V c main_v62 : (⟨S200000x16, .f32⟩ : BufTy).Contents (Elt Ideal)) = x)
  (hw : (V c main_arg6 : (⟨S16x2, .f32⟩ : BufTy).Contents (Elt Ideal)) = w)
include hx hw

/-- What grid point `t` writes back is block `t` of the whole-array product of the two arrays the region finds. -/
theorem flushed_eq (t : Fin cfg4.N) :
    (dat4 V c).flushed 2 t = ((cfg4.win 2).blk t).view.read (Elt Ideal) (Cert.Net.dense3 (F := Ideal) x w) := by
  show (cfg4.win 2).cut (grid4.coords t) ((dat4 V c).after 2 t) = _
  rw [after4_2]
  unfold out4_2
  rw [View.canon_unit_zero zero_offsets]
  simp only [View.ld_unit_zero (S := S2000x16) zero_offsets, View.ld_unit_zero (S := S16x2) zero_offsets]
  obtain ⟨e0, e1, e2, e3, e4, e5⟩ := block_places t
  funext j
  show k4_pay1 (F := Ideal) (iblk4 V c 0 t) (iblk4 V c 1 t) j
    = Cert.Net.dense3 (F := Ideal) x w (((cfg4.win 2).blk t).view.emb j)
  refine (block_product (iblk4 V c 0 t) (iblk4 V c 1 t) j).trans ?_
  rw [dense_apply]
  refine Finset.sum_congr rfl fun k _ => ?_
  have h0 : ((cfg4.win 0).blk t).view.emb (rowAt j k) = rowOf (((cfg4.win 2).blk t).view.emb j) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 16 + 1 * k.val = k.val; omega
  have h1 : ((cfg4.win 1).blk t).view.emb (colAt j k) = colOf (((cfg4.win 2).blk t).view.emb j) k := by
    funext a; apply Fin.ext
    match a with
    | ⟨0, _⟩ => show win4_1.index t (0 : Fin 2) * 16 + 1 * k.val = k.val; omega
    | ⟨1, _⟩ => show win4_1.index t (1 : Fin 2) * 2 + 1 * (j 1).val = win4_2.index t (1 : Fin 2) * 2 + 1 * (j 1).val; omega
  have hl : iblk4 V c 0 t (rowAt j k) = x (rowOf (((cfg4.win 2).blk t).view.emb j) k) := by
    show V c main_v62 (((cfg4.win 0).blk t).view.emb (rowAt j k)) = _
    rw [h0, hx]
  have hr : iblk4 V c 1 t (colAt j k) = w (colOf (((cfg4.win 2).blk t).view.emb j) k) := by
    show V c main_arg6 (((cfg4.win 1).blk t).view.emb (colAt j k)) = _
    rw [h1, hw]
  exact congrArg₂ (· * ·) hl hr

/-- The array the tiled product leaves is the whole-array product of the two arrays the region finds. -/
theorem array_eq : (dat4 V c).arrAt 2 cfg4.N = Cert.Net.dense3 (F := Ideal) x w :=
  (dat4 V c).arrAt_eq_of_cover 2 _ (fun t _ => flushed_eq V c x w hx hw t) (cover)

end

end Cert.KernelIdeal.Dense3

end
-- ==== Proof.Mix1.lean ====
/-
  The first layer's combination, read off its tiled computation.

  After the aggregation over the edges, each node's row is `agg + h * s + b` clipped below at zero: `agg` the
  aggregated messages, `h` the node's own transformed features, `s` the node's self-loop weight (one number per node)
  and `b` the bias (one number per feature). The tiled computation finds `s` as a column and `b` as a row and runs over
  100 blocks of 2000 nodes; inside a block the column is spread along the 32 features and the row along the nodes, so
  the entry at node `r`, feature `q` reads `s` at `(r, 0)` and `b` at `(0, q)`. Node `r` of block `t` is node
  `2000 * t + r` of the whole arrays and every operation acts entry by entry, so block `t` of the result is block `t` of
  the same expression over the whole arrays; the blocks tile the nodes.
-/
import proofs.«105930_j51058571215473_2_alg».proof.Proof.Gen.KernelIdeal.Frame
import proofs.«105930_j51058571215473_2_alg».proof.Proof.NetSpec
import Idealize.ShloMosaic.Lib.Pipeline.Value
import Idealize.ShloMosaic.Lib.ValueIdx

noncomputable section

namespace Cert.KernelIdeal.Mix1

open Cert.KernelIdeal Cert.KernelIdeal.Gen Idealize.ShloMosaic Idealize.ShloMosaic.TcCoe Idealize.SL.Sem
open Idealize.ShloMosaic.Pipeline (Dat)

variable {F : FTy → Type} [FloatOps F]

/-! ## The whole-array combination at an entry -/

/-- The entry's node, as an index of the per-node vector. -/
abbrev nodeOf (i : Cert.ReferenceIdeal.S200000x32.Idx) : Cert.ReferenceIdeal.S200000.Idx := fun a => match a with
  | ⟨0, _⟩ => ⟨(i 0).val, (i 0).isLt⟩
/-- The entry's node, as an index of the per-node column. -/
abbrev nodeCol (i : Cert.ReferenceIdeal.S200000x32.Idx) : Cert.ReferenceIdeal.S200000x1.Idx := fun a => match a with
  | ⟨0, _⟩ => ⟨(i 0).val, (i 0).isLt⟩
  | ⟨1, _⟩ => ⟨0, Nat.one_pos⟩
/-- The entry's feature, as an index of the per-feature vector. -/
abbrev featOf (i : Cert.ReferenceIdeal.S200000x32.Idx) : Cert.ReferenceIdeal.S32.Idx := fun a => match a with
  | ⟨0, _⟩ => ⟨(i 1).val, (i 1).isLt⟩
/-- The entry's feature, as an index of the per-feature row. -/
abbrev featRow (i : Cert.ReferenceIdeal.S200000x32.Idx) : Cert.ReferenceIdeal.S1x32.Idx := fun a => match a with
  | ⟨0, _⟩ => ⟨0, Nat.one_pos⟩
  | ⟨1, _⟩ => ⟨(i 1).val, (i 1).isLt⟩

/-- The whole-array combination at an entry: the aggregate plus the node's own features times its self-loop weight,
    plus the feature's bias, clipped below at zero. -/
theorem combined_apply (agg h : (⟨Cert.ReferenceIdeal.S200000x32, .f32⟩ : BufTy).Contents (Elt F)) (sw : (⟨Cert.ReferenceIdeal.S200000, .f32⟩ : BufTy).Contents (Elt F))
    (b : (⟨Cert.ReferenceIdeal.S32, .f32⟩ : BufTy).Contents (Elt F)) (i : Cert.ReferenceIdeal.S200000x32.Idx) :
    Cert.Net.combined32 (F := F) agg h sw b i
      = FloatOps.maximumf (FloatOps.addf (FloatOps.addf (agg i) (FloatOps.mulf (h i) (sw (nodeOf i)))) (b (featOf i)))
          (FloatOps.ofBits .f32 0x00000000#32) := by
  have e1 : broadcastInDim Cert.ReferenceIdeal.S200000x32 ![0, 1] Cert.ReferenceIdeal.Gen.bcast_S200000x1_S200000x32_0_1
      (broadcastInDim Cert.ReferenceIdeal.S200000x1 ![0] Cert.ReferenceIdeal.Gen.bcast_S200000_S200000x1_0 sw) i = sw (nodeOf i) := by
    rw [broadcastInDim_apply _ Cert.ReferenceIdeal.Gen.bcast_S200000x1_S200000x32_0_1 (broadcastInDim Cert.ReferenceIdeal.S200000x1 ![0] Cert.ReferenceIdeal.Gen.bcast_S200000_S200000x1_0 sw) i (nodeCol i) (fun a => match a with
      | ⟨0, _⟩ => by show (i 0).val = if (200000 : Nat) = 1 then 0 else (i 0).val; rw [if_neg (by decide)]
      | ⟨1, _⟩ => by show 0 = if (1 : Nat) = 1 then 0 else (i 1).val; rw [if_pos rfl])]
    exact broadcastInDim_apply _ Cert.ReferenceIdeal.Gen.bcast_S200000_S200000x1_0 sw (nodeCol i) (nodeOf i) (fun a => match a with
      | ⟨0, _⟩ => by show (i 0).val = if (200000 : Nat) = 1 then 0 else (i 0).val; rw [if_neg (by decide)])
  have e2 : broadcastInDim Cert.ReferenceIdeal.S200000x32 ![0, 1] Cert.ReferenceIdeal.Gen.bcast_S1x32_S200000x32_0_1
      (broadcastInDim Cert.ReferenceIdeal.S1x32 ![1] Cert.ReferenceIdeal.Gen.bcast_S32_S1x32_1 b) i = b (featOf i) := by
    rw [broadcastInDim_apply _ Cert.ReferenceIdeal.Gen.bcast_S1x32_S200000x32_0_1 (broadcastInDim Cert.ReferenceIdeal.S1x32 ![1] Cert.ReferenceIdeal.Gen.bcast_S32_S1x32_1 b) i (featRow i) (fun a => match a with
      | ⟨0, _⟩ => by show 0 = if (1 : Nat) = 1 then 0 else (i 0).val; rw [if_pos rfl]
      | ⟨1, _⟩ => by show (i 1).val = if (32 : Nat) = 1 then 0 else (i 1).val; rw [if_neg (by decide)])]
    exact broadcastInDim_apply _ Cert.ReferenceIdeal.Gen.bcast_S32_S1x32_1 b (featRow i) (featOf i) (fun a => match a with
      | ⟨0, _⟩ => by show (i 1).val = if (32 : Nat) = 1 then 0 else (i 1).val; rw [if_neg (by decide)])
  unfold Cert.Net.combined32
  show FloatOps.maximumf (FloatOps.addf (FloatOps.addf (agg i) (FloatOps.mulf (h i)
      (broadcastInDim Cert.ReferenceIdeal.S200000x32 ![0, 1] Cert.ReferenceIdeal.Gen.bcast_S200000x1_S200000x32_0_1 (broadcastInDim Cert.ReferenceIdeal.S200000x1 ![0] Cert.ReferenceIdeal.Gen.bcast_S200000_S200000x1_0 sw) i)))
      (broadcastInDim Cert.ReferenceIdeal.S200000x32 ![0, 1] Cert.ReferenceIdeal.Gen.bcast_S1x32_S200000x32_0_1 (broadcastInDim Cert.ReferenceIdeal.S1x32 ![1] Cert.ReferenceIdeal.Gen.bcast_S32_S1x32_1 b) i))
      (FloatOps.ofBits .f32 0x00000000#32) = _
  rw [e1, e2]

/-! ## A block's combination at an entry -/

/-- Inside a block: where the self-loop weight of the entry's node sits in the column. -/
abbrev normAt (j : S2000x32.Idx) : S2000x1.Idx := fun a => match a with
  | ⟨0, _⟩ => ⟨(j 0).val, (j 0).isLt⟩
  | ⟨1, _⟩ => ⟨0, Nat.one_pos⟩
/-- Where the bias of the entry's feature sits in the row. -/
abbrev biasAt (j : S2000x32.Idx) : S1x32.Idx := fun a => match a with
  | ⟨0, _⟩ => ⟨0, Nat.one_pos⟩
  | ⟨1, _⟩ => ⟨(j 1).val, (j 1).isLt⟩

/-- An entry of a block's result: the aggregate plus the node's own features times its self-loop weight, plus the
    bias, clipped below at zero. -/
theorem block_mix (a h : Vec F S2000x32 .f32) (s : Vec F S2000x1 .f32) (b : Vec F S1x32 .f32) (j : S2000x32.Idx) :
    k1_pay1 (F := F) a h s b j
      = FloatOps.maximumf (FloatOps.addf (FloatOps.addf (a j) (FloatOps.mulf (h j) (s (normAt j)))) (b (biasAt j)))
          (FloatOps.ofBits .f32 0x00000000#32) := by
  unfold k1_pay1
  simp only [shapeCast_self]
  show FloatOps.maximumf (FloatOps.addf (FloatOps.addf (a j) (FloatOps.mulf (h j) (broadcastTo S2000x32 s broadcasts_S2000x1_S2000x32 j)))
      (broadcastTo S2000x32 b broadcasts_S1x32_S2000x32 j)) (FloatOps.ofBits .f32 0x00000000#32) = _
  rw [broadcastTo_apply s broadcasts_S2000x1_S2000x32 j (normAt j) (fun a => match a with
      | ⟨0, _⟩ => by show (j 0).val = if (2000 : Nat) = 1 then 0 else (j 0).val; rw [if_neg (by decide)]
      | ⟨1, _⟩ => by show 0 = if (1 : Nat) = 1 then 0 else (j 1).val; rw [if_pos rfl]),
    broadcastTo_apply b broadcasts_S1x32_S2000x32 j (biasAt j) (fun a => match a with
      | ⟨0, _⟩ => by show 0 = if (1 : Nat) = 1 then 0 else (j 0).val; rw [if_pos rfl]
      | ⟨1, _⟩ => by show (j 1).val = if (32 : Nat) = 1 then 0 else (j 1).val; rw [if_neg (by decide)])]

/-! ## From the blocks to the array -/

variable (V : (c : Dev nD) → (b : Ref sig .tc) → Buf (Elt F) ((c : Thread nD τ).loc b))

theorem zero_offsets : (![0, 0] : Fin 2 → Nat) = fun _ => 0 := funext fun a => by fin_cases a <;> rfl

/-- Where the five windows' blocks sit at grid point `t`: the four node-indexed arrays move together with the point,
    the bias row stays. -/
theorem block_places : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 99 :=
  (by decide +kernel : ∀ t : Fin grid1.N, _)

/-- Every one of the 100 node blocks is some grid point's. -/
theorem block_onto : ∀ q : Fin 100, ∃ t : Fin cfg1.N, win1_4.index t = ![q.val, 0] :=
  (by decide +kernel : ∀ q : Fin 100, ∃ t : Fin grid1.N, win1_4.index t = ![q.val, 0])

/-- An index of the result array is in point `t`'s block iff each coordinate is in the block's range. -/
theorem mem_blk (t : Fin cfg1.N) (i : S200000x32.Idx) :
    i ∈ ((cfg1.win 4).blk t).view.set ↔ ∀ a : Fin 2, win1_4.index t a * S2000x32.size a ≤ (i a).val ∧ (i a).val < win1_4.index t a * S2000x32.size a + S2000x32.size a := by
  show i ∈ ((View.whole main_v46).slice (win1_4.rect t)).set ↔ _
  rw [View.set_slice_whole, Rect.mem_set_unit]
  exact Iff.rfl

/-- Node `r` lies in block `r / 2000`. -/
theorem cover (i : S200000x32.Idx) : ∃ t : Fin cfg1.N, (cfg1.win 4).flush t = true ∧ i ∈ ((cfg1.win 4).blk t).view.set := by
  have hi0 : (i 0).val < 200000 := (i 0).isLt
  have hi1 : (i 1).val < 32 := (i 1).isLt
  obtain ⟨t, ht⟩ := block_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 32 ≤ (i 1).val ∧ (i 1).val < win1_4.index t (1 : Fin 2) * 32 + 32; omega

section
variable (c : Dev nD)
  (agg h : (⟨Cert.ReferenceIdeal.S200000x32, .f32⟩ : BufTy).Contents (Elt F)) (sw : (⟨Cert.ReferenceIdeal.S200000, .f32⟩ : BufTy).Contents (Elt F))
  (b : (⟨Cert.ReferenceIdeal.S32, .f32⟩ : BufTy).Contents (Elt F))
  (hagg : (V c main_v44 : (⟨S200000x32, .f32⟩ : BufTy).Contents (Elt F)) = agg)
  (hh : (V c main_v31 : (⟨S200000x32, .f32⟩ : BufTy).Contents (Elt F)) = h)
  (hsw : (V c main_v30 : (⟨S200000x1, .f32⟩ : BufTy).Contents (Elt F)) = shapeCast S200000x1 sw shapeCasts_S200000_S200000x1)
  (hb : (V c main_v45 : (⟨S1x32, .f32⟩ : BufTy).Contents (Elt F)) = shapeCast S1x32 b shapeCasts_S32_S1x32)
include hagg hh hsw hb

/-- What grid point `t` writes back is block `t` of the whole-array combination, when the four arrays the region
    finds are the aggregate, the transformed features, the self-loop weights as a column and the bias as a row. -/
theorem flushed_eq (t : Fin cfg1.N) :
    (dat1 V c).flushed 4 t = ((cfg1.win 4).blk t).view.read (Elt F) (Cert.Net.combined32 (F := F) agg h sw b) := by
  show (cfg1.win 4).cut (grid1.coords t) ((dat1 V c).after 4 t) = _
  rw [after1_4]
  unfold out1_4
  rw [View.canon_unit_zero zero_offsets]
  simp only [View.ld_unit_zero (S := S2000x32) zero_offsets, View.ld_unit_zero (S := S2000x1) zero_offsets, View.ld_unit_zero (S := S1x32) zero_offsets]
  obtain ⟨e0, e1, e2, e3, e4, e5, e6, e7, e8, e9⟩ := block_places t
  funext j
  show k1_pay1 (F := F) (iblk1 V c 0 t) (iblk1 V c 1 t) (iblk1 V c 2 t) (iblk1 V c 3 t) j
    = Cert.Net.combined32 (F := F) agg h sw b (((cfg1.win 4).blk t).view.emb j)
  refine (block_mix (iblk1 V c 0 t) (iblk1 V c 1 t) (iblk1 V c 2 t) (iblk1 V c 3 t) j).trans ?_
  rw [combined_apply]
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 32 + 1 * (j 1).val = win1_4.index t (1 : Fin 2) * 32 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 32 + 1 * (j 1).val = win1_4.index t (1 : Fin 2) * 32 + 1 * (j 1).val; omega
  show FloatOps.maximumf (FloatOps.addf (FloatOps.addf (V c main_v44 (((cfg1.win 0).blk t).view.emb j))
      (FloatOps.mulf (V c main_v31 (((cfg1.win 1).blk t).view.emb j)) (V c main_v30 (((cfg1.win 2).blk t).view.emb (normAt j)))))
      (V c main_v45 (((cfg1.win 3).blk t).view.emb (biasAt j)))) (FloatOps.ofBits .f32 0x00000000#32) = _
  rw [h0, h1, hagg, hh, hsw, hb]
  rw [shapeCast_apply sw shapeCasts_S200000_S200000x1 (((cfg1.win 2).blk t).view.emb (normAt j)) (nodeOf (((cfg1.win 4).blk t).view.emb j))
      (by rw [Shape.rowMajor_val_one, Shape.rowMajor_val_two]
          show win1_4.index t (0 : Fin 2) * 2000 + 1 * (j 0).val = (win1_2.index t (0 : Fin 2) * 2000 + 1 * (j 0).val) * 1 + (win1_2.index t (1 : Fin 2) * 1 + 1 * 0)
          omega)]
  rw [shapeCast_addUnit_apply ![32] b shapeCasts_S32_S1x32 (((cfg1.win 3).blk t).view.emb (biasAt j))]
  have hbi : (fun a : Fin 1 => (((cfg1.win 3).blk t).view.emb (biasAt j)) a.succ) = featOf (((cfg1.win 4).blk t).view.emb j) := by
    funext a; apply Fin.ext
    match a with
    | ⟨0, _⟩ => show win1_3.index t (1 : Fin 2) * 32 + 1 * (j 1).val = win1_4.index t (1 : Fin 2) * 32 + 1 * (j 1).val; omega
  rw [hbi]

/-- The array the tiled combination leaves is the whole-array combination of the four arrays the region finds. -/
theorem array_eq : (dat1 V c).arrAt 4 cfg1.N = Cert.Net.combined32 (F := F) agg h sw b :=
  (dat1 V c).arrAt_eq_of_cover 4 _ (fun t _ => flushed_eq V c agg h sw b hagg hh hsw hb t) (cover)

end

end Cert.KernelIdeal.Mix1

end
-- ==== Proof.Mix2.lean ====
/-
  The second layer's combination, read off its tiled computation.

  After the aggregation over the edges, each node's row is `agg + h * s + b` clipped below at zero: `agg` the
  aggregated messages, `h` the node's own transformed features, `s` the node's self-loop weight (one number per node)
  and `b` the bias (one number per feature). The tiled computation finds `s` as a column and `b` as a row and runs over
  100 blocks of 2000 nodes; inside a block the column is spread along the 16 features and the row along the nodes, so
  the entry at node `r`, feature `q` reads `s` at `(r, 0)` and `b` at `(0, q)`. Node `r` of block `t` is node
  `2000 * t + r` of the whole arrays and every operation acts entry by entry, so block `t` of the result is block `t` of
  the same expression over the whole arrays; the blocks tile the nodes.
-/
import proofs.«105930_j51058571215473_2_alg».proof.Proof.Gen.KernelIdeal.Frame
import proofs.«105930_j51058571215473_2_alg».proof.Proof.NetSpec
import Idealize.ShloMosaic.Lib.Pipeline.Value
import Idealize.ShloMosaic.Lib.ValueIdx

noncomputable section

namespace Cert.KernelIdeal.Mix2

open Cert.KernelIdeal Cert.KernelIdeal.Gen Idealize.ShloMosaic Idealize.ShloMosaic.TcCoe Idealize.SL.Sem
open Idealize.ShloMosaic.Pipeline (Dat)

variable {F : FTy → Type} [FloatOps F]

/-! ## The whole-array combination at an entry -/

/-- The entry's node, as an index of the per-node vector. -/
abbrev nodeOf (i : Cert.ReferenceIdeal.S200000x16.Idx) : Cert.ReferenceIdeal.S200000.Idx := fun a => match a with
  | ⟨0, _⟩ => ⟨(i 0).val, (i 0).isLt⟩
/-- The entry's node, as an index of the per-node column. -/
abbrev nodeCol (i : Cert.ReferenceIdeal.S200000x16.Idx) : Cert.ReferenceIdeal.S200000x1.Idx := fun a => match a with
  | ⟨0, _⟩ => ⟨(i 0).val, (i 0).isLt⟩
  | ⟨1, _⟩ => ⟨0, Nat.one_pos⟩
/-- The entry's feature, as an index of the per-feature vector. -/
abbrev featOf (i : Cert.ReferenceIdeal.S200000x16.Idx) : Cert.ReferenceIdeal.S16.Idx := fun a => match a with
  | ⟨0, _⟩ => ⟨(i 1).val, (i 1).isLt⟩
/-- The entry's feature, as an index of the per-feature row. -/
abbrev featRow (i : Cert.ReferenceIdeal.S200000x16.Idx) : Cert.ReferenceIdeal.S1x16.Idx := fun a => match a with
  | ⟨0, _⟩ => ⟨0, Nat.one_pos⟩
  | ⟨1, _⟩ => ⟨(i 1).val, (i 1).isLt⟩

/-- The whole-array combination at an entry: the aggregate plus the node's own features times its self-loop weight,
    plus the feature's bias, clipped below at zero. -/
theorem combined_apply (agg h : (⟨Cert.ReferenceIdeal.S200000x16, .f32⟩ : BufTy).Contents (Elt F)) (sw : (⟨Cert.ReferenceIdeal.S200000, .f32⟩ : BufTy).Contents (Elt F))
    (b : (⟨Cert.ReferenceIdeal.S16, .f32⟩ : BufTy).Contents (Elt F)) (i : Cert.ReferenceIdeal.S200000x16.Idx) :
    Cert.Net.combined16 (F := F) agg h sw b i
      = FloatOps.maximumf (FloatOps.addf (FloatOps.addf (agg i) (FloatOps.mulf (h i) (sw (nodeOf i)))) (b (featOf i)))
          (FloatOps.ofBits .f32 0x00000000#32) := by
  have e1 : broadcastInDim Cert.ReferenceIdeal.S200000x16 ![0, 1] Cert.ReferenceIdeal.Gen.bcast_S200000x1_S200000x16_0_1
      (broadcastInDim Cert.ReferenceIdeal.S200000x1 ![0] Cert.ReferenceIdeal.Gen.bcast_S200000_S200000x1_0 sw) i = sw (nodeOf i) := by
    rw [broadcastInDim_apply _ Cert.ReferenceIdeal.Gen.bcast_S200000x1_S200000x16_0_1 (broadcastInDim Cert.ReferenceIdeal.S200000x1 ![0] Cert.ReferenceIdeal.Gen.bcast_S200000_S200000x1_0 sw) i (nodeCol i) (fun a => match a with
      | ⟨0, _⟩ => by show (i 0).val = if (200000 : Nat) = 1 then 0 else (i 0).val; rw [if_neg (by decide)]
      | ⟨1, _⟩ => by show 0 = if (1 : Nat) = 1 then 0 else (i 1).val; rw [if_pos rfl])]
    exact broadcastInDim_apply _ Cert.ReferenceIdeal.Gen.bcast_S200000_S200000x1_0 sw (nodeCol i) (nodeOf i) (fun a => match a with
      | ⟨0, _⟩ => by show (i 0).val = if (200000 : Nat) = 1 then 0 else (i 0).val; rw [if_neg (by decide)])
  have e2 : broadcastInDim Cert.ReferenceIdeal.S200000x16 ![0, 1] Cert.ReferenceIdeal.Gen.bcast_S1x16_S200000x16_0_1
      (broadcastInDim Cert.ReferenceIdeal.S1x16 ![1] Cert.ReferenceIdeal.Gen.bcast_S16_S1x16_1 b) i = b (featOf i) := by
    rw [broadcastInDim_apply _ Cert.ReferenceIdeal.Gen.bcast_S1x16_S200000x16_0_1 (broadcastInDim Cert.ReferenceIdeal.S1x16 ![1] Cert.ReferenceIdeal.Gen.bcast_S16_S1x16_1 b) i (featRow i) (fun a => match a with
      | ⟨0, _⟩ => by show 0 = if (1 : Nat) = 1 then 0 else (i 0).val; rw [if_pos rfl]
      | ⟨1, _⟩ => by show (i 1).val = if (16 : Nat) = 1 then 0 else (i 1).val; rw [if_neg (by decide)])]
    exact broadcastInDim_apply _ Cert.ReferenceIdeal.Gen.bcast_S16_S1x16_1 b (featRow i) (featOf i) (fun a => match a with
      | ⟨0, _⟩ => by show (i 1).val = if (16 : Nat) = 1 then 0 else (i 1).val; rw [if_neg (by decide)])
  unfold Cert.Net.combined16
  show FloatOps.maximumf (FloatOps.addf (FloatOps.addf (agg i) (FloatOps.mulf (h i)
      (broadcastInDim Cert.ReferenceIdeal.S200000x16 ![0, 1] Cert.ReferenceIdeal.Gen.bcast_S200000x1_S200000x16_0_1 (broadcastInDim Cert.ReferenceIdeal.S200000x1 ![0] Cert.ReferenceIdeal.Gen.bcast_S200000_S200000x1_0 sw) i)))
      (broadcastInDim Cert.ReferenceIdeal.S200000x16 ![0, 1] Cert.ReferenceIdeal.Gen.bcast_S1x16_S200000x16_0_1 (broadcastInDim Cert.ReferenceIdeal.S1x16 ![1] Cert.ReferenceIdeal.Gen.bcast_S16_S1x16_1 b) i))
      (FloatOps.ofBits .f32 0x00000000#32) = _
  rw [e1, e2]

/-! ## A block's combination at an entry -/

/-- Inside a block: where the self-loop weight of the entry's node sits in the column. -/
abbrev normAt (j : S2000x16.Idx) : S2000x1.Idx := fun a => match a with
  | ⟨0, _⟩ => ⟨(j 0).val, (j 0).isLt⟩
  | ⟨1, _⟩ => ⟨0, Nat.one_pos⟩
/-- Where the bias of the entry's feature sits in the row. -/
abbrev biasAt (j : S2000x16.Idx) : S1x16.Idx := fun a => match a with
  | ⟨0, _⟩ => ⟨0, Nat.one_pos⟩
  | ⟨1, _⟩ => ⟨(j 1).val, (j 1).isLt⟩

/-- An entry of a block's result: the aggregate plus the node's own features times its self-loop weight, plus the
    bias, clipped below at zero. -/
theorem block_mix (a h : Vec F S2000x16 .f32) (s : Vec F S2000x1 .f32) (b : Vec F S1x16 .f32) (j : S2000x16.Idx) :
    k3_pay1 (F := F) a h s b j
      = FloatOps.maximumf (FloatOps.addf (FloatOps.addf (a j) (FloatOps.mulf (h j) (s (normAt j)))) (b (biasAt j)))
          (FloatOps.ofBits .f32 0x00000000#32) := by
  unfold k3_pay1
  simp only [shapeCast_self]
  show FloatOps.maximumf (FloatOps.addf (FloatOps.addf (a j) (FloatOps.mulf (h j) (broadcastTo S2000x16 s broadcasts_S2000x1_S2000x16 j)))
      (broadcastTo S2000x16 b broadcasts_S1x16_S2000x16 j)) (FloatOps.ofBits .f32 0x00000000#32) = _
  rw [broadcastTo_apply s broadcasts_S2000x1_S2000x16 j (normAt j) (fun a => match a with
      | ⟨0, _⟩ => by show (j 0).val = if (2000 : Nat) = 1 then 0 else (j 0).val; rw [if_neg (by decide)]
      | ⟨1, _⟩ => by show 0 = if (1 : Nat) = 1 then 0 else (j 1).val; rw [if_pos rfl]),
    broadcastTo_apply b broadcasts_S1x16_S2000x16 j (biasAt j) (fun a => match a with
      | ⟨0, _⟩ => by show 0 = if (1 : Nat) = 1 then 0 else (j 0).val; rw [if_pos rfl]
      | ⟨1, _⟩ => by show (j 1).val = if (16 : Nat) = 1 then 0 else (j 1).val; rw [if_neg (by decide)])]

/-! ## From the blocks to the array -/

variable (V : (c : Dev nD) → (b : Ref sig .tc) → Buf (Elt F) ((c : Thread nD τ).loc b))

theorem zero_offsets : (![0, 0] : Fin 2 → Nat) = fun _ => 0 := funext fun a => by fin_cases a <;> rfl

/-- Where the five windows' blocks sit at grid point `t`: the four node-indexed arrays move together with the point,
    the bias row stays. -/
theorem block_places : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 99 :=
  (by decide +kernel : ∀ t : Fin grid3.N, _)

/-- Every one of the 100 node blocks is some grid point's. -/
theorem block_onto : ∀ q : Fin 100, ∃ t : Fin cfg3.N, win3_4.index t = ![q.val, 0] :=
  (by decide +kernel : ∀ q : Fin 100, ∃ t : Fin grid3.N, win3_4.index t = ![q.val, 0])

/-- An index of the result array is in point `t`'s block iff each coordinate is in the block's range. -/
theorem mem_blk (t : Fin cfg3.N) (i : S200000x16.Idx) :
    i ∈ ((cfg3.win 4).blk t).view.set ↔ ∀ a : Fin 2, win3_4.index t a * S2000x16.size a ≤ (i a).val ∧ (i a).val < win3_4.index t a * S2000x16.size a + S2000x16.size a := by
  show i ∈ ((View.whole main_v62).slice (win3_4.rect t)).set ↔ _
  rw [View.set_slice_whole, Rect.mem_set_unit]
  exact Iff.rfl

/-- Node `r` lies in block `r / 2000`. -/
theorem cover (i : S200000x16.Idx) : ∃ t : Fin cfg3.N, (cfg3.win 4).flush t = true ∧ i ∈ ((cfg3.win 4).blk t).view.set := by
  have hi0 : (i 0).val < 200000 := (i 0).isLt
  have hi1 : (i 1).val < 16 := (i 1).isLt
  obtain ⟨t, ht⟩ := block_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 16 ≤ (i 1).val ∧ (i 1).val < win3_4.index t (1 : Fin 2) * 16 + 16; omega

section
variable (c : Dev nD)
  (agg h : (⟨Cert.ReferenceIdeal.S200000x16, .f32⟩ : BufTy).Contents (Elt F)) (sw : (⟨Cert.ReferenceIdeal.S200000, .f32⟩ : BufTy).Contents (Elt F))
  (b : (⟨Cert.ReferenceIdeal.S16, .f32⟩ : BufTy).Contents (Elt F))
  (hagg : (V c main_v60 : (⟨S200000x16, .f32⟩ : BufTy).Contents (Elt F)) = agg)
  (hh : (V c main_v47 : (⟨S200000x16, .f32⟩ : BufTy).Contents (Elt F)) = h)
  (hsw : (V c main_v30 : (⟨S200000x1, .f32⟩ : BufTy).Contents (Elt F)) = shapeCast S200000x1 sw shapeCasts_S200000_S200000x1)
  (hb : (V c main_v61 : (⟨S1x16, .f32⟩ : BufTy).Contents (Elt F)) = shapeCast S1x16 b shapeCasts_S16_S1x16)
include hagg hh hsw hb

/-- What grid point `t` writes back is block `t` of the whole-array combination, when the four arrays the region
    finds are the aggregate, the transformed features, the self-loop weights as a column and the bias as a row. -/
theorem flushed_eq (t : Fin cfg3.N) :
    (dat3 V c).flushed 4 t = ((cfg3.win 4).blk t).view.read (Elt F) (Cert.Net.combined16 (F := F) agg h sw b) := by
  show (cfg3.win 4).cut (grid3.coords t) ((dat3 V c).after 4 t) = _
  rw [after3_4]
  unfold out3_4
  rw [View.canon_unit_zero zero_offsets]
  simp only [View.ld_unit_zero (S := S2000x16) zero_offsets, View.ld_unit_zero (S := S2000x1) zero_offsets, View.ld_unit_zero (S := S1x16) zero_offsets]
  obtain ⟨e0, e1, e2, e3, e4, e5, e6, e7, e8, e9⟩ := block_places t
  funext j
  show k3_pay1 (F := F) (iblk3 V c 0 t) (iblk3 V c 1 t) (iblk3 V c 2 t) (iblk3 V c 3 t) j
    = Cert.Net.combined16 (F := F) agg h sw b (((cfg3.win 4).blk t).view.emb j)
  refine (block_mix (iblk3 V c 0 t) (iblk3 V c 1 t) (iblk3 V c 2 t) (iblk3 V c 3 t) j).trans ?_
  rw [combined_apply]
  have h0 : ((cfg3.win 0).blk t).view.emb j = ((cfg3.win 4).blk t).view.emb j := by
    funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 16 + 1 * (j 1).val = win3_4.index t (1 : Fin 2) * 16 + 1 * (j 1).val; omega
  have h1 : ((cfg3.win 1).blk t).view.emb j = ((cfg3.win 4).blk t).view.emb j := by
    funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 16 + 1 * (j 1).val = win3_4.index t (1 : Fin 2) * 16 + 1 * (j 1).val; omega
  show FloatOps.maximumf (FloatOps.addf (FloatOps.addf (V c main_v60 (((cfg3.win 0).blk t).view.emb j))
      (FloatOps.mulf (V c main_v47 (((cfg3.win 1).blk t).view.emb j)) (V c main_v30 (((cfg3.win 2).blk t).view.emb (normAt j)))))
      (V c main_v61 (((cfg3.win 3).blk t).view.emb (biasAt j)))) (FloatOps.ofBits .f32 0x00000000#32) = _
  rw [h0, h1, hagg, hh, hsw, hb]
  rw [shapeCast_apply sw shapeCasts_S200000_S200000x1 (((cfg3.win 2).blk t).view.emb (normAt j)) (nodeOf (((cfg3.win 4).blk t).view.emb j))
      (by rw [Shape.rowMajor_val_one, Shape.rowMajor_val_two]
          show win3_4.index t (0 : Fin 2) * 2000 + 1 * (j 0).val = (win3_2.index t (0 : Fin 2) * 2000 + 1 * (j 0).val) * 1 + (win3_2.index t (1 : Fin 2) * 1 + 1 * 0)
          omega)]
  rw [shapeCast_addUnit_apply ![16] b shapeCasts_S16_S1x16 (((cfg3.win 3).blk t).view.emb (biasAt j))]
  have hbi : (fun a : Fin 1 => (((cfg3.win 3).blk t).view.emb (biasAt j)) a.succ) = featOf (((cfg3.win 4).blk t).view.emb j) := by
    funext a; apply Fin.ext
    match a with
    | ⟨0, _⟩ => show win3_3.index t (1 : Fin 2) * 16 + 1 * (j 1).val = win3_4.index t (1 : Fin 2) * 16 + 1 * (j 1).val; omega
  rw [hbi]

/-- The array the tiled combination leaves is the whole-array combination of the four arrays the region finds. -/
theorem array_eq : (dat3 V c).arrAt 4 cfg3.N = Cert.Net.combined16 (F := F) agg h sw b :=
  (dat3 V c).arrAt_eq_of_cover 4 _ (fun t _ => flushed_eq V c agg h sw b hagg hh hsw hb t) (cover)

end

end Cert.KernelIdeal.Mix2

end
-- ==== Proof.Rows3.lean ====
/-
  The third layer's combination and the logarithm of each row's softmax, read off its tiled computation.

  After the aggregation over the edges each node's row of two numbers is `y = agg + h * s + b`: `agg` the
  aggregated messages, `h` the node's own transformed features, `s` the node's self-loop weight (one number per
  node, held as a column) and `b` the bias (one number per feature, held as a row). The row is then replaced by the
  logarithm of its softmax, computed stably: with `M` the larger of the row's two numbers (the maximum taken from
  minus infinity), entry `q` becomes `(y q - M) - log (exp (y 0 - M) + exp (y 1 - M))`.

  The computation runs over 100 blocks of 2000 nodes. Inside a block the column `s` is spread along the two
  features and the row `b` along the nodes, and both reductions run along a node's own row, so the result at
  node `r` of a block depends on that node's row alone. Node `r` of block `t` is node `2000 * t + r` of the whole
  arrays, so block `t` of the result is block `t` of the same row-wise expression over the whole arrays, and the
  blocks tile the nodes.
-/
import proofs.«105930_j51058571215473_2_alg».proof.Proof.Gen.KernelIdeal.Frame
import proofs.«105930_j51058571215473_2_alg».proof.Proof.NetSpec
import Idealize.ShloMosaic.Lib.Pipeline.Value
import Idealize.ShloMosaic.Lib.ValueIdx
import Idealize.ShloMosaic.PureOps.Ideal.Laws

noncomputable section

namespace Cert.KernelIdeal.Rows3

open Cert.KernelIdeal Cert.KernelIdeal.Gen Idealize.ShloMosaic Idealize.ShloMosaic.TcCoe Idealize.SL.Sem
open Idealize.ShloMosaic.Pipeline (Dat)
open Idealize.ShloMosaic.ValueIdx

/-! ## One row -/

/-- The larger of a row's two numbers, the maximum taken from minus infinity. -/
def rowMax (row : Fin 2 → EReal) : EReal :=
  (Finset.univ : Finset (Fin 2)).fold max (Ideal.ofBits .f32 0xFF800000#32) row

/-- The logarithm of the softmax at an entry `y` of a row: the entry minus the row's maximum, minus the logarithm
    of the sum over the row of the exponentials of those differences. -/
def rowLogSoftmax (y : EReal) (row : Fin 2 → EReal) : EReal :=
  (y - rowMax row) - Ideal.log (∑ k : Fin 2, Ideal.exp (row k - rowMax row))

/-! ## The operations of a block, read at an entry -/

/-- Along a node's row: the block index whose dropped lane coordinate is `k` is `(p, k)`. -/
theorem lane_index (p : Fin 2000) (k : Fin 2) :
    reduces_S2000x2_S2000.lift (ix1 p) k = (ix2 p k : S2000x2.Idx) := by
  funext c; apply Fin.ext
  match c with
  | ⟨0, _⟩ => rfl
  | ⟨1, _⟩ => rfl

/-- The maximum along the lanes, at node `p`: the larger of the row's two numbers. -/
theorem lane_max (y : FVec Ideal S2000x2 .f32) (p : Fin 2000) :
    multiReduction (F := Ideal) .maximumf [1] S2000 y 0xFF800000#32 reduces_S2000x2_S2000 (.inl rfl) rfl (ix1 p)
      = rowMax fun k => y (ix2 p k) := by
  refine (Ideal.multiReduction_maximumf_single y 0xFF800000#32 reduces_S2000x2_S2000 (.inl rfl) rfl (ix1 p)).trans ?_
  unfold rowMax
  exact congrArg (fun f : Fin 2 → EReal => (Finset.univ : Finset (Fin 2)).fold max (Ideal.ofBits .f32 0xFF800000#32) f)
    (funext fun k => congrArg y (lane_index p k))

/-- The sum along the lanes, at node `p`: the sum of the row's two numbers. -/
theorem lane_sum (y : FVec Ideal S2000x2 .f32) (p : Fin 2000) :
    multiReduction (F := Ideal) .add [1] S2000 y 0x00000000#32 reduces_S2000x2_S2000 (.inl rfl) rfl (ix1 p)
      = ∑ k : Fin 2, y (ix2 p k) := by
  refine (Ideal.multiReduction_add_single y 0x00000000#32 reduces_S2000x2_S2000 (.inl rfl) rfl (ix1 p)).trans ?_
  exact Finset.sum_congr rfl fun k _ => congrArg y (lane_index p k)

/-- A vector of one number per node, held as a column, reads the node's number. -/
theorem column_of_vector (v : FVec Ideal S2000 .f32) (p : Fin 2000) :
    shapeCast S2000x1 v shapeCasts_S2000_S2000x1 (ix2 p (0 : Fin 1)) = v (ix1 p) :=
  shapeCast_apply v shapeCasts_S2000_S2000x1 (ix2 p (0 : Fin 1)) (ix1 p) (by
    rw [Shape.rowMajor_val_one, Shape.rowMajor_val_two]
    show p.val = p.val * 1 + 0
    omega)

/-- A column spread along the features reads the node's number at either feature. -/
theorem spread_column (s : FVec Ideal S2000x1 .f32) (p : Fin 2000) (q : Fin 2) :
    broadcastTo S2000x2 s broadcasts_S2000x1_S2000x2 (ix2 p q) = s (ix2 p (0 : Fin 1)) :=
  broadcastTo_apply s broadcasts_S2000x1_S2000x2 (ix2 p q) (ix2 p (0 : Fin 1)) (fun a => match a with
    | ⟨0, _⟩ => by show p.val = if (2000 : Nat) = 1 then 0 else p.val; rw [if_neg (by decide)]
    | ⟨1, _⟩ => by show 0 = if (1 : Nat) = 1 then 0 else q.val; rw [if_pos rfl])

/-- A row spread along the nodes reads the feature's number at every node. -/
theorem spread_row (b : FVec Ideal S1x2 .f32) (p : Fin 2000) (q : Fin 2) :
    broadcastTo S2000x2 b broadcasts_S1x2_S2000x2 (ix2 p q) = b (ix2 (0 : Fin 1) q) :=
  broadcastTo_apply b broadcasts_S1x2_S2000x2 (ix2 p q) (ix2 (0 : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])

/-! ## A block's rows -/

section Block
variable (a h : Vec Ideal S2000x2 .f32) (s : Vec Ideal S2000x1 .f32) (b : Vec Ideal S1x2 .f32)

/-- The row before the softmax at node `p`, feature `q` of a block: the aggregate plus the node's own feature
    times its self-loop weight, plus the feature's bias. -/
def blockSum (p : Fin 2000) (q : Fin 2) : EReal :=
  (a (ix2 p q) : EReal) + (h (ix2 p q) : EReal) * (s (ix2 p (0 : Fin 1)) : EReal) + (b (ix2 (0 : Fin 1) q) : EReal)

/-- The same as the block computes it: the column spread along the features, the row along the nodes. -/
def blockPre : FVec Ideal S2000x2 .f32 :=
  addf (addf (shapeCast S2000x2 a shapeCasts_S2000x2_S2000x2)
      (mulf (shapeCast S2000x2 h shapeCasts_S2000x2_S2000x2)
        (broadcastTo S2000x2 (shapeCast S2000x1 s shapeCasts_S2000x1_S2000x1) broadcasts_S2000x1_S2000x2)))
    (broadcastTo S2000x2 (shapeCast S1x2 b shapeCasts_S1x2_S1x2) broadcasts_S1x2_S2000x2)

theorem blockPre_apply (p : Fin 2000) (q : Fin 2) : blockPre a h s b (ix2 p q) = blockSum a h s b p q := by
  unfold blockPre blockSum
  simp only [shapeCast_self]
  show (a (ix2 p q) : EReal) + (h (ix2 p q) : EReal) * broadcastTo S2000x2 s broadcasts_S2000x1_S2000x2 (ix2 p q)
      + broadcastTo S2000x2 b broadcasts_S1x2_S2000x2 (ix2 p q) = _
  rw [spread_column, spread_row]

end Block

/-- Each row's maximum, held as a column and spread back along the features. -/
def spreadMax (y : FVec Ideal S2000x2 .f32) : FVec Ideal S2000x2 .f32 :=
  broadcastTo S2000x2
    (shapeCast S2000x1
      (multiReduction (F := Ideal) .maximumf [1] S2000 y 0xFF800000#32 reduces_S2000x2_S2000 (.inl rfl) rfl)
      shapeCasts_S2000_S2000x1)
    broadcasts_S2000x1_S2000x2

theorem spreadMax_apply (y : FVec Ideal S2000x2 .f32) (p : Fin 2000) (q : Fin 2) :
    spreadMax y (ix2 p q) = rowMax fun k => y (ix2 p k) := by
  unfold spreadMax
  rw [spread_column, column_of_vector, lane_max]

/-- The logarithm of each row's sum, held as a column and spread back along the features. -/
def spreadLogSum (y : FVec Ideal S2000x2 .f32) : FVec Ideal S2000x2 .f32 :=
  broadcastTo S2000x2
    (log (shapeCast S2000x1
      (multiReduction (F := Ideal) .add [1] S2000 y 0x00000000#32 reduces_S2000x2_S2000 (.inl rfl) rfl)
      shapeCasts_S2000_S2000x1))
    broadcasts_S2000x1_S2000x2

theorem spreadLogSum_apply (y : FVec Ideal S2000x2 .f32) (p : Fin 2000) (q : Fin 2) :
    spreadLogSum y (ix2 p q) = Ideal.log (∑ k : Fin 2, y (ix2 p k)) := by
  unfold spreadLogSum
  rw [spread_column]
  show Ideal.log (shapeCast S2000x1
      (multiReduction (F := Ideal) .add [1] S2000 y 0x00000000#32 reduces_S2000x2_S2000 (.inl rfl) rfl)
      shapeCasts_S2000_S2000x1 (ix2 p (0 : Fin 1))) = _
  rw [column_of_vector, lane_sum]

section Block
variable (a h : Vec Ideal S2000x2 .f32) (s : Vec Ideal S2000x1 .f32) (b : Vec Ideal S1x2 .f32)

/-- What a block stores: its rows minus their maxima, minus the logarithms of the sums of the exponentials of those
    differences. -/
theorem payload_eq :
    k5_pay1 (F := Ideal) a h s b
      = subf (subf (blockPre a h s b) (spreadMax (blockPre a h s b)))
          (spreadLogSum (exp (subf (blockPre a h s b) (spreadMax (blockPre a h s b))))) := rfl

/-- An entry of what a block stores is the logarithm of the softmax of the node's row. -/
theorem block_rows (p : Fin 2000) (q : Fin 2) :
    k5_pay1 (F := Ideal) a h s b (ix2 p q) = rowLogSoftmax (blockSum a h s b p q) (fun k => blockSum a h s b p k) := by
  rw [payload_eq]
  show (blockPre a h s b (ix2 p q) - spreadMax (blockPre a h s b) (ix2 p q))
      - spreadLogSum (exp (subf (blockPre a h s b) (spreadMax (blockPre a h s b)))) (ix2 p q) = _
  rw [spreadLogSum_apply, spreadMax_apply, blockPre_apply]
  have hrow : (fun k : Fin 2 => blockPre a h s b (ix2 p k)) = fun k => blockSum a h s b p k :=
    funext fun k => blockPre_apply a h s b p k
  rw [hrow]
  unfold rowLogSoftmax
  refine congrArg (fun x => blockSum a h s b p q - rowMax (fun k => blockSum a h s b p k) - Ideal.log x) ?_
  refine Finset.sum_congr rfl fun k _ => ?_
  show Ideal.exp (blockPre a h s b (ix2 p k) - spreadMax (blockPre a h s b) (ix2 p k)) = _
  rw [spreadMax_apply, blockPre_apply, hrow]

end Block

/-! ## The whole arrays' rows -/

/-- Minus infinity is below every number. -/
theorem max_neg_inf (x : EReal) : max (Ideal.ofBits .f32 0xFF800000#32) x = x := by
  simp [Ideal.ofBits, Ideal.ieee]

theorem whole_reduces : Cert.ReferenceIdeal.S200000x2.Reduces [1] Cert.ReferenceIdeal.S200000 := by decide

/-- Along a node's row of the whole array: the index whose dropped feature coordinate is `k` is `(r, k)`. -/
theorem whole_lane_index (r : Fin 200000) (k : Fin 2) :
    whole_reduces.lift (ix1 r) k = (ix2 r k : Cert.ReferenceIdeal.S200000x2.Idx) := by
  funext c; apply Fin.ext
  match c with
  | ⟨0, _⟩ => rfl
  | ⟨1, _⟩ => rfl

/-- A column spread along the features reads the node's number at either feature. -/
theorem whole_column_spread {α : Type} (x : Cert.ReferenceIdeal.S200000x1.Idx → α) (r : Fin 200000) (q : Fin 2) :
    broadcastInDim Cert.ReferenceIdeal.S200000x2 ![0, 1] Cert.ReferenceIdeal.Gen.bcast_S200000x1_S200000x2_0_1 x (ix2 r q) = x (ix2 r (0 : Fin 1)) :=
  broadcastInDim_apply _ _ x (ix2 r q) (ix2 r (0 : Fin 1)) (fun a => match a with
    | ⟨0, _⟩ => by show r.val = if (200000 : Nat) = 1 then 0 else r.val; rw [if_neg (by decide)]
    | ⟨1, _⟩ => by show 0 = if (1 : Nat) = 1 then 0 else q.val; rw [if_pos rfl])

/-- One number per node, held as a column, reads the node's number. -/
theorem whole_column_of_vector {α : Type} (x : Cert.ReferenceIdeal.S200000.Idx → α) (r : Fin 200000) :
    broadcastInDim Cert.ReferenceIdeal.S200000x1 ![0] Cert.ReferenceIdeal.Gen.bcast_S200000_S200000x1_0 x (ix2 r (0 : Fin 1)) = x (ix1 r) :=
  broadcastInDim_apply _ _ x (ix2 r (0 : Fin 1)) (ix1 r) (fun a => match a with
    | ⟨0, _⟩ => by show r.val = if (200000 : Nat) = 1 then 0 else r.val; rw [if_neg (by decide)])

/-- A row spread along the nodes reads the feature's number at every node. -/
theorem whole_row_spread {α : Type} (x : Cert.ReferenceIdeal.S1x2.Idx → α) (r : Fin 200000) (q : Fin 2) :
    broadcastInDim Cert.ReferenceIdeal.S200000x2 ![0, 1] Cert.ReferenceIdeal.Gen.bcast_S1x2_S200000x2_0_1 x (ix2 r q) = x (ix2 (0 : Fin 1) q) :=
  broadcastInDim_apply _ _ x (ix2 r q) (ix2 (0 : Fin 1) q) (fun a => match a with
    | ⟨0, _⟩ => by show 0 = if (1 : Nat) = 1 then 0 else r.val; rw [if_pos rfl]
    | ⟨1, _⟩ => by show q.val = if (2 : Nat) = 1 then 0 else q.val; rw [if_neg (by decide)])

/-- One number per feature, held as a row, reads the feature's number. -/
theorem whole_row_of_vector {α : Type} (x : Cert.ReferenceIdeal.S2.Idx → α) (q : Fin 2) :
    broadcastInDim Cert.ReferenceIdeal.S1x2 ![1] Cert.ReferenceIdeal.Gen.bcast_S2_S1x2_1 x (ix2 (0 : Fin 1) q) = x (ix1 q) :=
  broadcastInDim_apply _ _ x (ix2 (0 : Fin 1) q) (ix1 q) (fun a => match a with
    | ⟨0, _⟩ => by show q.val = if (2 : Nat) = 1 then 0 else q.val; rw [if_neg (by decide)])

/-- One number spread over the nodes reads that number. -/
theorem whole_scalar_spread {α : Type} (x : Cert.ReferenceIdeal.S_.Idx → α) (r : Fin 200000) :
    broadcastInDim Cert.ReferenceIdeal.S200000 ![] Cert.ReferenceIdeal.Gen.bcast_S_S200000 x (ix1 r) = x ix0 :=
  broadcastInDim_apply _ _ x (ix1 r) ix0 (fun a => a.elim0)

section Whole
variable (agg h : (⟨Cert.ReferenceIdeal.S200000x2, .f32⟩ : BufTy).Contents (Elt Ideal))
  (sw : (⟨Cert.ReferenceIdeal.S200000, .f32⟩ : BufTy).Contents (Elt Ideal))
  (b : (⟨Cert.ReferenceIdeal.S2, .f32⟩ : BufTy).Contents (Elt Ideal))

/-- The row before the softmax at node `r`, feature `q` of the whole arrays. -/
def wholeSum (r : Fin 200000) (q : Fin 2) : EReal :=
  (agg (ix2 r q) : EReal) + (h (ix2 r q) : EReal) * (sw (ix1 r) : EReal) + (b (ix1 q) : EReal)

theorem summed2_apply (r : Fin 200000) (q : Fin 2) :
    Cert.Net.summed2 (F := Ideal) agg h sw b (ix2 r q) = wholeSum agg h sw b r q := by
  unfold Cert.Net.summed2 wholeSum
  show (agg (ix2 r q) : EReal) + (h (ix2 r q) : EReal) * broadcastInDim Cert.ReferenceIdeal.S200000x2 ![0, 1] Cert.ReferenceIdeal.Gen.bcast_S200000x1_S200000x2_0_1 (broadcastInDim Cert.ReferenceIdeal.S200000x1 ![0] Cert.ReferenceIdeal.Gen.bcast_S200000_S200000x1_0 sw) (ix2 r q)
      + broadcastInDim Cert.ReferenceIdeal.S200000x2 ![0, 1] Cert.ReferenceIdeal.Gen.bcast_S1x2_S200000x2_0_1 (broadcastInDim Cert.ReferenceIdeal.S1x2 ![1] Cert.ReferenceIdeal.Gen.bcast_S2_S1x2_1 b) (ix2 r q) = _
  rw [whole_column_spread, whole_column_of_vector, whole_row_spread, whole_row_of_vector]

end Whole

/-- Each row's maximum, held as a column and spread back along the features. -/
def wholeSpreadMax (y : FVec Ideal Cert.ReferenceIdeal.S200000x2 .f32) : FVec Ideal Cert.ReferenceIdeal.S200000x2 .f32 :=
  broadcastInDim Cert.ReferenceIdeal.S200000x2 ![0, 1] Cert.ReferenceIdeal.Gen.bcast_S200000x1_S200000x2_0_1 (broadcastInDim Cert.ReferenceIdeal.S200000x1 ![0] Cert.ReferenceIdeal.Gen.bcast_S200000_S200000x1_0
    (maximumf (broadcastInDim Cert.ReferenceIdeal.S200000 ![] Cert.ReferenceIdeal.Gen.bcast_S_S200000 (constant (F := Ideal) Cert.ReferenceIdeal.S_ .f32 0xFF800000#32))
      (Host.reduce FloatOps.maximumf y (constant (F := Ideal) Cert.ReferenceIdeal.S_ .f32 0xFF800000#32) Cert.ReferenceIdeal.Gen.reducesTo_S200000x2_S200000_d1 Cert.ReferenceIdeal.Gen.h_S_)))

theorem wholeSpreadMax_apply (y : FVec Ideal Cert.ReferenceIdeal.S200000x2 .f32) (r : Fin 200000) (q : Fin 2) :
    wholeSpreadMax y (ix2 r q) = rowMax fun k => y (ix2 r k) := by
  unfold wholeSpreadMax
  rw [whole_column_spread, whole_column_of_vector]
  show max (broadcastInDim Cert.ReferenceIdeal.S200000 ![] Cert.ReferenceIdeal.Gen.bcast_S_S200000 (constant (F := Ideal) Cert.ReferenceIdeal.S_ .f32 0xFF800000#32) (ix1 r))
      (Host.reduce FloatOps.maximumf y (constant (F := Ideal) Cert.ReferenceIdeal.S_ .f32 0xFF800000#32) Cert.ReferenceIdeal.Gen.reducesTo_S200000x2_S200000_d1 Cert.ReferenceIdeal.Gen.h_S_ (ix1 r)) = _
  rw [whole_scalar_spread]
  refine (congrArg (max ((constant (F := Ideal) Cert.ReferenceIdeal.S_ .f32 0xFF800000#32) ix0))
    (Host.reduce_eq_fold_single (FloatOps.maximumf (F := Ideal) (φ := .f32)) y (constant (F := Ideal) Cert.ReferenceIdeal.S_ .f32 0xFF800000#32) Cert.ReferenceIdeal.Gen.reducesTo_S200000x2_S200000_d1 whole_reduces Cert.ReferenceIdeal.Gen.h_S_ (ix1 r))).trans ?_
  show max (Ideal.ofBits .f32 0xFF800000#32)
      ((Finset.univ : Finset (Fin 2)).fold max (Ideal.ofBits .f32 0xFF800000#32) (fun k => y (whole_reduces.lift (ix1 r) k))) = _
  rw [max_neg_inf]
  unfold rowMax
  exact congrArg (fun f : Fin 2 → EReal => (Finset.univ : Finset (Fin 2)).fold max (Ideal.ofBits .f32 0xFF800000#32) f)
    (funext fun k => congrArg y (whole_lane_index r k))

/-- The logarithm of each row's sum, held as a column and spread back along the features. -/
def wholeSpreadLogSum (y : FVec Ideal Cert.ReferenceIdeal.S200000x2 .f32) : FVec Ideal Cert.ReferenceIdeal.S200000x2 .f32 :=
  broadcastInDim Cert.ReferenceIdeal.S200000x2 ![0, 1] Cert.ReferenceIdeal.Gen.bcast_S200000x1_S200000x2_0_1 (Host.log (broadcastInDim Cert.ReferenceIdeal.S200000x1 ![0] Cert.ReferenceIdeal.Gen.bcast_S200000_S200000x1_0
    (Host.reduceAdd y (constant (F := Ideal) Cert.ReferenceIdeal.S_ .f32 0x00000000#32) Cert.ReferenceIdeal.Gen.reducesTo_S200000x2_S200000_d1 Cert.ReferenceIdeal.Gen.h_S_)))

/-- The host's logarithm and exponential act entry by entry. -/
theorem host_log_apply {s : Shape} (x : FVec Ideal s .f32) (i : s.Idx) : Host.log x i = Ideal.log (x i) := rfl
theorem host_exp_apply {s : Shape} (x : FVec Ideal s .f32) (i : s.Idx) : Host.exp x i = Ideal.exp (x i) := rfl

/-- The host's sum along the features, started from zero. -/
theorem host_sum_eq (y : FVec Ideal Cert.ReferenceIdeal.S200000x2 .f32) :
    Host.reduceAdd y (constant (F := Ideal) Cert.ReferenceIdeal.S_ .f32 0x00000000#32) Cert.ReferenceIdeal.Gen.reducesTo_S200000x2_S200000_d1 Cert.ReferenceIdeal.Gen.h_S_
      = Ideal.hostReduceAdd Cert.ReferenceIdeal.Gen.reducesTo_S200000x2_S200000_d1 y (Ideal.ofBits .f32 0x00000000#32) := rfl

theorem wholeSpreadLogSum_apply (y : FVec Ideal Cert.ReferenceIdeal.S200000x2 .f32) (r : Fin 200000) (q : Fin 2) :
    wholeSpreadLogSum y (ix2 r q) = Ideal.log (∑ k : Fin 2, y (ix2 r k)) := by
  unfold wholeSpreadLogSum
  rw [whole_column_spread, host_log_apply, whole_column_of_vector, host_sum_eq,
    Ideal.hostReduceAdd_single Cert.ReferenceIdeal.Gen.reducesTo_S200000x2_S200000_d1 whole_reduces y _ (ix1 r), Ideal.ofBits_zero_f32, zero_add]
  exact congrArg Ideal.log (Finset.sum_congr rfl fun k _ => congrArg y (whole_lane_index r k))

/-- The whole arrays' rows minus their maxima, minus the logarithms of the sums of the exponentials of those
    differences. -/
theorem logSoftmaxRows_eq (y : FVec Ideal Cert.ReferenceIdeal.S200000x2 .f32) :
    Cert.Net.logSoftmaxRows (F := Ideal) y
      = subf (subf y (wholeSpreadMax y)) (wholeSpreadLogSum (Host.exp (subf y (wholeSpreadMax y)))) := rfl

/-- An entry of it is the logarithm of the softmax of the node's row. -/
theorem logSoftmaxRows_apply (y : FVec Ideal Cert.ReferenceIdeal.S200000x2 .f32) (r : Fin 200000) (q : Fin 2) :
    Cert.Net.logSoftmaxRows (F := Ideal) y (ix2 r q) = rowLogSoftmax (y (ix2 r q)) (fun k => y (ix2 r k)) := by
  rw [logSoftmaxRows_eq]
  show (y (ix2 r q) - wholeSpreadMax y (ix2 r q))
      - wholeSpreadLogSum (Host.exp (subf y (wholeSpreadMax y))) (ix2 r q) = _
  rw [wholeSpreadLogSum_apply, wholeSpreadMax_apply]
  unfold rowLogSoftmax
  refine congrArg (fun x => y (ix2 r q) - rowMax (fun k => y (ix2 r k)) - Ideal.log x) ?_
  refine Finset.sum_congr rfl fun k _ => ?_
  show Ideal.exp (y (ix2 r k) - wholeSpreadMax y (ix2 r k)) = _
  rw [wholeSpreadMax_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the five windows' blocks sit at grid point `t`: the three node-indexed inputs move together with the
    output along the nodes, the bias row stays, and no window moves along the features. -/
theorem block_places : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = win5_4.index t (0 : Fin 2)
    ∧ win5_2.index t (1 : Fin 2) = 0
    ∧ win5_3.index t (0 : Fin 2) = 0
    ∧ win5_3.index t (1 : Fin 2) = 0
    ∧ win5_4.index t (1 : Fin 2) = 0
    ∧ win5_4.index t (0 : Fin 2) ≤ 99 :=
  (by decide +kernel : ∀ t : Fin grid5.N, _)

/-- Every one of the 100 node blocks is some grid point's. -/
theorem block_onto : ∀ q : Fin 100, ∃ t : Fin cfg5.N, win5_4.index t = ![q.val, 0] :=
  (by decide +kernel : ∀ q : Fin 100, ∃ t : Fin grid5.N, win5_4.index t = ![q.val, 0])

/-- What grid point `t` writes back is block `t` of the row-wise logarithm of the softmax of the whole arrays'
    rows, when the four arrays the region finds are the aggregate, the transformed features, the self-loop weights
    as a column and the bias as a row. -/
theorem flushed_eq (c : Dev nD)
    (agg h : (⟨Cert.ReferenceIdeal.S200000x2, .f32⟩ : BufTy).Contents (Elt Ideal))
    (sw : (⟨Cert.ReferenceIdeal.S200000, .f32⟩ : BufTy).Contents (Elt Ideal))
    (b : (⟨Cert.ReferenceIdeal.S2, .f32⟩ : BufTy).Contents (Elt Ideal))
    (hagg : (V c main_v76 : (⟨S200000x2, .f32⟩ : BufTy).Contents (Elt Ideal)) = agg)
    (hh : (V c main_v63 : (⟨S200000x2, .f32⟩ : BufTy).Contents (Elt Ideal)) = h)
    (hsw : (V c main_v30 : (⟨S200000x1, .f32⟩ : BufTy).Contents (Elt Ideal)) = shapeCast S200000x1 sw shapeCasts_S200000_S200000x1)
    (hb : (V c main_v77 : (⟨S1x2, .f32⟩ : BufTy).Contents (Elt Ideal)) = shapeCast S1x2 b shapeCasts_S2_S1x2) (t : Fin cfg5.N) :
    (dat5 V c).flushed 4 t = ((cfg5.win 4).blk t).view.read (Elt Ideal)
      (Cert.Net.logSoftmaxRows (F := Ideal) (Cert.Net.summed2 (F := Ideal) agg h sw b)) := by
  show (cfg5.win 4).cut (grid5.coords t) ((dat5 V c).after 4 t) = _
  rw [after5_4]
  unfold out5_4
  rw [View.canon_unit_zero zero_offsets]
  simp only [View.ld_unit_zero (S := S2000x2) zero_offsets, View.ld_unit_zero (S := S2000x1) zero_offsets,
    View.ld_unit_zero (S := S1x2) zero_offsets]
  obtain ⟨e0, e1, e2, e3, e4, e5, e6, e7, e8, e9⟩ := block_places t
  refine funext fun (j : S2000x2.Idx) => ?_
  obtain ⟨p, q, rfl⟩ : ∃ (p : Fin 2000) (q : Fin 2), j = ix2 p q := ⟨j 0, j 1, eq_ix2 j⟩
  show k5_pay1 (F := Ideal) (iblk5 V c 0 t) (iblk5 V c 1 t) (iblk5 V c 2 t) (iblk5 V c 3 t) (ix2 p q)
    = Cert.Net.logSoftmaxRows (F := Ideal) (Cert.Net.summed2 (F := Ideal) agg h sw b) (((cfg5.win 4).blk t).view.emb (ix2 p q))
  refine (block_rows (iblk5 V c 0 t) (iblk5 V c 1 t) (iblk5 V c 2 t) (iblk5 V c 3 t) p q).trans ?_
  -- the node of the whole arrays under node `p` of this block
  have hp : p.val < 2000 := p.isLt
  have hr : win5_4.index t (0 : Fin 2) * 2000 + p.val < 200000 := by omega
  have hout : ∀ k : Fin 2, ((cfg5.win 4).blk t).view.emb (ix2 p k)
      = (ix2 (⟨win5_4.index t (0 : Fin 2) * 2000 + p.val, hr⟩ : Fin 200000) k : S200000x2.Idx) := fun k => by
    funext a; apply Fin.ext
    match a with
    | ⟨0, _⟩ => show win5_4.index t (0 : Fin 2) * 2000 + 1 * p.val = win5_4.index t (0 : Fin 2) * 2000 + p.val; omega
    | ⟨1, _⟩ => show win5_4.index t (1 : Fin 2) * 2 + 1 * k.val = k.val; omega
  have h0 : ∀ k : Fin 2, ((cfg5.win 0).blk t).view.emb (ix2 p k)
      = (ix2 (⟨win5_4.index t (0 : Fin 2) * 2000 + p.val, hr⟩ : Fin 200000) k : S200000x2.Idx) := fun k => by
    funext a; apply Fin.ext
    match a with
    | ⟨0, _⟩ => show win5_0.index t (0 : Fin 2) * 2000 + 1 * p.val = win5_4.index t (0 : Fin 2) * 2000 + p.val; omega
    | ⟨1, _⟩ => show win5_0.index t (1 : Fin 2) * 2 + 1 * k.val = k.val; omega
  have h1 : ∀ k : Fin 2, ((cfg5.win 1).blk t).view.emb (ix2 p k)
      = (ix2 (⟨win5_4.index t (0 : Fin 2) * 2000 + p.val, hr⟩ : Fin 200000) k : S200000x2.Idx) := fun k => by
    funext a; apply Fin.ext
    match a with
    | ⟨0, _⟩ => show win5_1.index t (0 : Fin 2) * 2000 + 1 * p.val = win5_4.index t (0 : Fin 2) * 2000 + p.val; omega
    | ⟨1, _⟩ => show win5_1.index t (1 : Fin 2) * 2 + 1 * k.val = k.val; omega
  have h2 : ((cfg5.win 2).blk t).view.emb (ix2 p (0 : Fin 1))
      = (ix2 (⟨win5_4.index t (0 : Fin 2) * 2000 + p.val, hr⟩ : Fin 200000) (0 : Fin 1) : S200000x1.Idx) := by
    funext a; apply Fin.ext
    match a with
    | ⟨0, _⟩ => show win5_2.index t (0 : Fin 2) * 2000 + 1 * p.val = win5_4.index t (0 : Fin 2) * 2000 + p.val; omega
    | ⟨1, _⟩ => show win5_2.index t (1 : Fin 2) * 1 + 1 * 0 = 0; omega
  have h3 : ∀ k : Fin 2, ((cfg5.win 3).blk t).view.emb (ix2 (0 : Fin 1) k) = (ix2 (0 : Fin 1) k : S1x2.Idx) := fun k => by
    funext a; apply Fin.ext
    match a with
    | ⟨0, _⟩ => show win5_3.index t (0 : Fin 2) * 1 + 1 * 0 = 0; omega
    | ⟨1, _⟩ => show win5_3.index t (1 : Fin 2) * 2 + 1 * k.val = k.val; omega
  -- every entry of the block's row is the whole arrays' entry under it
  have hentry : ∀ k : Fin 2, blockSum (iblk5 V c 0 t) (iblk5 V c 1 t) (iblk5 V c 2 t) (iblk5 V c 3 t) p k
      = wholeSum agg h sw b (⟨win5_4.index t (0 : Fin 2) * 2000 + p.val, hr⟩ : Fin 200000) k := fun k => by
    have a0 : (iblk5 V c 0 t (ix2 p k) : EReal) = agg (ix2 (⟨win5_4.index t (0 : Fin 2) * 2000 + p.val, hr⟩ : Fin 200000) k) := by
      show V c main_v76 (((cfg5.win 0).blk t).view.emb (ix2 p k)) = _
      rw [h0 k]; exact congrFun hagg _
    have a1 : (iblk5 V c 1 t (ix2 p k) : EReal) = h (ix2 (⟨win5_4.index t (0 : Fin 2) * 2000 + p.val, hr⟩ : Fin 200000) k) := by
      show V c main_v63 (((cfg5.win 1).blk t).view.emb (ix2 p k)) = _
      rw [h1 k]; exact congrFun hh _
    have a2 : (iblk5 V c 2 t (ix2 p (0 : Fin 1)) : EReal) = sw (ix1 (⟨win5_4.index t (0 : Fin 2) * 2000 + p.val, hr⟩ : Fin 200000)) := by
      show V c main_v30 (((cfg5.win 2).blk t).view.emb (ix2 p (0 : Fin 1))) = _
      rw [h2]
      exact (congrFun hsw _).trans (shapeCast_apply sw shapeCasts_S200000_S200000x1 _ (ix1 (⟨win5_4.index t (0 : Fin 2) * 2000 + p.val, hr⟩ : Fin 200000)) (by
        rw [Shape.rowMajor_val_one, Shape.rowMajor_val_two]
        show win5_4.index t (0 : Fin 2) * 2000 + p.val = (win5_4.index t (0 : Fin 2) * 2000 + p.val) * 1 + 0
        omega))
    have a3 : (iblk5 V c 3 t (ix2 (0 : Fin 1) k) : EReal) = b (ix1 k) := by
      show V c main_v77 (((cfg5.win 3).blk t).view.emb (ix2 (0 : Fin 1) k)) = _
      rw [h3 k]
      exact (congrFun hb _).trans (shapeCast_apply b shapeCasts_S2_S1x2 _ (ix1 k) (by
        rw [Shape.rowMajor_val_one, Shape.rowMajor_val_two]
        show k.val = 0 * 2 + k.val
        omega))
    unfold blockSum wholeSum
    rw [a0, a1, a2, a3]
  have hw : ∀ k : Fin 2, blockSum (iblk5 V c 0 t) (iblk5 V c 1 t) (iblk5 V c 2 t) (iblk5 V c 3 t) p k
      = Cert.Net.summed2 (F := Ideal) agg h sw b (ix2 (⟨win5_4.index t (0 : Fin 2) * 2000 + p.val, hr⟩ : Fin 200000) k) :=
    fun k => (hentry k).trans (summed2_apply agg h sw b _ k).symm
  refine Eq.trans ?_ (congrArg (Cert.Net.logSoftmaxRows (F := Ideal) (Cert.Net.summed2 (F := Ideal) agg h sw b)) (hout q)).symm
  refine Eq.trans ?_ (logSoftmaxRows_apply (Cert.Net.summed2 (F := Ideal) agg h sw b) _ q).symm
  exact congrArg₂ rowLogSoftmax (hw q) (funext hw)

/-- An index of the result array is in point `t`'s block iff each coordinate is in the block's range. -/
theorem mem_blk (t : Fin cfg5.N) (i : S200000x2.Idx) :
    i ∈ ((cfg5.win 4).blk t).view.set ↔ ∀ a : Fin 2, win5_4.index t a * S2000x2.size a ≤ (i a).val ∧ (i a).val < win5_4.index t a * S2000x2.size a + S2000x2.size a := by
  show i ∈ ((View.whole main_v78).slice (win5_4.rect t)).set ↔ _
  rw [View.set_slice_whole, Rect.mem_set_unit]
  exact Iff.rfl

/-- Node `r` lies in block `r / 2000`. -/
theorem cover (i : S200000x2.Idx) : ∃ t : Fin cfg5.N, (cfg5.win 4).flush t = true ∧ i ∈ ((cfg5.win 4).blk t).view.set := by
  have hi0 : (i 0).val < 200000 := (i 0).isLt
  have hi1 : (i 1).val < 2 := (i 1).isLt
  obtain ⟨t, ht⟩ := block_onto ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 2 ≤ (i 1).val ∧ (i 1).val < win5_4.index t (1 : Fin 2) * 2 + 2; omega

/-- The array the tiled computation leaves is the row-wise logarithm of the softmax of the whole arrays' rows. -/
theorem array_eq (c : Dev nD)
    (agg h : (⟨Cert.ReferenceIdeal.S200000x2, .f32⟩ : BufTy).Contents (Elt Ideal))
    (sw : (⟨Cert.ReferenceIdeal.S200000, .f32⟩ : BufTy).Contents (Elt Ideal))
    (b : (⟨Cert.ReferenceIdeal.S2, .f32⟩ : BufTy).Contents (Elt Ideal))
    (hagg : (V c main_v76 : (⟨S200000x2, .f32⟩ : BufTy).Contents (Elt Ideal)) = agg)
    (hh : (V c main_v63 : (⟨S200000x2, .f32⟩ : BufTy).Contents (Elt Ideal)) = h)
    (hsw : (V c main_v30 : (⟨S200000x1, .f32⟩ : BufTy).Contents (Elt Ideal)) = shapeCast S200000x1 sw shapeCasts_S200000_S200000x1)
    (hb : (V c main_v77 : (⟨S1x2, .f32⟩ : BufTy).Contents (Elt Ideal)) = shapeCast S1x2 b shapeCasts_S2_S1x2) :
    (dat5 V c).arrAt 4 cfg5.N = Cert.Net.logSoftmaxRows (F := Ideal) (Cert.Net.summed2 (F := Ideal) agg h sw b) :=
  (dat5 V c).arrAt_eq_of_cover 4 _ (fun t _ => flushed_eq V c agg h sw b hagg hh hsw hb t) cover

end Cert.KernelIdeal.Rows3

end
-- ==== Proof.KernelValue.lean ====
/-
  What the idealized kernel computes, boundary by boundary.

  Its run is host stretches and tiled computations in turn. The first host stretches leave, as functions of the edge
  list alone, the sources, the targets, every edge's weight and every node's self-loop weight (the last also reshaped
  to a column). Then, three times: a tiled dense product leaves the layer's transformed features; a host stretch sums
  the weighted messages by target and reshapes the bias to a row; a tiled combination leaves the layer's result. A
  buffer that a stretch neither writes nor flushes keeps its contents across it, so each stage finds the earlier
  stages' results where they were left. The last boundary's result array is therefore the three layers composed.
-/
import proofs.«105930_j51058571215473_2_alg».proof.Proof.Gen.KernelIdeal.Frame
import proofs.«105930_j51058571215473_2_alg».proof.Proof.NetSpec
import proofs.«105930_j51058571215473_2_alg».proof.Proof.Dense1
import proofs.«105930_j51058571215473_2_alg».proof.Proof.Dense2
import proofs.«105930_j51058571215473_2_alg».proof.Proof.Dense3
import proofs.«105930_j51058571215473_2_alg».proof.Proof.Mix1
import proofs.«105930_j51058571215473_2_alg».proof.Proof.Mix2
import proofs.«105930_j51058571215473_2_alg».proof.Proof.Rows3
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## After the graph's stretches -/

theorem graph_arg0 : W3 m ρ c (Proc.devRef .tc main_arg0) = (m ((c : Thread nD τ).loc main_arg0)) := by
  dsimp only [W3, W2, W1, hostOps0, hostOps0_1, hostOps0_2]; after_results_simp <;> (try simp only [TRef.toBuf, TRef.ofBuf, cast_eq]) <;> rfl
theorem graph_arg2 : W3 m ρ c (Proc.devRef .tc main_arg2) = (m ((c : Thread nD τ).loc main_arg2)) := by
  dsimp only [W3, W2, W1, hostOps0, hostOps0_1, hostOps0_2]; after_results_simp <;> (try simp only [TRef.toBuf, TRef.ofBuf, cast_eq]) <;> rfl
theorem graph_arg3 : W3 m ρ c (Proc.devRef .tc main_arg3) = (m ((c : Thread nD τ).loc main_arg3)) := by
  dsimp only [W3, W2, W1, hostOps0, hostOps0_1, hostOps0_2]; after_results_simp <;> (try simp only [TRef.toBuf, TRef.ofBuf, cast_eq]) <;> rfl
theorem graph_arg4 : W3 m ρ c (Proc.devRef .tc main_arg4) = (m ((c : Thread nD τ).loc main_arg4)) := by
  dsimp only [W3, W2, W1, hostOps0, hostOps0_1, hostOps0_2]; after_results_simp <;> (try simp only [TRef.toBuf, TRef.ofBuf, cast_eq]) <;> rfl
theorem graph_arg5 : W3 m ρ c (Proc.devRef .tc main_arg5) = (m ((c : Thread nD τ).loc main_arg5)) := by
  dsimp only [W3, W2, W1, hostOps0, hostOps0_1, hostOps0_2]; after_results_simp <;> (try simp only [TRef.toBuf, TRef.ofBuf, cast_eq]) <;> rfl
theorem graph_arg6 : W3 m ρ c (Proc.devRef .tc main_arg6) = (m ((c : Thread nD τ).loc main_arg6)) := by
  dsimp only [W3, W2, W1, hostOps0, hostOps0_1, hostOps0_2]; after_results_simp <;> (try simp only [TRef.toBuf, TRef.ofBuf, cast_eq]) <;> rfl
theorem graph_arg7 : W3 m ρ c (Proc.devRef .tc main_arg7) = (m ((c : Thread nD τ).loc main_arg7)) := by
  dsimp only [W3, W2, W1, hostOps0, hostOps0_1, hostOps0_2]; after_results_simp <;> (try simp only [TRef.toBuf, TRef.ofBuf, cast_eq]) <;> rfl
theorem graph_sources : W3 m ρ c (Proc.devRef .tc main_v1) = (Cert.Net.sources (F := Ideal) (m ((c : Thread nD τ).loc main_arg1))) := by
  dsimp only [W3, W2, W1, hostOps0, hostOps0_1, hostOps0_2]; after_results_simp <;> (try simp only [TRef.toBuf, TRef.ofBuf, cast_eq]) <;> rfl
theorem graph_targets : W3 m ρ c (Proc.devRef .tc main_v3) = (Cert.Net.targets (F := Ideal) (m ((c : Thread nD τ).loc main_arg1))) := by
  dsimp only [W3, W2, W1, hostOps0, hostOps0_1, hostOps0_2]; after_results_simp <;> (try simp only [TRef.toBuf, TRef.ofBuf, cast_eq]) <;> rfl
/-- The three operations of the inlined selection, over any contents: where the first array is set the second,
    elsewhere the spread of the given number. -/
theorem where_value (V : Valuation τ sig (Elt Ideal)) :
    after hostOps0_1 V (Proc.devRef .tc main_v13)
      = select (V (Proc.devRef .tc main_v11)) (V (Proc.devRef .tc main_v12))
          (broadcastInDim S200000 ![] bcast_S_S200000 (id (V (Proc.devRef .tc main_cst_3)))) := by
  after_results_simp <;> rfl

/-- `deg^(-1/2)` per node, after the selection. -/
theorem graph_invSqrtDeg : W2 m ρ c (Proc.devRef .tc main_v13) = Cert.Net.invSqrtDeg (F := Ideal) (Cert.Net.targets (F := Ideal) (m ((c : Thread nD τ).loc main_arg1))) := by
  show after hostOps0_1 (W1 m ρ c) (Proc.devRef .tc main_v13) = _
  rw [where_value]
  dsimp only [W1, hostOps0]; after_results_simp <;> rfl
theorem graph_sources2 : W2 m ρ c (Proc.devRef .tc main_v1) = (Cert.Net.sources (F := Ideal) (m ((c : Thread nD τ).loc main_arg1))) := by
  dsimp only [W2, W1, hostOps0, hostOps0_1]; after_results_simp <;> rfl
theorem graph_targets2 : W2 m ρ c (Proc.devRef .tc main_v3) = (Cert.Net.targets (F := Ideal) (m ((c : Thread nD τ).loc main_arg1))) := by
  dsimp only [W2, W1, hostOps0, hostOps0_1]; after_results_simp <;> rfl

theorem graph_edgeWeight : W3 m ρ c (Proc.devRef .tc main_v28) = (Cert.Net.edgeWeight (F := Ideal) (Cert.Net.sources (F := Ideal) (m ((c : Thread nD τ).loc main_arg1))) (Cert.Net.targets (F := Ideal) (m ((c : Thread nD τ).loc main_arg1)))) := by
  have hd := graph_invSqrtDeg m ρ c
  have hs := graph_sources2 m ρ c
  have ht := graph_targets2 m ρ c
  show after hostOps0_2 (W2 m ρ c) (Proc.devRef .tc main_v28) = _
  revert hd hs ht
  generalize W2 m ρ c = U
  intro hd hs ht
  after_results_simp
  rw [hd, hs, ht]
  rfl
theorem graph_selfColumn : W3 m ρ c (Proc.devRef .tc main_v30) = shapeCast S200000x1 (Cert.Net.selfWeight (F := Ideal) (Cert.Net.targets (F := Ideal) (m ((c : Thread nD τ).loc main_arg1)))) shapeCasts_S200000_S200000x1 := by
  have hd := graph_invSqrtDeg m ρ c
  show after hostOps0_2 (W2 m ρ c) (Proc.devRef .tc main_v30) = _
  revert hd
  generalize W2 m ρ c = U
  intro hd
  after_results_simp
  rw [hd]
  rfl

/-! ## What each stretch leaves alone -/

theorem carry4_main_v1 : W4 m ρ c (Proc.devRef .tc main_v1) = W3 m ρ c (Proc.devRef .tc main_v1) :=
  W4_of_ne m ρ c main_v1 (by decide)
theorem carry5_main_v1 : W5 m ρ c (Proc.devRef .tc main_v1) = W4 m ρ c (Proc.devRef .tc main_v1) := by
  show StableHlo.after hostOps1 (W4 m ρ c) (Proc.devRef .tc main_v1) = _
  after_results_simp
theorem carry6_main_v1 : W6 m ρ c (Proc.devRef .tc main_v1) = W5 m ρ c (Proc.devRef .tc main_v1) :=
  W6_of_ne m ρ c main_v1 (by decide)
theorem carry7_main_v1 : W7 m ρ c (Proc.devRef .tc main_v1) = W6 m ρ c (Proc.devRef .tc main_v1) :=
  W7_of_ne m ρ c main_v1 (by decide)
theorem carry8_main_v1 : W8 m ρ c (Proc.devRef .tc main_v1) = W7 m ρ c (Proc.devRef .tc main_v1) := by
  show StableHlo.after hostOps3 (W7 m ρ c) (Proc.devRef .tc main_v1) = _
  after_results_simp
theorem carry9_main_v1 : W9 m ρ c (Proc.devRef .tc main_v1) = W8 m ρ c (Proc.devRef .tc main_v1) :=
  W9_of_ne m ρ c main_v1 (by decide)
theorem carry10_main_v1 : W10 m ρ c (Proc.devRef .tc main_v1) = W9 m ρ c (Proc.devRef .tc main_v1) :=
  W10_of_ne m ρ c main_v1 (by decide)
theorem carry4_main_v3 : W4 m ρ c (Proc.devRef .tc main_v3) = W3 m ρ c (Proc.devRef .tc main_v3) :=
  W4_of_ne m ρ c main_v3 (by decide)
theorem carry5_main_v3 : W5 m ρ c (Proc.devRef .tc main_v3) = W4 m ρ c (Proc.devRef .tc main_v3) := by
  show StableHlo.after hostOps1 (W4 m ρ c) (Proc.devRef .tc main_v3) = _
  after_results_simp
theorem carry6_main_v3 : W6 m ρ c (Proc.devRef .tc main_v3) = W5 m ρ c (Proc.devRef .tc main_v3) :=
  W6_of_ne m ρ c main_v3 (by decide)
theorem carry7_main_v3 : W7 m ρ c (Proc.devRef .tc main_v3) = W6 m ρ c (Proc.devRef .tc main_v3) :=
  W7_of_ne m ρ c main_v3 (by decide)
theorem carry8_main_v3 : W8 m ρ c (Proc.devRef .tc main_v3) = W7 m ρ c (Proc.devRef .tc main_v3) := by
  show StableHlo.after hostOps3 (W7 m ρ c) (Proc.devRef .tc main_v3) = _
  after_results_simp
theorem carry9_main_v3 : W9 m ρ c (Proc.devRef .tc main_v3) = W8 m ρ c (Proc.devRef .tc main_v3) :=
  W9_of_ne m ρ c main_v3 (by decide)
theorem carry10_main_v3 : W10 m ρ c (Proc.devRef .tc main_v3) = W9 m ρ c (Proc.devRef .tc main_v3) :=
  W10_of_ne m ρ c main_v3 (by decide)
theorem carry4_main_v28 : W4 m ρ c (Proc.devRef .tc main_v28) = W3 m ρ c (Proc.devRef .tc main_v28) :=
  W4_of_ne m ρ c main_v28 (by decide)
theorem carry5_main_v28 : W5 m ρ c (Proc.devRef .tc main_v28) = W4 m ρ c (Proc.devRef .tc main_v28) := by
  show StableHlo.after hostOps1 (W4 m ρ c) (Proc.devRef .tc main_v28) = _
  after_results_simp
theorem carry6_main_v28 : W6 m ρ c (Proc.devRef .tc main_v28) = W5 m ρ c (Proc.devRef .tc main_v28) :=
  W6_of_ne m ρ c main_v28 (by decide)
theorem carry7_main_v28 : W7 m ρ c (Proc.devRef .tc main_v28) = W6 m ρ c (Proc.devRef .tc main_v28) :=
  W7_of_ne m ρ c main_v28 (by decide)
theorem carry8_main_v28 : W8 m ρ c (Proc.devRef .tc main_v28) = W7 m ρ c (Proc.devRef .tc main_v28) := by
  show StableHlo.after hostOps3 (W7 m ρ c) (Proc.devRef .tc main_v28) = _
  after_results_simp
theorem carry9_main_v28 : W9 m ρ c (Proc.devRef .tc main_v28) = W8 m ρ c (Proc.devRef .tc main_v28) :=
  W9_of_ne m ρ c main_v28 (by decide)
theorem carry10_main_v28 : W10 m ρ c (Proc.devRef .tc main_v28) = W9 m ρ c (Proc.devRef .tc main_v28) :=
  W10_of_ne m ρ c main_v28 (by decide)
theorem carry4_main_v30 : W4 m ρ c (Proc.devRef .tc main_v30) = W3 m ρ c (Proc.devRef .tc main_v30) :=
  W4_of_ne m ρ c main_v30 (by decide)
theorem carry5_main_v30 : W5 m ρ c (Proc.devRef .tc main_v30) = W4 m ρ c (Proc.devRef .tc main_v30) := by
  show StableHlo.after hostOps1 (W4 m ρ c) (Proc.devRef .tc main_v30) = _
  after_results_simp
theorem carry6_main_v30 : W6 m ρ c (Proc.devRef .tc main_v30) = W5 m ρ c (Proc.devRef .tc main_v30) :=
  (W6_arr m ρ c 2).trans (((dat1 (V5 m ρ) c).arrAt_in 2 rfl _).trans (A_eq1 (V5 m ρ) c 2))
theorem carry7_main_v30 : W7 m ρ c (Proc.devRef .tc main_v30) = W6 m ρ c (Proc.devRef .tc main_v30) :=
  W7_of_ne m ρ c main_v30 (by decide)
theorem carry8_main_v30 : W8 m ρ c (Proc.devRef .tc main_v30) = W7 m ρ c (Proc.devRef .tc main_v30) := by
  show StableHlo.after hostOps3 (W7 m ρ c) (Proc.devRef .tc main_v30) = _
  after_results_simp
theorem carry9_main_v30 : W9 m ρ c (Proc.devRef .tc main_v30) = W8 m ρ c (Proc.devRef .tc main_v30) :=
  (W9_arr m ρ c 2).trans (((dat3 (V8 m ρ) c).arrAt_in 2 rfl _).trans (A_eq3 (V8 m ρ) c 2))
theorem carry10_main_v30 : W10 m ρ c (Proc.devRef .tc main_v30) = W9 m ρ c (Proc.devRef .tc main_v30) :=
  W10_of_ne m ρ c main_v30 (by decide)
theorem carry11_main_v30 : W11 m ρ c (Proc.devRef .tc main_v30) = W10 m ρ c (Proc.devRef .tc main_v30) := by
  show StableHlo.after hostOps5 (W10 m ρ c) (Proc.devRef .tc main_v30) = _
  after_results_simp
theorem carry4_main_arg3 : W4 m ρ c (Proc.devRef .tc main_arg3) = W3 m ρ c (Proc.devRef .tc main_arg3) :=
  W4_of_ne m ρ c main_arg3 (by decide)
theorem carry4_main_arg4 : W4 m ρ c (Proc.devRef .tc main_arg4) = W3 m ρ c (Proc.devRef .tc main_arg4) :=
  W4_of_ne m ρ c main_arg4 (by decide)
theorem carry5_main_arg4 : W5 m ρ c (Proc.devRef .tc main_arg4) = W4 m ρ c (Proc.devRef .tc main_arg4) := by
  show StableHlo.after hostOps1 (W4 m ρ c) (Proc.devRef .tc main_arg4) = _
  after_results_simp
theorem carry6_main_arg4 : W6 m ρ c (Proc.devRef .tc main_arg4) = W5 m ρ c (Proc.devRef .tc main_arg4) :=
  W6_of_ne m ρ c main_arg4 (by decide)
theorem carry4_main_arg5 : W4 m ρ c (Proc.devRef .tc main_arg5) = W3 m ρ c (Proc.devRef .tc main_arg5) :=
  W4_of_ne m ρ c main_arg5 (by decide)
theorem carry5_main_arg5 : W5 m ρ c (Proc.devRef .tc main_arg5) = W4 m ρ c (Proc.devRef .tc main_arg5) := by
  show StableHlo.after hostOps1 (W4 m ρ c) (Proc.devRef .tc main_arg5) = _
  after_results_simp
theorem carry6_main_arg5 : W6 m ρ c (Proc.devRef .tc main_arg5) = W5 m ρ c (Proc.devRef .tc main_arg5) :=
  W6_of_ne m ρ c main_arg5 (by decide)
theorem carry7_main_arg5 : W7 m ρ c (Proc.devRef .tc main_arg5) = W6 m ρ c (Proc.devRef .tc main_arg5) :=
  W7_of_ne m ρ c main_arg5 (by decide)
theorem carry4_main_arg6 : W4 m ρ c (Proc.devRef .tc main_arg6) = W3 m ρ c (Proc.devRef .tc main_arg6) :=
  W4_of_ne m ρ c main_arg6 (by decide)
theorem carry5_main_arg6 : W5 m ρ c (Proc.devRef .tc main_arg6) = W4 m ρ c (Proc.devRef .tc main_arg6) := by
  show StableHlo.after hostOps1 (W4 m ρ c) (Proc.devRef .tc main_arg6) = _
  after_results_simp
theorem carry6_main_arg6 : W6 m ρ c (Proc.devRef .tc main_arg6) = W5 m ρ c (Proc.devRef .tc main_arg6) :=
  W6_of_ne m ρ c main_arg6 (by decide)
theorem carry7_main_arg6 : W7 m ρ c (Proc.devRef .tc main_arg6) = W6 m ρ c (Proc.devRef .tc main_arg6) :=
  W7_of_ne m ρ c main_arg6 (by decide)
theorem carry8_main_arg6 : W8 m ρ c (Proc.devRef .tc main_arg6) = W7 m ρ c (Proc.devRef .tc main_arg6) := by
  show StableHlo.after hostOps3 (W7 m ρ c) (Proc.devRef .tc main_arg6) = _
  after_results_simp
theorem carry9_main_arg6 : W9 m ρ c (Proc.devRef .tc main_arg6) = W8 m ρ c (Proc.devRef .tc main_arg6) :=
  W9_of_ne m ρ c main_arg6 (by decide)
theorem carry4_main_arg7 : W4 m ρ c (Proc.devRef .tc main_arg7) = W3 m ρ c (Proc.devRef .tc main_arg7) :=
  W4_of_ne m ρ c main_arg7 (by decide)
theorem carry5_main_arg7 : W5 m ρ c (Proc.devRef .tc main_arg7) = W4 m ρ c (Proc.devRef .tc main_arg7) := by
  show StableHlo.after hostOps1 (W4 m ρ c) (Proc.devRef .tc main_arg7) = _
  after_results_simp
theorem carry6_main_arg7 : W6 m ρ c (Proc.devRef .tc main_arg7) = W5 m ρ c (Proc.devRef .tc main_arg7) :=
  W6_of_ne m ρ c main_arg7 (by decide)
theorem carry7_main_arg7 : W7 m ρ c (Proc.devRef .tc main_arg7) = W6 m ρ c (Proc.devRef .tc main_arg7) :=
  W7_of_ne m ρ c main_arg7 (by decide)
theorem carry8_main_arg7 : W8 m ρ c (Proc.devRef .tc main_arg7) = W7 m ρ c (Proc.devRef .tc main_arg7) := by
  show StableHlo.after hostOps3 (W7 m ρ c) (Proc.devRef .tc main_arg7) = _
  after_results_simp
theorem carry9_main_arg7 : W9 m ρ c (Proc.devRef .tc main_arg7) = W8 m ρ c (Proc.devRef .tc main_arg7) :=
  W9_of_ne m ρ c main_arg7 (by decide)
theorem carry10_main_arg7 : W10 m ρ c (Proc.devRef .tc main_arg7) = W9 m ρ c (Proc.devRef .tc main_arg7) :=
  W10_of_ne m ρ c main_arg7 (by decide)
theorem carry5_main_v31 : W5 m ρ c (Proc.devRef .tc main_v31) = W4 m ρ c (Proc.devRef .tc main_v31) := by
  show StableHlo.after hostOps1 (W4 m ρ c) (Proc.devRef .tc main_v31) = _
  after_results_simp
theorem carry8_main_v47 : W8 m ρ c (Proc.devRef .tc main_v47) = W7 m ρ c (Proc.devRef .tc main_v47) := by
  show StableHlo.after hostOps3 (W7 m ρ c) (Proc.devRef .tc main_v47) = _
  after_results_simp
theorem carry11_main_v63 : W11 m ρ c (Proc.devRef .tc main_v63) = W10 m ρ c (Proc.devRef .tc main_v63) := by
  show StableHlo.after hostOps5 (W10 m ρ c) (Proc.devRef .tc main_v63) = _
  after_results_simp

/-! ## Layer 1 -/

theorem features1 : W4 m ρ c (Proc.devRef .tc main_v31) = (Cert.Net.dense1 (F := Ideal) (m ((c : Thread nD τ).loc main_arg0)) (m ((c : Thread nD τ).loc main_arg2))) :=
  (W4_arr m ρ c 2).trans (Cert.KernelIdeal.Dense1.array_eq (V3 m ρ) c (m ((c : Thread nD τ).loc main_arg0)) (m ((c : Thread nD τ).loc main_arg2)) (graph_arg0 m ρ c) (graph_arg2 m ρ c))
theorem gathered1 : W5 m ρ c (Proc.devRef .tc main_v44) = (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) := by
  show StableHlo.after hostOps1 (W4 m ρ c) (Proc.devRef .tc main_v44) = _
  after_results_simp
  rw [features1 m ρ c, (carry4_main_v1 m ρ c).trans (graph_sources m ρ c), (carry4_main_v3 m ρ c).trans (graph_targets m ρ c), (carry4_main_v28 m ρ c).trans (graph_edgeWeight m ρ c)]
  rfl
theorem biasRow1 : W5 m ρ c (Proc.devRef .tc main_v45) = shapeCast S1x32 (m ((c : Thread nD τ).loc main_arg3)) shapeCasts_S32_S1x32 := by
  show StableHlo.after hostOps1 (W4 m ρ c) (Proc.devRef .tc main_v45) = _
  after_results_simp
  rw [(carry4_main_arg3 m ρ c).trans (graph_arg3 m ρ c)]
  rfl
theorem result1 : W6 m ρ c (Proc.devRef .tc main_v46) = (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) :=
  (W6_arr m ρ c 4).trans (Cert.KernelIdeal.Mix1.array_eq (V5 m ρ) c (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))
    (gathered1 m ρ c) ((carry5_main_v31 m ρ c).trans (features1 m ρ c)) ((carry5_main_v30 m ρ c).trans ((carry4_main_v30 m ρ c).trans (graph_selfColumn m ρ c))) (biasRow1 m ρ c))

/-! ## Layer 2 -/

theorem features2 : W7 m ρ c (Proc.devRef .tc main_v47) = (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) :=
  (W7_arr m ρ c 2).trans (Cert.KernelIdeal.Dense2.array_eq (V6 m ρ) c (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4)) (result1 m ρ c) ((carry6_main_arg4 m ρ c).trans ((carry5_main_arg4 m ρ c).trans ((carry4_main_arg4 m ρ c).trans (graph_arg4 m ρ c)))))
theorem gathered2 : W8 m ρ c (Proc.devRef .tc main_v60) = (Cert.Net.gathered16 (F := Ideal) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) := by
  show StableHlo.after hostOps3 (W7 m ρ c) (Proc.devRef .tc main_v60) = _
  after_results_simp
  rw [features2 m ρ c, (carry7_main_v1 m ρ c).trans ((carry6_main_v1 m ρ c).trans ((carry5_main_v1 m ρ c).trans ((carry4_main_v1 m ρ c).trans (graph_sources m ρ c)))), (carry7_main_v3 m ρ c).trans ((carry6_main_v3 m ρ c).trans ((carry5_main_v3 m ρ c).trans ((carry4_main_v3 m ρ c).trans (graph_targets m ρ c)))), (carry7_main_v28 m ρ c).trans ((carry6_main_v28 m ρ c).trans ((carry5_main_v28 m ρ c).trans ((carry4_main_v28 m ρ c).trans (graph_edgeWeight m ρ c))))]
  rfl
theorem biasRow2 : W8 m ρ c (Proc.devRef .tc main_v61) = shapeCast S1x16 (m ((c : Thread nD τ).loc main_arg5)) shapeCasts_S16_S1x16 := by
  show StableHlo.after hostOps3 (W7 m ρ c) (Proc.devRef .tc main_v61) = _
  after_results_simp
  rw [(carry7_main_arg5 m ρ c).trans ((carry6_main_arg5 m ρ c).trans ((carry5_main_arg5 m ρ c).trans ((carry4_main_arg5 m ρ c).trans (graph_arg5 m ρ c))))]
  rfl
theorem result2 : W9 m ρ c (Proc.devRef .tc main_v62) = (Cert.Net.combined16 (F := Ideal) (Cert.Net.gathered16 (F := Ideal) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.selfWeight (F := Ideal) (Cert.Net.targets (F := Ideal) (m ((c : Thread nD τ).loc main_arg1)))) (m ((c : Thread nD τ).loc main_arg5))) :=
  (W9_arr m ρ c 4).trans (Cert.KernelIdeal.Mix2.array_eq (V8 m ρ) c (Cert.Net.gathered16 (F := Ideal) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.selfWeight (F := Ideal) (Cert.Net.targets (F := Ideal) (m ((c : Thread nD τ).loc main_arg1)))) (m ((c : Thread nD τ).loc main_arg5))
    (gathered2 m ρ c) ((carry8_main_v47 m ρ c).trans (features2 m ρ c)) ((carry8_main_v30 m ρ c).trans ((carry7_main_v30 m ρ c).trans ((carry6_main_v30 m ρ c).trans ((carry5_main_v30 m ρ c).trans ((carry4_main_v30 m ρ c).trans (graph_selfColumn m ρ c)))))) (biasRow2 m ρ c))

/-! ## Layer 3 -/

theorem features3 : W10 m ρ c (Proc.devRef .tc main_v63) = (Cert.Net.dense3 (F := Ideal) (Cert.Net.combined16 (F := Ideal) (Cert.Net.gathered16 (F := Ideal) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.selfWeight (F := Ideal) (Cert.Net.targets (F := Ideal) (m ((c : Thread nD τ).loc main_arg1)))) (m ((c : Thread nD τ).loc main_arg5))) (m ((c : Thread nD τ).loc main_arg6))) :=
  (W10_arr m ρ c 2).trans (Cert.KernelIdeal.Dense3.array_eq (V9 m ρ) c (Cert.Net.combined16 (F := Ideal) (Cert.Net.gathered16 (F := Ideal) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.selfWeight (F := Ideal) (Cert.Net.targets (F := Ideal) (m ((c : Thread nD τ).loc main_arg1)))) (m ((c : Thread nD τ).loc main_arg5))) (m ((c : Thread nD τ).loc main_arg6)) (result2 m ρ c) ((carry9_main_arg6 m ρ c).trans ((carry8_main_arg6 m ρ c).trans ((carry7_main_arg6 m ρ c).trans ((carry6_main_arg6 m ρ c).trans ((carry5_main_arg6 m ρ c).trans ((carry4_main_arg6 m ρ c).trans (graph_arg6 m ρ c))))))))
theorem gathered3 : W11 m ρ c (Proc.devRef .tc main_v76) = (Cert.Net.gathered2 (F := Ideal) (Cert.Net.dense3 (F := Ideal) (Cert.Net.combined16 (F := Ideal) (Cert.Net.gathered16 (F := Ideal) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.selfWeight (F := Ideal) (Cert.Net.targets (F := Ideal) (m ((c : Thread nD τ).loc main_arg1)))) (m ((c : Thread nD τ).loc main_arg5))) (m ((c : Thread nD τ).loc main_arg6))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) := by
  show StableHlo.after hostOps5 (W10 m ρ c) (Proc.devRef .tc main_v76) = _
  after_results_simp
  rw [features3 m ρ c, (carry10_main_v1 m ρ c).trans ((carry9_main_v1 m ρ c).trans ((carry8_main_v1 m ρ c).trans ((carry7_main_v1 m ρ c).trans ((carry6_main_v1 m ρ c).trans ((carry5_main_v1 m ρ c).trans ((carry4_main_v1 m ρ c).trans (graph_sources m ρ c))))))), (carry10_main_v3 m ρ c).trans ((carry9_main_v3 m ρ c).trans ((carry8_main_v3 m ρ c).trans ((carry7_main_v3 m ρ c).trans ((carry6_main_v3 m ρ c).trans ((carry5_main_v3 m ρ c).trans ((carry4_main_v3 m ρ c).trans (graph_targets m ρ c))))))), (carry10_main_v28 m ρ c).trans ((carry9_main_v28 m ρ c).trans ((carry8_main_v28 m ρ c).trans ((carry7_main_v28 m ρ c).trans ((carry6_main_v28 m ρ c).trans ((carry5_main_v28 m ρ c).trans ((carry4_main_v28 m ρ c).trans (graph_edgeWeight m ρ c)))))))]
  rfl
theorem biasRow3 : W11 m ρ c (Proc.devRef .tc main_v77) = shapeCast S1x2 (m ((c : Thread nD τ).loc main_arg7)) shapeCasts_S2_S1x2 := by
  show StableHlo.after hostOps5 (W10 m ρ c) (Proc.devRef .tc main_v77) = _
  after_results_simp
  rw [(carry10_main_arg7 m ρ c).trans ((carry9_main_arg7 m ρ c).trans ((carry8_main_arg7 m ρ c).trans ((carry7_main_arg7 m ρ c).trans ((carry6_main_arg7 m ρ c).trans ((carry5_main_arg7 m ρ c).trans ((carry4_main_arg7 m ρ c).trans (graph_arg7 m ρ c)))))))]
  rfl

/-- The idealized kernel's result array, at the last boundary, is the network of the launch contents of its eight
    arguments. -/
theorem result : W12 m ρ c (Proc.devRef .tc main_v78)
    = Cert.Net.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 4).trans (Cert.KernelIdeal.Rows3.array_eq (V11 m ρ) c (Cert.Net.gathered2 (F := Ideal) (Cert.Net.dense3 (F := Ideal) (Cert.Net.combined16 (F := Ideal) (Cert.Net.gathered16 (F := Ideal) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.selfWeight (F := Ideal) (Cert.Net.targets (F := Ideal) (m ((c : Thread nD τ).loc main_arg1)))) (m ((c : Thread nD τ).loc main_arg5))) (m ((c : Thread nD τ).loc main_arg6))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense3 (F := Ideal) (Cert.Net.combined16 (F := Ideal) (Cert.Net.gathered16 (F := Ideal) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense2 (F := Ideal) (Cert.Net.combined32 (F := Ideal) (Cert.Net.gathered32 (F := Ideal) (Cert.Net.dense1 (F := Ideal) (m ((c : Thread nD τ).loc main_arg0)) (m ((c : Thread nD τ).loc main_arg2))) (Cert.Net.sources (F := Ideal) (m ((c : Thread nD τ).loc main_arg1))) (Cert.Net.targets (F := Ideal) (m ((c : Thread nD τ).loc main_arg1))) (Cert.Net.edgeWeight (F := Ideal) (Cert.Net.sources (F := Ideal) (m ((c : Thread nD τ).loc main_arg1))) (Cert.Net.targets (F := Ideal) (m ((c : Thread nD τ).loc main_arg1))))) (Cert.Net.dense1 (F := Ideal) (m ((c : Thread nD τ).loc main_arg0)) (m ((c : Thread nD τ).loc main_arg2))) (Cert.Net.selfWeight (F := Ideal) (Cert.Net.targets (F := Ideal) (m ((c : Thread nD τ).loc main_arg1)))) (m ((c : Thread nD τ).loc main_arg3))) (m ((c : Thread nD τ).loc main_arg4))) (Cert.Net.selfWeight (F := Ideal) (Cert.Net.targets (F := Ideal) (m ((c : Thread nD τ).loc main_arg1)))) (m ((c : Thread nD τ).loc main_arg5))) (m ((c : Thread nD τ).loc main_arg6))) (Cert.Net.selfWeight (F := Ideal) (Cert.Net.targets (F := Ideal) (m ((c : Thread nD τ).loc main_arg1)))) (m ((c : Thread nD τ).loc main_arg7))
    (gathered3 m ρ c) ((carry11_main_v63 m ρ c).trans (features3 m ρ c)) ((carry11_main_v30 m ρ c).trans ((carry10_main_v30 m ρ c).trans ((carry9_main_v30 m ρ c).trans ((carry8_main_v30 m ρ c).trans ((carry7_main_v30 m ρ c).trans ((carry6_main_v30 m ρ c).trans ((carry5_main_v30 m ρ c).trans ((carry4_main_v30 m ρ c).trans (graph_selfColumn m ρ c))))))))) (biasRow3 m ρ c))

end Cert.KernelIdeal.Boundaries

end
-- ==== Proof.RefStretches.lean ====
/-
  The reference program's run, stretch by stretch.

  The reference is one straight line of 138 host operations. It is cut here where its mathematics is cut: first
  everything that depends on the graph alone (the degrees, the edges' and the self loops' weights), then one stretch
  per layer, the third layer's row-softmax a stretch of its own. The line is the five stretches one after the other, so
  what a buffer holds at the end is the fold of the last stretch over the fold of the one before it, and so on down to
  the launch memory; every weakly fair execution terminates, nothing faulting, with every buffer at that value.
-/
import proofs.«105930_j51058571215473_2_alg».proof.Proof.Gen.ReferenceIdeal
import Idealize.ShloMosaic.Lib.StableHlo.Run
import Idealize.ShloMosaic.Lib.Pipeline.Frame

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- The edge list's two rows, the degrees, `deg^(-1/2)`, the edges' weights and the self-loop weights: 45 operations. -/
abbrev opsNorm : List (HloOp τ sig (Elt F)) :=
  [ unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    reshape main_v0 main_v1 rfl shapeCasts_S1x6400000_S6400000,
    unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    reshape main_v2 main_v3 rfl shapeCasts_S1x6400000_S6400000,
    unary main_arg1 main_v4 ((extractStridedSlice S1x6400000 ![0, 0] · slices_S2x6400000_S1x6400000_0_0) : (⟨S2x6400000, .i32⟩ : BufTy).Contents (Elt F) → (⟨S1x6400000, .i32⟩ : BufTy).Contents (Elt F)),
    reshape main_v4 main_v5 rfl shapeCasts_S1x6400000_S6400000,
    unary main_arg1 main_v6 ((extractStridedSlice S1x6400000 ![1, 0] · slices_S2x6400000_S1x6400000_1_0) : (⟨S2x6400000, .i32⟩ : BufTy).Contents (Elt F) → (⟨S1x6400000, .i32⟩ : BufTy).Contents (Elt F)),
    reshape main_v6 main_v7 rfl shapeCasts_S1x6400000_S6400000,
    nullary main_cst (constant S_ .f32 0x3F800000#32),
    unary main_cst main_v8 (broadcastInDim S6400000 ![] bcast_S_S6400000 : (⟨S_, .f32⟩ : BufTy).Contents (Elt F) → (⟨S6400000, .f32⟩ : BufTy).Contents (Elt F)),
    nullary main_cst_0 (constant S_ .f32 0x00000000#32),
    unary main_cst_0 main_v9 (broadcastInDim S200000 ![] bcast_S_S200000 : (⟨S_, .f32⟩ : BufTy).Contents (Elt F) → (⟨S200000, .f32⟩ : BufTy).Contents (Elt F)),
    unary main_v7 main_v10 (broadcastInDim S6400000x1 ![0] bcast_S6400000_S6400000x1_0 : (⟨S6400000, .i32⟩ : BufTy).Contents (Elt F) → (⟨S6400000x1, .i32⟩ : BufTy).Contents (Elt F)),
    ternary main_v9 main_v10 main_v8 main_v11 ((fun x i u => Host.scatterAdd scatter_S200000_S6400000x1_S6400000_n_0_0_1 x i u) : (⟨S200000, .f32⟩ : BufTy).Contents (Elt F) → (⟨S6400000x1, .i32⟩ : BufTy).Contents (Elt F) → (⟨S6400000, .f32⟩ : BufTy).Contents (Elt F) → (⟨S200000, .f32⟩ : BufTy).Contents (Elt F)),
    nullary main_cst_1 (constant S_ .f32 0x3F800000#32),
    unary main_cst_1 main_v12 (broadcastInDim S200000 ![] bcast_S_S200000 : (⟨S_, .f32⟩ : BufTy).Contents (Elt F) → (⟨S200000, .f32⟩ : BufTy).Contents (Elt F)),
    binary main_v11 main_v12 main_v13 (addf : (⟨S200000, .f32⟩ : BufTy).Contents (Elt F) → (⟨S200000, .f32⟩ : BufTy).Contents (Elt F) → (⟨S200000, .f32⟩ : BufTy).Contents (Elt F)),
    nullary main_cst_2 (constant S_ .f32 0x00000000#32),
    unary main_cst_2 main_v14 (broadcastInDim S200000 ![] bcast_S_S200000 : (⟨S_, .f32⟩ : BufTy).Contents (Elt F) → (⟨S200000, .f32⟩ : BufTy).Contents (Elt F)),
    binary main_v13 main_v14 main_v15 (cmpf .ogt : (⟨S200000, .f32⟩ : BufTy).Contents (Elt F) → (⟨S200000, .f32⟩ : BufTy).Contents (Elt F) → (⟨S200000, .i1⟩ : BufTy).Contents (Elt F)),
    unary main_v13 main_v16 (Host.rsqrt : (⟨S200000, .f32⟩ : BufTy).Contents (Elt F) → (⟨S200000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v15) (TRef.of (T := ⟨S200000, .f32⟩) main_v16) (TRef.of (T := ⟨S200000, .f32⟩) main_call0_v1) (TRef.of (T := ⟨S200000, .f32⟩) main_v17) select,
    nullary main_c (constantI S_ 32 0#32),
    unary main_c main_v18 (broadcastInDim S6400000 ![] bcast_S_S6400000 : (⟨S_, .i32⟩ : BufTy).Contents (Elt F) → (⟨S6400000, .i32⟩ : BufTy).Contents (Elt F)),
    binary main_v5 main_v18 main_v19 (cmpi .slt : (⟨S6400000, .i32⟩ : BufTy).Contents (Elt F) → (⟨S6400000, .i32⟩ : BufTy).Contents (Elt F) → (⟨S6400000, .i1⟩ : BufTy).Contents (Elt F)),
    nullary main_c_4 (constantI S_ 32 200000#32),
    unary main_c_4 main_v20 (broadcastInDim S6400000 ![] bcast_S_S6400000 : (⟨S_, .i32⟩ : BufTy).Contents (Elt F) → (⟨S6400000, .i32⟩ : BufTy).Contents (Elt F)),
    binary main_v5 main_v20 main_v21 (addi : (⟨S6400000, .i32⟩ : BufTy).Contents (Elt F) → (⟨S6400000, .i32⟩ : BufTy).Contents (Elt F) → (⟨S6400000, .i32⟩ : BufTy).Contents (Elt F)),
    ternary main_v19 main_v21 main_v5 main_v22 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v22 main_v23 (broadcastInDim S6400000x1 ![0] bcast_S6400000_S6400000x1_0 : (⟨S6400000, .i32⟩ : BufTy).Contents (Elt F) → (⟨S6400000x1, .i32⟩ : BufTy).Contents (Elt F)),
    binary main_v17 main_v23 main_v24 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    nullary main_c_5 (constantI S_ 32 0#32),
    unary main_c_5 main_v25 (broadcastInDim S6400000 ![] bcast_S_S6400000 : (⟨S_, .i32⟩ : BufTy).Contents (Elt F) → (⟨S6400000, .i32⟩ : BufTy).Contents (Elt F)),
    binary main_v7 main_v25 main_v26 (cmpi .slt : (⟨S6400000, .i32⟩ : BufTy).Contents (Elt F) → (⟨S6400000, .i32⟩ : BufTy).Contents (Elt F) → (⟨S6400000, .i1⟩ : BufTy).Contents (Elt F)),
    nullary main_c_6 (constantI S_ 32 200000#32),
    unary main_c_6 main_v27 (broadcastInDim S6400000 ![] bcast_S_S6400000 : (⟨S_, .i32⟩ : BufTy).Contents (Elt F) → (⟨S6400000, .i32⟩ : BufTy).Contents (Elt F)),
    binary main_v7 main_v27 main_v28 (addi : (⟨S6400000, .i32⟩ : BufTy).Contents (Elt F) → (⟨S6400000, .i32⟩ : BufTy).Contents (Elt F) → (⟨S6400000, .i32⟩ : BufTy).Contents (Elt F)),
    ternary main_v26 main_v28 main_v7 main_v29 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v29 main_v30 (broadcastInDim S6400000x1 ![0] bcast_S6400000_S6400000x1_0 : (⟨S6400000, .i32⟩ : BufTy).Contents (Elt F) → (⟨S6400000x1, .i32⟩ : BufTy).Contents (Elt F)),
    binary main_v17 main_v30 main_v31 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    binary main_v24 main_v31 main_v32 (mulf : (⟨S6400000, .f32⟩ : BufTy).Contents (Elt F) → (⟨S6400000, .f32⟩ : BufTy).Contents (Elt F) → (⟨S6400000, .f32⟩ : BufTy).Contents (Elt F)),
    binary main_v17 main_v17 main_v33 (mulf : (⟨S200000, .f32⟩ : BufTy).Contents (Elt F) → (⟨S200000, .f32⟩ : BufTy).Contents (Elt F) → (⟨S200000, .f32⟩ : BufTy).Contents (Elt F)) ]
theorem opsNorm_sub : (opsNorm : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩
/-- No operation of this stretch allocates a buffer. -/
theorem opsNorm_fresh : (opsNorm : List (HloOp τ sig (Elt F))).Forall fun op => op.fresh = ∅ := by
  simp only [List.Forall]; repeat' constructor

/-- The first layer: the dense product, the messages along the edges summed by target, the self loops, the bias, the clip: 27 operations. -/
abbrev opsLayer1 : List (HloOp τ sig (Elt F)) :=
  [ binary main_arg0 main_arg2 main_v34 ((fun l r => Host.dotGeneral dot_S200000x55_S55x32_S200000x32_1_0_0_1_n_n none l r) : (⟨S200000x55, .f32⟩ : BufTy).Contents (Elt F) → (⟨S55x32, .f32⟩ : BufTy).Contents (Elt F) → (⟨S200000x32, .f32⟩ : BufTy).Contents (Elt F)),
    nullary main_c_7 (constantI S_ 32 0#32),
    unary main_c_7 main_v35 (broadcastInDim S6400000 ![] bcast_S_S6400000 : (⟨S_, .i32⟩ : BufTy).Contents (Elt F) → (⟨S6400000, .i32⟩ : BufTy).Contents (Elt F)),
    binary main_v1 main_v35 main_v36 (cmpi .slt : (⟨S6400000, .i32⟩ : BufTy).Contents (Elt F) → (⟨S6400000, .i32⟩ : BufTy).Contents (Elt F) → (⟨S6400000, .i1⟩ : BufTy).Contents (Elt F)),
    nullary main_c_8 (constantI S_ 32 200000#32),
    unary main_c_8 main_v37 (broadcastInDim S6400000 ![] bcast_S_S6400000 : (⟨S_, .i32⟩ : BufTy).Contents (Elt F) → (⟨S6400000, .i32⟩ : BufTy).Contents (Elt F)),
    binary main_v1 main_v37 main_v38 (addi : (⟨S6400000, .i32⟩ : BufTy).Contents (Elt F) → (⟨S6400000, .i32⟩ : BufTy).Contents (Elt F) → (⟨S6400000, .i32⟩ : BufTy).Contents (Elt F)),
    ternary main_v36 main_v38 main_v1 main_v39 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v39 main_v40 (broadcastInDim S6400000x1 ![0] bcast_S6400000_S6400000x1_0 : (⟨S6400000, .i32⟩ : BufTy).Contents (Elt F) → (⟨S6400000x1, .i32⟩ : BufTy).Contents (Elt F)),
    binary main_v34 main_v40 main_v41 ((fun x i => Host.gather gather_S200000x32_S6400000x1_S6400000x32_1_0_n_n_0_1_132 x i) : (⟨S200000x32, .f32⟩ : BufTy).Contents (Elt F) → (⟨S6400000x1, .i32⟩ : BufTy).Contents (Elt F) → (⟨S6400000x32, .f32⟩ : BufTy).Contents (Elt F)),
    unary main_v32 main_v42 (broadcastInDim S6400000x1 ![0] bcast_S6400000_S6400000x1_0 : (⟨S6400000, .f32⟩ : BufTy).Contents (Elt F) → (⟨S6400000x1, .f32⟩ : BufTy).Contents (Elt F)),
    unary main_v42 main_v43 (broadcastInDim S6400000x32 ![0, 1] bcast_S6400000x1_S6400000x32_0_1 : (⟨S6400000x1, .f32⟩ : BufTy).Contents (Elt F) → (⟨S6400000x32, .f32⟩ : BufTy).Contents (Elt F)),
    binary main_v41 main_v43 main_v44 (mulf : (⟨S6400000x32, .f32⟩ : BufTy).Contents (Elt F) → (⟨S6400000x32, .f32⟩ : BufTy).Contents (Elt F) → (⟨S6400000x32, .f32⟩ : BufTy).Contents (Elt F)),
    nullary main_cst_9 (constant S_ .f32 0x00000000#32),
    unary main_cst_9 main_v45 (broadcastInDim S200000x32 ![] bcast_S_S200000x32 : (⟨S_, .f32⟩ : BufTy).Contents (Elt F) → (⟨S200000x32, .f32⟩ : BufTy).Contents (Elt F)),
    unary main_v3 main_v46 (broadcastInDim S6400000x1 ![0] bcast_S6400000_S6400000x1_0 : (⟨S6400000, .i32⟩ : BufTy).Contents (Elt F) → (⟨S6400000x1, .i32⟩ : BufTy).Contents (Elt F)),
    ternary main_v45 main_v46 main_v44 main_v47 ((fun x i u => Host.scatterAdd scatter_S200000x32_S6400000x1_S6400000x32_1_0_0_1 x i u) : (⟨S200000x32, .f32⟩ : BufTy).Contents (Elt F) → (⟨S6400000x1, .i32⟩ : BufTy).Contents (Elt F) → (⟨S6400000x32, .f32⟩ : BufTy).Contents (Elt F) → (⟨S200000x32, .f32⟩ : BufTy).Contents (Elt F)),
    unary main_v33 main_v48 (broadcastInDim S200000x1 ![0] bcast_S200000_S200000x1_0 : (⟨S200000, .f32⟩ : BufTy).Contents (Elt F) → (⟨S200000x1, .f32⟩ : BufTy).Contents (Elt F)),
    unary main_v48 main_v49 (broadcastInDim S200000x32 ![0, 1] bcast_S200000x1_S200000x32_0_1 : (⟨S200000x1, .f32⟩ : BufTy).Contents (Elt F) → (⟨S200000x32, .f32⟩ : BufTy).Contents (Elt F)),
    binary main_v34 main_v49 main_v50 (mulf : (⟨S200000x32, .f32⟩ : BufTy).Contents (Elt F) → (⟨S200000x32, .f32⟩ : BufTy).Contents (Elt F) → (⟨S200000x32, .f32⟩ : BufTy).Contents (Elt F)),
    binary main_v47 main_v50 main_v51 (addf : (⟨S200000x32, .f32⟩ : BufTy).Contents (Elt F) → (⟨S200000x32, .f32⟩ : BufTy).Contents (Elt F) → (⟨S200000x32, .f32⟩ : BufTy).Contents (Elt F)),
    unary main_arg3 main_v52 (broadcastInDim S1x32 ![1] bcast_S32_S1x32_1 : (⟨S32, .f32⟩ : BufTy).Contents (Elt F) → (⟨S1x32, .f32⟩ : BufTy).Contents (Elt F)),
    unary main_v52 main_v53 (broadcastInDim S200000x32 ![0, 1] bcast_S1x32_S200000x32_0_1 : (⟨S1x32, .f32⟩ : BufTy).Contents (Elt F) → (⟨S200000x32, .f32⟩ : BufTy).Contents (Elt F)),
    binary main_v51 main_v53 main_v54 (addf : (⟨S200000x32, .f32⟩ : BufTy).Contents (Elt F) → (⟨S200000x32, .f32⟩ : BufTy).Contents (Elt F) → (⟨S200000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x32, .f32⟩) main_call1_v0) (broadcastInDim S200000x32 ![] bcast_S_S200000x32),
    TRef.binary (TRef.of (T := ⟨S200000x32, .f32⟩) main_v54) (TRef.of (T := ⟨S200000x32, .f32⟩) main_call1_v0) (TRef.of (T := ⟨S200000x32, .f32⟩) main_v55) maximumf ]
theorem opsLayer1_sub : (opsLayer1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
/-- No operation of this stretch allocates a buffer. -/
theorem opsLayer1_fresh : (opsLayer1 : List (HloOp τ sig (Elt F))).Forall fun op => op.fresh = ∅ := by
  simp only [List.Forall]; repeat' constructor

/-- The second layer, the same 27 operations at 32 and 16 features. -/
abbrev opsLayer2 : List (HloOp τ sig (Elt F)) :=
  [ binary main_v55 main_arg4 main_v56 ((fun l r => Host.dotGeneral dot_S200000x32_S32x16_S200000x16_1_0_0_1_n_n none l r) : (⟨S200000x32, .f32⟩ : BufTy).Contents (Elt F) → (⟨S32x16, .f32⟩ : BufTy).Contents (Elt F) → (⟨S200000x16, .f32⟩ : BufTy).Contents (Elt F)),
    nullary main_c_10 (constantI S_ 32 0#32),
    unary main_c_10 main_v57 (broadcastInDim S6400000 ![] bcast_S_S6400000 : (⟨S_, .i32⟩ : BufTy).Contents (Elt F) → (⟨S6400000, .i32⟩ : BufTy).Contents (Elt F)),
    binary main_v1 main_v57 main_v58 (cmpi .slt : (⟨S6400000, .i32⟩ : BufTy).Contents (Elt F) → (⟨S6400000, .i32⟩ : BufTy).Contents (Elt F) → (⟨S6400000, .i1⟩ : BufTy).Contents (Elt F)),
    nullary main_c_11 (constantI S_ 32 200000#32),
    unary main_c_11 main_v59 (broadcastInDim S6400000 ![] bcast_S_S6400000 : (⟨S_, .i32⟩ : BufTy).Contents (Elt F) → (⟨S6400000, .i32⟩ : BufTy).Contents (Elt F)),
    binary main_v1 main_v59 main_v60 (addi : (⟨S6400000, .i32⟩ : BufTy).Contents (Elt F) → (⟨S6400000, .i32⟩ : BufTy).Contents (Elt F) → (⟨S6400000, .i32⟩ : BufTy).Contents (Elt F)),
    ternary main_v58 main_v60 main_v1 main_v61 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v61 main_v62 (broadcastInDim S6400000x1 ![0] bcast_S6400000_S6400000x1_0 : (⟨S6400000, .i32⟩ : BufTy).Contents (Elt F) → (⟨S6400000x1, .i32⟩ : BufTy).Contents (Elt F)),
    binary main_v56 main_v62 main_v63 ((fun x i => Host.gather gather_S200000x16_S6400000x1_S6400000x16_1_0_n_n_0_1_116 x i) : (⟨S200000x16, .f32⟩ : BufTy).Contents (Elt F) → (⟨S6400000x1, .i32⟩ : BufTy).Contents (Elt F) → (⟨S6400000x16, .f32⟩ : BufTy).Contents (Elt F)),
    unary main_v32 main_v64 (broadcastInDim S6400000x1 ![0] bcast_S6400000_S6400000x1_0 : (⟨S6400000, .f32⟩ : BufTy).Contents (Elt F) → (⟨S6400000x1, .f32⟩ : BufTy).Contents (Elt F)),
    unary main_v64 main_v65 (broadcastInDim S6400000x16 ![0, 1] bcast_S6400000x1_S6400000x16_0_1 : (⟨S6400000x1, .f32⟩ : BufTy).Contents (Elt F) → (⟨S6400000x16, .f32⟩ : BufTy).Contents (Elt F)),
    binary main_v63 main_v65 main_v66 (mulf : (⟨S6400000x16, .f32⟩ : BufTy).Contents (Elt F) → (⟨S6400000x16, .f32⟩ : BufTy).Contents (Elt F) → (⟨S6400000x16, .f32⟩ : BufTy).Contents (Elt F)),
    nullary main_cst_12 (constant S_ .f32 0x00000000#32),
    unary main_cst_12 main_v67 (broadcastInDim S200000x16 ![] bcast_S_S200000x16 : (⟨S_, .f32⟩ : BufTy).Contents (Elt F) → (⟨S200000x16, .f32⟩ : BufTy).Contents (Elt F)),
    unary main_v3 main_v68 (broadcastInDim S6400000x1 ![0] bcast_S6400000_S6400000x1_0 : (⟨S6400000, .i32⟩ : BufTy).Contents (Elt F) → (⟨S6400000x1, .i32⟩ : BufTy).Contents (Elt F)),
    ternary main_v67 main_v68 main_v66 main_v69 ((fun x i u => Host.scatterAdd scatter_S200000x16_S6400000x1_S6400000x16_1_0_0_1 x i u) : (⟨S200000x16, .f32⟩ : BufTy).Contents (Elt F) → (⟨S6400000x1, .i32⟩ : BufTy).Contents (Elt F) → (⟨S6400000x16, .f32⟩ : BufTy).Contents (Elt F) → (⟨S200000x16, .f32⟩ : BufTy).Contents (Elt F)),
    unary main_v33 main_v70 (broadcastInDim S200000x1 ![0] bcast_S200000_S200000x1_0 : (⟨S200000, .f32⟩ : BufTy).Contents (Elt F) → (⟨S200000x1, .f32⟩ : BufTy).Contents (Elt F)),
    unary main_v70 main_v71 (broadcastInDim S200000x16 ![0, 1] bcast_S200000x1_S200000x16_0_1 : (⟨S200000x1, .f32⟩ : BufTy).Contents (Elt F) → (⟨S200000x16, .f32⟩ : BufTy).Contents (Elt F)),
    binary main_v56 main_v71 main_v72 (mulf : (⟨S200000x16, .f32⟩ : BufTy).Contents (Elt F) → (⟨S200000x16, .f32⟩ : BufTy).Contents (Elt F) → (⟨S200000x16, .f32⟩ : BufTy).Contents (Elt F)),
    binary main_v69 main_v72 main_v73 (addf : (⟨S200000x16, .f32⟩ : BufTy).Contents (Elt F) → (⟨S200000x16, .f32⟩ : BufTy).Contents (Elt F) → (⟨S200000x16, .f32⟩ : BufTy).Contents (Elt F)),
    unary main_arg5 main_v74 (broadcastInDim S1x16 ![1] bcast_S16_S1x16_1 : (⟨S16, .f32⟩ : BufTy).Contents (Elt F) → (⟨S1x16, .f32⟩ : BufTy).Contents (Elt F)),
    unary main_v74 main_v75 (broadcastInDim S200000x16 ![0, 1] bcast_S1x16_S200000x16_0_1 : (⟨S1x16, .f32⟩ : BufTy).Contents (Elt F) → (⟨S200000x16, .f32⟩ : BufTy).Contents (Elt F)),
    binary main_v73 main_v75 main_v76 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x16, .f32⟩) main_call2_v0) (broadcastInDim S200000x16 ![] bcast_S_S200000x16),
    TRef.binary (TRef.of (T := ⟨S200000x16, .f32⟩) main_v76) (TRef.of (T := ⟨S200000x16, .f32⟩) main_call2_v0) (TRef.of (T := ⟨S200000x16, .f32⟩) main_v77) maximumf ]
theorem opsLayer2_sub : (opsLayer2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
/-- No operation of this stretch allocates a buffer. -/
theorem opsLayer2_fresh : (opsLayer2 : List (HloOp τ sig (Elt F))).Forall fun op => op.fresh = ∅ := by
  simp only [List.Forall]; repeat' constructor

/-- The third layer up to its bias: 24 operations, nothing clipped. -/
abbrev opsLayer3 : List (HloOp τ sig (Elt F)) :=
  [ binary main_v77 main_arg6 main_v78 ((fun l r => Host.dotGeneral dot_S200000x16_S16x2_S200000x2_1_0_0_1_n_n none l r) : (⟨S200000x16, .f32⟩ : BufTy).Contents (Elt F) → (⟨S16x2, .f32⟩ : BufTy).Contents (Elt F) → (⟨S200000x2, .f32⟩ : BufTy).Contents (Elt F)),
    nullary main_c_13 (constantI S_ 32 0#32),
    unary main_c_13 main_v79 (broadcastInDim S6400000 ![] bcast_S_S6400000 : (⟨S_, .i32⟩ : BufTy).Contents (Elt F) → (⟨S6400000, .i32⟩ : BufTy).Contents (Elt F)),
    binary main_v1 main_v79 main_v80 (cmpi .slt : (⟨S6400000, .i32⟩ : BufTy).Contents (Elt F) → (⟨S6400000, .i32⟩ : BufTy).Contents (Elt F) → (⟨S6400000, .i1⟩ : BufTy).Contents (Elt F)),
    nullary main_c_14 (constantI S_ 32 200000#32),
    unary main_c_14 main_v81 (broadcastInDim S6400000 ![] bcast_S_S6400000 : (⟨S_, .i32⟩ : BufTy).Contents (Elt F) → (⟨S6400000, .i32⟩ : BufTy).Contents (Elt F)),
    binary main_v1 main_v81 main_v82 (addi : (⟨S6400000, .i32⟩ : BufTy).Contents (Elt F) → (⟨S6400000, .i32⟩ : BufTy).Contents (Elt F) → (⟨S6400000, .i32⟩ : BufTy).Contents (Elt F)),
    ternary main_v80 main_v82 main_v1 main_v83 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v83 main_v84 (broadcastInDim S6400000x1 ![0] bcast_S6400000_S6400000x1_0 : (⟨S6400000, .i32⟩ : BufTy).Contents (Elt F) → (⟨S6400000x1, .i32⟩ : BufTy).Contents (Elt F)),
    binary main_v78 main_v84 main_v85 ((fun x i => Host.gather gather_S200000x2_S6400000x1_S6400000x2_1_0_n_n_0_1_12 x i) : (⟨S200000x2, .f32⟩ : BufTy).Contents (Elt F) → (⟨S6400000x1, .i32⟩ : BufTy).Contents (Elt F) → (⟨S6400000x2, .f32⟩ : BufTy).Contents (Elt F)),
    unary main_v32 main_v86 (broadcastInDim S6400000x1 ![0] bcast_S6400000_S6400000x1_0 : (⟨S6400000, .f32⟩ : BufTy).Contents (Elt F) → (⟨S6400000x1, .f32⟩ : BufTy).Contents (Elt F)),
    unary main_v86 main_v87 (broadcastInDim S6400000x2 ![0, 1] bcast_S6400000x1_S6400000x2_0_1 : (⟨S6400000x1, .f32⟩ : BufTy).Contents (Elt F) → (⟨S6400000x2, .f32⟩ : BufTy).Contents (Elt F)),
    binary main_v85 main_v87 main_v88 (mulf : (⟨S6400000x2, .f32⟩ : BufTy).Contents (Elt F) → (⟨S6400000x2, .f32⟩ : BufTy).Contents (Elt F) → (⟨S6400000x2, .f32⟩ : BufTy).Contents (Elt F)),
    nullary main_cst_15 (constant S_ .f32 0x00000000#32),
    unary main_cst_15 main_v89 (broadcastInDim S200000x2 ![] bcast_S_S200000x2 : (⟨S_, .f32⟩ : BufTy).Contents (Elt F) → (⟨S200000x2, .f32⟩ : BufTy).Contents (Elt F)),
    unary main_v3 main_v90 (broadcastInDim S6400000x1 ![0] bcast_S6400000_S6400000x1_0 : (⟨S6400000, .i32⟩ : BufTy).Contents (Elt F) → (⟨S6400000x1, .i32⟩ : BufTy).Contents (Elt F)),
    ternary main_v89 main_v90 main_v88 main_v91 ((fun x i u => Host.scatterAdd scatter_S200000x2_S6400000x1_S6400000x2_1_0_0_1 x i u) : (⟨S200000x2, .f32⟩ : BufTy).Contents (Elt F) → (⟨S6400000x1, .i32⟩ : BufTy).Contents (Elt F) → (⟨S6400000x2, .f32⟩ : BufTy).Contents (Elt F) → (⟨S200000x2, .f32⟩ : BufTy).Contents (Elt F)),
    unary main_v33 main_v92 (broadcastInDim S200000x1 ![0] bcast_S200000_S200000x1_0 : (⟨S200000, .f32⟩ : BufTy).Contents (Elt F) → (⟨S200000x1, .f32⟩ : BufTy).Contents (Elt F)),
    unary main_v92 main_v93 (broadcastInDim S200000x2 ![0, 1] bcast_S200000x1_S200000x2_0_1 : (⟨S200000x1, .f32⟩ : BufTy).Contents (Elt F) → (⟨S200000x2, .f32⟩ : BufTy).Contents (Elt F)),
    binary main_v78 main_v93 main_v94 (mulf : (⟨S200000x2, .f32⟩ : BufTy).Contents (Elt F) → (⟨S200000x2, .f32⟩ : BufTy).Contents (Elt F) → (⟨S200000x2, .f32⟩ : BufTy).Contents (Elt F)),
    binary main_v91 main_v94 main_v95 (addf : (⟨S200000x2, .f32⟩ : BufTy).Contents (Elt F) → (⟨S200000x2, .f32⟩ : BufTy).Contents (Elt F) → (⟨S200000x2, .f32⟩ : BufTy).Contents (Elt F)),
    unary main_arg7 main_v96 (broadcastInDim S1x2 ![1] bcast_S2_S1x2_1 : (⟨S2, .f32⟩ : BufTy).Contents (Elt F) → (⟨S1x2, .f32⟩ : BufTy).Contents (Elt F)),
    unary main_v96 main_v97 (broadcastInDim S200000x2 ![0, 1] bcast_S1x2_S200000x2_0_1 : (⟨S1x2, .f32⟩ : BufTy).Contents (Elt F) → (⟨S200000x2, .f32⟩ : BufTy).Contents (Elt F)),
    binary main_v95 main_v97 main_v98 (addf : (⟨S200000x2, .f32⟩ : BufTy).Contents (Elt F) → (⟨S200000x2, .f32⟩ : BufTy).Contents (Elt F) → (⟨S200000x2, .f32⟩ : BufTy).Contents (Elt F)) ]
theorem opsLayer3_sub : (opsLayer3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
/-- No operation of this stretch allocates a buffer. -/
theorem opsLayer3_fresh : (opsLayer3 : List (HloOp τ sig (Elt F))).Forall fun op => op.fresh = ∅ := by
  simp only [List.Forall]; repeat' constructor

/-- The logarithm of each row's softmax of the third layer's sums: 15 operations. -/
abbrev opsSoftmax : List (HloOp τ sig (Elt F)) :=
  [ TRef.nullary (TRef.of (T := ⟨S_, .f32⟩) main_call3_cst) (constant S_ .f32 0xFF800000#32),
    TRef.binary (TRef.of (T := ⟨S200000x2, .f32⟩) main_v98) (TRef.of (T := ⟨S_, .f32⟩) main_call3_cst) (TRef.of (T := ⟨S200000, .f32⟩) main_call3_v0) (fun x v => Host.reduce FloatOps.maximumf x v reducesTo_S200000x2_S200000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S200000, .f32⟩) main_call3_v1) (broadcastInDim S200000 ![] bcast_S_S200000),
    TRef.binary (TRef.of (T := ⟨S200000, .f32⟩) main_call3_v1) (TRef.of (T := ⟨S200000, .f32⟩) main_call3_v0) (TRef.of (T := ⟨S200000, .f32⟩) main_call3_v2) maximumf,
    TRef.unary (TRef.of (T := ⟨S200000, .f32⟩) main_call3_v2) (TRef.of (T := ⟨S200000x1, .f32⟩) main_call3_v3) (broadcastInDim S200000x1 ![0] bcast_S200000_S200000x1_0),
    TRef.unary (TRef.of (T := ⟨S200000x1, .f32⟩) main_call3_v3) (TRef.of (T := ⟨S200000x2, .f32⟩) main_call3_v4) (broadcastInDim S200000x2 ![0, 1] bcast_S200000x1_S200000x2_0_1),
    TRef.binary (TRef.of (T := ⟨S200000x2, .f32⟩) main_v98) (TRef.of (T := ⟨S200000x2, .f32⟩) main_call3_v4) (TRef.of (T := ⟨S200000x2, .f32⟩) main_call3_v5) subf,
    TRef.unary (TRef.of (T := ⟨S200000x2, .f32⟩) main_call3_v5) (TRef.of (T := ⟨S200000x2, .f32⟩) main_call3_v6) Host.exp,
    TRef.nullary (TRef.of (T := ⟨S_, .f32⟩) main_call3_cst_1) (constant S_ .f32 0x00000000#32),
    TRef.binary (TRef.of (T := ⟨S200000x2, .f32⟩) main_call3_v6) (TRef.of (T := ⟨S_, .f32⟩) main_call3_cst_1) (TRef.of (T := ⟨S200000, .f32⟩) main_call3_v7) (fun x v => Host.reduceAdd x v reducesTo_S200000x2_S200000_d1 h_S_),
    TRef.unary (TRef.of (T := ⟨S200000, .f32⟩) main_call3_v7) (TRef.of (T := ⟨S200000x1, .f32⟩) main_call3_v8) (broadcastInDim S200000x1 ![0] bcast_S200000_S200000x1_0),
    TRef.unary (TRef.of (T := ⟨S200000x1, .f32⟩) main_call3_v8) (TRef.of (T := ⟨S200000x1, .f32⟩) main_call3_v9) Host.log,
    TRef.unary (TRef.of (T := ⟨S200000x1, .f32⟩) main_call3_v9) (TRef.of (T := ⟨S200000x2, .f32⟩) main_call3_v10) (broadcastInDim S200000x2 ![0, 1] bcast_S200000x1_S200000x2_0_1),
    TRef.binary (TRef.of (T := ⟨S200000x2, .f32⟩) main_call3_v5) (TRef.of (T := ⟨S200000x2, .f32⟩) main_call3_v10) (TRef.of (T := ⟨S200000x2, .f32⟩) main_v99) subf ]
theorem opsSoftmax_sub : (opsSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
/-- No operation of this stretch allocates a buffer. -/
theorem opsSoftmax_fresh : (opsSoftmax : List (HloOp τ sig (Elt F))).Forall fun op => op.fresh = ∅ := by
  simp only [List.Forall]; repeat' constructor

/-- The whole line. -/
abbrev ops : List (HloOp τ sig (Elt F)) := opsNorm ++ (opsLayer1 ++ (opsLayer2 ++ (opsLayer3 ++ opsSoftmax)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op hop => by
    rcases List.mem_append.mp hop with h | h
    · exact (List.forall_iff_forall_mem.mp opsNorm_sub) op h
    rcases List.mem_append.mp h with h | h
    · exact (List.forall_iff_forall_mem.mp opsLayer1_sub) op h
    rcases List.mem_append.mp h with h | h
    · exact (List.forall_iff_forall_mem.mp opsLayer2_sub) op h
    rcases List.mem_append.mp h with h | h
    · exact (List.forall_iff_forall_mem.mp opsLayer3_sub) op h
    · exact (List.forall_iff_forall_mem.mp opsSoftmax_sub) op h

/-- What the buffers hold after the whole line, from contents `W`: the four folds in a row. -/
theorem after_ops (W : Valuation τ sig (Elt F)) :
    after ops W = after opsSoftmax (after opsLayer3 (after opsLayer2 (after opsLayer1 (after opsNorm W)))) := by
  show after (opsNorm ++ (opsLayer1 ++ (opsLayer2 ++ (opsLayer3 ++ opsSoftmax)))) W = _
  rw [StableHlo.after_append, StableHlo.after_append, StableHlo.after_append, StableHlo.after_append]

/-- On every device, from any memory with zero counters: every weakly fair execution of the reference terminates,
    nothing faulting, with every buffer at the fold of the line over the launch memory. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ op hop => by
      rcases List.mem_append.mp hop with h | h
      · exact (List.forall_iff_forall_mem.mp opsNorm_fresh) op h
      rcases List.mem_append.mp h with h | h
      · exact (List.forall_iff_forall_mem.mp opsLayer1_fresh) op h
      rcases List.mem_append.mp h with h | h
      · exact (List.forall_iff_forall_mem.mp opsLayer2_fresh) op h
      rcases List.mem_append.mp h with h | h
      · exact (List.forall_iff_forall_mem.mp opsLayer3_fresh) op h
      · exact (List.forall_iff_forall_mem.mp opsSoftmax_fresh) op h)

end Cert.ReferenceIdeal.Stretches

end
-- ==== Proof.RefValue.lean ====
/-
  What the reference computes, read stretch by stretch.

  The first stretch leaves, as functions of the edge list alone: the sources, the targets, every edge's weight and
  every node's self-loop weight. Each layer's stretch reads those four, the previous layer's result (the node features
  for the first) and its own weights and bias, and leaves one array: the layer's function of what it read. No stretch
  writes a buffer that a later one reads except its own result. So the whole line leaves the three layers composed.
-/
import proofs.«105930_j51058571215473_2_alg».proof.Proof.RefStretches
import proofs.«105930_j51058571215473_2_alg».proof.Proof.NetSpec

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-! ## The graph's stretch -/

theorem norm_sources (W : Valuation τ sig (Elt F)) :
    (after opsNorm W (Proc.devRef .tc main_v1) : (⟨S6400000, .i32⟩ : BufTy).Contents (Elt F)) = Cert.Net.sources (F := F) (W (Proc.devRef .tc main_arg1)) := by
  after_results_simp <;> rfl
theorem norm_targets (W : Valuation τ sig (Elt F)) :
    (after opsNorm W (Proc.devRef .tc main_v3) : (⟨S6400000, .i32⟩ : BufTy).Contents (Elt F)) = Cert.Net.targets (F := F) (W (Proc.devRef .tc main_arg1)) := by
  after_results_simp <;> rfl
theorem norm_edgeWeight (W : Valuation τ sig (Elt F)) :
    (after opsNorm W (Proc.devRef .tc main_v32) : (⟨S6400000, .f32⟩ : BufTy).Contents (Elt F))
      = Cert.Net.edgeWeight (F := F) (Cert.Net.sources (F := F) (W (Proc.devRef .tc main_arg1))) (Cert.Net.targets (F := F) (W (Proc.devRef .tc main_arg1))) := by
  after_results_simp <;> rfl
theorem norm_selfWeight (W : Valuation τ sig (Elt F)) :
    (after opsNorm W (Proc.devRef .tc main_v33) : (⟨S200000, .f32⟩ : BufTy).Contents (Elt F)) = Cert.Net.selfWeight (F := F) (Cert.Net.targets (F := F) (W (Proc.devRef .tc main_arg1))) := by
  after_results_simp <;> rfl
theorem keepNorm_main_arg0 (U : Valuation τ sig (Elt F)) : after opsNorm U (Proc.devRef .tc main_arg0) = U (Proc.devRef .tc main_arg0) := by
  after_results_simp
theorem keepNorm_main_arg2 (U : Valuation τ sig (Elt F)) : after opsNorm U (Proc.devRef .tc main_arg2) = U (Proc.devRef .tc main_arg2) := by
  after_results_simp
theorem keepNorm_main_arg3 (U : Valuation τ sig (Elt F)) : after opsNorm U (Proc.devRef .tc main_arg3) = U (Proc.devRef .tc main_arg3) := by
  after_results_simp
theorem keepNorm_main_arg4 (U : Valuation τ sig (Elt F)) : after opsNorm U (Proc.devRef .tc main_arg4) = U (Proc.devRef .tc main_arg4) := by
  after_results_simp
theorem keepNorm_main_arg5 (U : Valuation τ sig (Elt F)) : after opsNorm U (Proc.devRef .tc main_arg5) = U (Proc.devRef .tc main_arg5) := by
  after_results_simp
theorem keepNorm_main_arg6 (U : Valuation τ sig (Elt F)) : after opsNorm U (Proc.devRef .tc main_arg6) = U (Proc.devRef .tc main_arg6) := by
  after_results_simp
theorem keepNorm_main_arg7 (U : Valuation τ sig (Elt F)) : after opsNorm U (Proc.devRef .tc main_arg7) = U (Proc.devRef .tc main_arg7) := by
  after_results_simp

/-! ## The first layer's stretch -/

theorem layer1_value (U : Valuation τ sig (Elt F)) :
    (after opsLayer1 U (Proc.devRef .tc main_v55) : (⟨S200000x32, .f32⟩ : BufTy).Contents (Elt F))
      = Cert.Net.combined32 (F := F)
          (Cert.Net.gathered32 (F := F) (Cert.Net.dense1 (F := F) (U (Proc.devRef .tc main_arg0)) (U (Proc.devRef .tc main_arg2))) (U (Proc.devRef .tc main_v1)) (U (Proc.devRef .tc main_v3)) (U (Proc.devRef .tc main_v32)))
          (Cert.Net.dense1 (F := F) (U (Proc.devRef .tc main_arg0)) (U (Proc.devRef .tc main_arg2))) (U (Proc.devRef .tc main_v33)) (U (Proc.devRef .tc main_arg3)) := by
  after_results_simp <;> rfl
theorem keepLayer1_main_arg4 (U : Valuation τ sig (Elt F)) : after opsLayer1 U (Proc.devRef .tc main_arg4) = U (Proc.devRef .tc main_arg4) := by
  after_results_simp
theorem keepLayer1_main_arg5 (U : Valuation τ sig (Elt F)) : after opsLayer1 U (Proc.devRef .tc main_arg5) = U (Proc.devRef .tc main_arg5) := by
  after_results_simp
theorem keepLayer1_main_arg6 (U : Valuation τ sig (Elt F)) : after opsLayer1 U (Proc.devRef .tc main_arg6) = U (Proc.devRef .tc main_arg6) := by
  after_results_simp
theorem keepLayer1_main_arg7 (U : Valuation τ sig (Elt F)) : after opsLayer1 U (Proc.devRef .tc main_arg7) = U (Proc.devRef .tc main_arg7) := by
  after_results_simp
theorem keepLayer1_main_v1 (U : Valuation τ sig (Elt F)) : after opsLayer1 U (Proc.devRef .tc main_v1) = U (Proc.devRef .tc main_v1) := by
  after_results_simp
theorem keepLayer1_main_v3 (U : Valuation τ sig (Elt F)) : after opsLayer1 U (Proc.devRef .tc main_v3) = U (Proc.devRef .tc main_v3) := by
  after_results_simp
theorem keepLayer1_main_v32 (U : Valuation τ sig (Elt F)) : after opsLayer1 U (Proc.devRef .tc main_v32) = U (Proc.devRef .tc main_v32) := by
  after_results_simp
theorem keepLayer1_main_v33 (U : Valuation τ sig (Elt F)) : after opsLayer1 U (Proc.devRef .tc main_v33) = U (Proc.devRef .tc main_v33) := by
  after_results_simp

/-! ## The second layer's stretch -/

theorem layer2_value (U : Valuation τ sig (Elt F)) :
    (after opsLayer2 U (Proc.devRef .tc main_v77) : (⟨S200000x16, .f32⟩ : BufTy).Contents (Elt F))
      = Cert.Net.combined16 (F := F)
          (Cert.Net.gathered16 (F := F) (Cert.Net.dense2 (F := F) (U (Proc.devRef .tc main_v55)) (U (Proc.devRef .tc main_arg4))) (U (Proc.devRef .tc main_v1)) (U (Proc.devRef .tc main_v3)) (U (Proc.devRef .tc main_v32)))
          (Cert.Net.dense2 (F := F) (U (Proc.devRef .tc main_v55)) (U (Proc.devRef .tc main_arg4))) (U (Proc.devRef .tc main_v33)) (U (Proc.devRef .tc main_arg5)) := by
  after_results_simp <;> rfl
theorem keepLayer2_main_arg6 (U : Valuation τ sig (Elt F)) : after opsLayer2 U (Proc.devRef .tc main_arg6) = U (Proc.devRef .tc main_arg6) := by
  after_results_simp
theorem keepLayer2_main_arg7 (U : Valuation τ sig (Elt F)) : after opsLayer2 U (Proc.devRef .tc main_arg7) = U (Proc.devRef .tc main_arg7) := by
  after_results_simp
theorem keepLayer2_main_v1 (U : Valuation τ sig (Elt F)) : after opsLayer2 U (Proc.devRef .tc main_v1) = U (Proc.devRef .tc main_v1) := by
  after_results_simp
theorem keepLayer2_main_v3 (U : Valuation τ sig (Elt F)) : after opsLayer2 U (Proc.devRef .tc main_v3) = U (Proc.devRef .tc main_v3) := by
  after_results_simp
theorem keepLayer2_main_v32 (U : Valuation τ sig (Elt F)) : after opsLayer2 U (Proc.devRef .tc main_v32) = U (Proc.devRef .tc main_v32) := by
  after_results_simp
theorem keepLayer2_main_v33 (U : Valuation τ sig (Elt F)) : after opsLayer2 U (Proc.devRef .tc main_v33) = U (Proc.devRef .tc main_v33) := by
  after_results_simp

/-! ## The third layer's stretch -/

theorem layer3_value (U : Valuation τ sig (Elt F)) :
    (after opsLayer3 U (Proc.devRef .tc main_v98) : (⟨S200000x2, .f32⟩ : BufTy).Contents (Elt F))
      = Cert.Net.summed2 (F := F)
          (Cert.Net.gathered2 (F := F) (Cert.Net.dense3 (F := F) (U (Proc.devRef .tc main_v77)) (U (Proc.devRef .tc main_arg6))) (U (Proc.devRef .tc main_v1)) (U (Proc.devRef .tc main_v3)) (U (Proc.devRef .tc main_v32)))
          (Cert.Net.dense3 (F := F) (U (Proc.devRef .tc main_v77)) (U (Proc.devRef .tc main_arg6))) (U (Proc.devRef .tc main_v33)) (U (Proc.devRef .tc main_arg7)) := by
  after_results_simp <;> rfl

/-! ## The row-softmax's stretch -/

theorem softmax_value (U : Valuation τ sig (Elt F)) :
    (after opsSoftmax U (Proc.devRef .tc main_v99) : (⟨S200000x2, .f32⟩ : BufTy).Contents (Elt F))
      = Cert.Net.logSoftmaxRows (F := F) (U (Proc.devRef .tc main_v98)) := by
  after_results_simp
  simp only [TRef.toBuf, TRef.ofBuf, cast_eq]
  rfl

/-! ## The whole line -/

/-- The reference's result is the network of the launch contents of its eight arguments. -/
theorem result (W : Valuation τ sig (Elt F)) :
    (after (ops (F := F)) W (Proc.devRef .tc main_v99) : (⟨S200000x2, .f32⟩ : BufTy).Contents (Elt F))
      = Cert.Net.net (F := F) (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  rw [after_ops, softmax_value, layer3_value]
  rw [layer2_value, keepLayer2_main_arg6, keepLayer2_main_arg7, keepLayer2_main_v1, keepLayer2_main_v3, keepLayer2_main_v32, keepLayer2_main_v33]
  rw [layer1_value, keepLayer1_main_arg4, keepLayer1_main_arg5, keepLayer1_main_arg6, keepLayer1_main_arg7, keepLayer1_main_v1, keepLayer1_main_v3,
    keepLayer1_main_v32, keepLayer1_main_v33]
  rw [norm_sources, norm_targets, norm_edgeWeight, norm_selfWeight, keepNorm_main_arg0, keepNorm_main_arg2, keepNorm_main_arg3, keepNorm_main_arg4,
    keepNorm_main_arg5, keepNorm_main_arg6, keepNorm_main_arg7]
  rfl

/-! ## The arguments are left as they were found -/

theorem kept_arg0 (W : Valuation τ sig (Elt F)) : after (ops (F := F)) W (Proc.devRef .tc main_arg0) = W (Proc.devRef .tc main_arg0) := by
  rw [after_ops]; after_results_simp
theorem kept_arg1 (W : Valuation τ sig (Elt F)) : after (ops (F := F)) W (Proc.devRef .tc main_arg1) = W (Proc.devRef .tc main_arg1) := by
  rw [after_ops]; after_results_simp
theorem kept_arg2 (W : Valuation τ sig (Elt F)) : after (ops (F := F)) W (Proc.devRef .tc main_arg2) = W (Proc.devRef .tc main_arg2) := by
  rw [after_ops]; after_results_simp
theorem kept_arg3 (W : Valuation τ sig (Elt F)) : after (ops (F := F)) W (Proc.devRef .tc main_arg3) = W (Proc.devRef .tc main_arg3) := by
  rw [after_ops]; after_results_simp
theorem kept_arg4 (W : Valuation τ sig (Elt F)) : after (ops (F := F)) W (Proc.devRef .tc main_arg4) = W (Proc.devRef .tc main_arg4) := by
  rw [after_ops]; after_results_simp
theorem kept_arg5 (W : Valuation τ sig (Elt F)) : after (ops (F := F)) W (Proc.devRef .tc main_arg5) = W (Proc.devRef .tc main_arg5) := by
  rw [after_ops]; after_results_simp
theorem kept_arg6 (W : Valuation τ sig (Elt F)) : after (ops (F := F)) W (Proc.devRef .tc main_arg6) = W (Proc.devRef .tc main_arg6) := by
  rw [after_ops]; after_results_simp
theorem kept_arg7 (W : Valuation τ sig (Elt F)) : after (ops (F := F)) W (Proc.devRef .tc main_arg7) = W (Proc.devRef .tc main_arg7) := by
  rw [after_ops]; after_results_simp

end Cert.ReferenceIdeal.Stretches

end
-- ==== Proof.lean ====
/-
  A three-layer graph convolution computed two ways gives one result.

  The graph has 200000 nodes and 6400000 directed edges; a layer maps node features `x` to `h = x W`, sums along the
  edges into each node the sources' rows of `h` weighted by `deg^(-1/2)` of both ends, adds the node's own row times
  its self-loop weight and a bias; two layers clip the result below at zero and the third takes the logarithm of each
  row's softmax. One program computes the dense products and the combinations in tiles of 2000 nodes, with the sums
  along the edges done on the host in between; the other is one straight line of whole-array host operations. Over
  the extended reals both leave the same array: a tile of a dense product is the same sum over the contracted axis as
  the whole product has there; a tile of a combination is the same entry-by-entry expression; the sums along the
  edges are the same operations applied to arrays already known equal; and a row's softmax in a tile is the row's
  softmax, the maximum over the two entries being the same fold and the host's extra maximum against minus infinity
  and its sum's initial zero changing nothing. No law of arithmetic that fails at the infinities is used, so the
  finiteness of the inputs is never opened. The tiled program's own rewriting into its idealized form changed no
  operation, so there is nothing to preserve beyond the text.
-/
import proofs.«105930_j51058571215473_2_alg».proof.Defs
import proofs.«105930_j51058571215473_2_alg».proof.Proof.Gen.Kernel
import proofs.«105930_j51058571215473_2_alg».proof.Proof.Gen.Kernel.Skeleton
import proofs.«105930_j51058571215473_2_alg».proof.Proof.Gen.Kernel.Launch
import proofs.«105930_j51058571215473_2_alg».proof.Proof.Gen.Kernel.Points
import proofs.«105930_j51058571215473_2_alg».proof.Proof.Gen.Kernel.Frame
import proofs.«105930_j51058571215473_2_alg».proof.Proof.Gen.KernelIdeal
import proofs.«105930_j51058571215473_2_alg».proof.Proof.Gen.KernelIdeal.Skeleton
import proofs.«105930_j51058571215473_2_alg».proof.Proof.Gen.KernelIdeal.Launch
import proofs.«105930_j51058571215473_2_alg».proof.Proof.Gen.KernelIdeal.Points
import proofs.«105930_j51058571215473_2_alg».proof.Proof.Gen.KernelIdeal.Frame
import proofs.«105930_j51058571215473_2_alg».proof.Proof.Gen.ReferenceIdeal
import proofs.«105930_j51058571215473_2_alg».proof.Proof.Gen.Pre_finite_inputs
import proofs.«105930_j51058571215473_2_alg».proof.Proof.KernelRun
import proofs.«105930_j51058571215473_2_alg».proof.Proof.KernelValue
import proofs.«105930_j51058571215473_2_alg».proof.Proof.RefStretches
import proofs.«105930_j51058571215473_2_alg».proof.Proof.RefValue
import Idealize.ShloMosaic.Adequacy
import Idealize.ShloMosaic.Init

noncomputable section

namespace Cert.Proof

open Idealize.ShloMosaic Idealize.SL.Sem

/-- The tiled program runs, nothing faulting, and leaves its arguments as launched. -/
theorem frame_tiled : Cert.frame_Kernel (hKernel := Cert.Kernel.Gen.facts) (hPre_finite_inputs := Cert.Pre_finite_inputs.Gen.facts) :=
  fun m ρ _ => Cert.Kernel.Gen.frame m ρ

/-- So does its idealized form. -/
theorem frame_tiledIdeal : Cert.frame_KernelIdeal (hKernelIdeal := Cert.KernelIdeal.Gen.facts) (hPre_finite_inputs := Cert.Pre_finite_inputs.Gen.facts) :=
  fun m ρ _ => Cert.KernelIdeal.Gen.frame m ρ

/-- The straight line runs, nothing faulting, and no operation of it writes an argument. -/
theorem frame_line : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.Stretches.kept_arg0 _), (h c Cert.ReferenceIdeal.main_arg1).trans (Cert.ReferenceIdeal.Stretches.kept_arg1 _),
     (h c Cert.ReferenceIdeal.main_arg2).trans (Cert.ReferenceIdeal.Stretches.kept_arg2 _), (h c Cert.ReferenceIdeal.main_arg3).trans (Cert.ReferenceIdeal.Stretches.kept_arg3 _),
     (h c Cert.ReferenceIdeal.main_arg4).trans (Cert.ReferenceIdeal.Stretches.kept_arg4 _), (h c Cert.ReferenceIdeal.main_arg5).trans (Cert.ReferenceIdeal.Stretches.kept_arg5 _),
     (h c Cert.ReferenceIdeal.main_arg6).trans (Cert.ReferenceIdeal.Stretches.kept_arg6 _), (h c Cert.ReferenceIdeal.main_arg7).trans (Cert.ReferenceIdeal.Stretches.kept_arg7 _)⟩)
    (Cert.ReferenceIdeal.Stretches.run (F := Ideal) m ρ)

/-- The idealized form is the tiled program's own text read over the extended reals: no operation was rewritten. -/
theorem preserves : Cert.preserves_Kernel_KernelIdeal := trivial

/-- From memories agreeing on the eight arguments, both programs end with the network of those arguments as their
    result, and with the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Net.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Boundaries.result m ρ c), (h c).2⟩)
      (Cert.KernelIdeal.Result.run (F := Ideal) m ρ)
  · refine (θ_run Cert.ReferenceIdeal.defs _ _).mono (fun r h c =>
      ⟨(h c Cert.ReferenceIdeal.main_v99).trans ((Cert.ReferenceIdeal.Stretches.result _).trans ?_),
       (h c Cert.ReferenceIdeal.main_arg0).trans (Cert.ReferenceIdeal.Stretches.kept_arg0 _), (h c Cert.ReferenceIdeal.main_arg1).trans (Cert.ReferenceIdeal.Stretches.kept_arg1 _),
       (h c Cert.ReferenceIdeal.main_arg2).trans (Cert.ReferenceIdeal.Stretches.kept_arg2 _), (h c Cert.ReferenceIdeal.main_arg3).trans (Cert.ReferenceIdeal.Stretches.kept_arg3 _),
       (h c Cert.ReferenceIdeal.main_arg4).trans (Cert.ReferenceIdeal.Stretches.kept_arg4 _), (h c Cert.ReferenceIdeal.main_arg5).trans (Cert.ReferenceIdeal.Stretches.kept_arg5 _),
       (h c Cert.ReferenceIdeal.main_arg6).trans (Cert.ReferenceIdeal.Stretches.kept_arg6 _), (h c Cert.ReferenceIdeal.main_arg7).trans (Cert.ReferenceIdeal.Stretches.kept_arg7 _)⟩)
      (Cert.ReferenceIdeal.Stretches.run (F := Ideal) m' ρ')
    obtain ⟨a0, a1, a2, a3, a4, a5, a6, a7⟩ := hagree c
    show Cert.Net.net (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_tiled, frame_tiledIdeal, frame_line, preserves, algebraic⟩

end Cert.Proof

end
